-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S512x512 : Shape := ⟨2, ![512, 512]⟩
abbrev S512 : Shape := ⟨1, ![512]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x56x56 .f32) (main_arg1 : FVec F S512x512 .f32) (main_arg2 : FVec F S512 .f32) (main_arg3 : FVec F S512 .f32) (main_arg4 : FVec F S512 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32x512x56x56 : Shape := ⟨4, ![32, 512, 56, 56]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S_ : Shape := ⟨0, ![]⟩
abbrev S32x56x56x256 : Shape := ⟨4, ![32, 56, 56, 256]⟩
abbrev S1x256 : Shape := ⟨2, ![1, 256]⟩
abbrev S1x512x8x56 : Shape := ⟨4, ![1, 512, 8, 56]⟩
abbrev S1x8x56x256 : Shape := ⟨4, ![1, 8, 56, 256]⟩
abbrev S1x8x56x512 : Shape := ⟨4, ![1, 8, 56, 512]⟩
abbrev S448x512 : Shape := ⟨2, ![448, 512]⟩
abbrev S448x32x16 : Shape := ⟨3, ![448, 32, 16]⟩
abbrev S448x16x16 : Shape := ⟨3, ![448, 16, 16]⟩
abbrev S448x256 : Shape := ⟨2, ![448, 256]⟩
abbrev S256 : Shape := ⟨1, ![256]⟩
abbrev S1x256x2 : Shape := ⟨3, ![1, 256, 2]⟩
abbrev S4x512x8x56 : Shape := ⟨4, ![4, 512, 8, 56]⟩
abbrev S4x8x56x256 : Shape := ⟨4, ![4, 8, 56, 256]⟩
abbrev S1792x256 : Shape := ⟨2, ![1792, 256]⟩
abbrev S1792x512 : Shape := ⟨2, ![1792, 512]⟩
abbrev S4x8x56x512 : Shape := ⟨4, ![4, 8, 56, 512]⟩

abbrev nBuf : Space → Nat
  | .hbm => 53
  | .vmem => 17
  | .smem => 0
  | _ => 0

abbrev bufTy : (tb : Table) → Fin (tcTables nBuf tb) → BufTy
  | .hbm, ⟨0, _⟩ => ⟨S32x512x56x56, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S256x512, .i32⟩
  | .hbm, ⟨7, _⟩ => ⟨S256x512, .i32⟩
  | .hbm, ⟨8, _⟩ => ⟨S_, .i32⟩
  | .hbm, ⟨9, _⟩ => ⟨S_, .i32⟩
  | .hbm, ⟨10, _⟩ => ⟨S256x512, .i32⟩
  | .hbm, ⟨11, _⟩ => ⟨S256x512, .i32⟩
  | .hbm, ⟨12, _⟩ => ⟨S256x512, .i32⟩
  | .hbm, ⟨13, _⟩ => ⟨S_, .i32⟩
  | .hbm, ⟨14, _⟩ => ⟨S256x512, .i32⟩
  | .hbm, ⟨15, _⟩ => ⟨S256x512, .i1⟩
  | .hbm, ⟨16, _⟩ => ⟨S256x512, .i32⟩
  | .hbm, ⟨17, _⟩ => ⟨S256x512, .i32⟩
  | .hbm, ⟨18, _⟩ => ⟨S_, .i32⟩
  | .hbm, ⟨19, _⟩ => ⟨S256x512, .i32⟩
  | .hbm, ⟨20, _⟩ => ⟨S256x512, .i1⟩
  | .hbm, ⟨21, _⟩ => ⟨S256x512, .i1⟩
  | .hbm, ⟨22, _⟩ => ⟨S_, .i32⟩
  | .hbm, ⟨23, _⟩ => ⟨S256x512, .i32⟩
  | .hbm, ⟨24, _⟩ => ⟨S256x512, .i32⟩
  | .hbm, ⟨25, _⟩ => ⟨S256x512, .i32⟩
  | .hbm, ⟨26, _⟩ => ⟨S256x512, .i1⟩
  | .hbm, ⟨27, _⟩ => ⟨S256x512, .bf16⟩
  | .hbm, ⟨28, _⟩ => ⟨S32x56x56x256, .bf16⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256x2, .f32⟩
  | .hbm, ⟨40, _⟩ => ⟨S1x512, .f32⟩
  | .hbm, ⟨41, _⟩ => ⟨S1x256x2, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S32x512x56x56, .f32⟩
  | .local _ .vmem, ⟨0, _⟩ => ⟨S1x512x8x56, .f32⟩
  | .local _ .vmem, ⟨1, _⟩ => ⟨S1x512x8x56, .f32⟩
  | .local _ .vmem, ⟨2, _⟩ => ⟨S512x512, .f32⟩
  | .local _ .vmem, ⟨3, _⟩ => ⟨S1x512, .f32⟩
  | .local _ .vmem, ⟨4, _⟩ => ⟨S1x8x56x256, .bf16⟩
  | .local _ .vmem, ⟨5, _⟩ => ⟨S1x8x56x256, .bf16⟩
  | .local _ .vmem, ⟨6, _⟩ => ⟨S1x256, .f32⟩
  | .local _ .vmem, ⟨7, _⟩ => ⟨S1x256, .f32⟩
  | .local _ .vmem, ⟨8, _⟩ => ⟨S4x512x8x56, .f32⟩
  | .local _ .vmem, ⟨9, _⟩ => ⟨S4x512x8x56, .f32⟩
  | .local _ .vmem, ⟨10, _⟩ => ⟨S4x8x56x256, .bf16⟩
  | .local _ .vmem, ⟨11, _⟩ => ⟨S4x8x56x256, .bf16⟩
  | .local _ .vmem, ⟨12, _⟩ => ⟨S256x512, .bf16⟩
  | .local _ .vmem, ⟨13, _⟩ => ⟨S1x512, .f32⟩
  | .local _ .vmem, ⟨14, _⟩ => ⟨S1x512, .f32⟩
  | .local _ .vmem, ⟨15, _⟩ => ⟨S4x512x8x56, .f32⟩
  | .local _ .vmem, ⟨16, _⟩ => ⟨S4x512x8x56, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6_0 : Ref sig .tc := ⟨.hbm, 28, rfl⟩
abbrev main_v6_1 : Ref sig .tc := ⟨.hbm, 29, rfl⟩
abbrev main_v6_2 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![32, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x8x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x56x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![8, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S4x512x8x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x8x56x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S4x512x8x56 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S512_S1x512 : S512.ShapeCasts S1x512
  bcast_S_S256x512 : S_.BroadcastsInDim S256x512 (![] : Fin 0 → Fin S256x512.rank)
  inb_S1x256_S1x256_0_0 : ∀ a, (![0, 0] : Fin 2 → Nat) a + S1x256.size a ≤ S1x256.size a
  h_S1x256 : 0 < S1x256.numel
  inb_S1x512x8x56_S1x512x8x56_0_0_0_0 : ∀ a, (![0, 0, 0, 0] : Fin 4 → Nat) a + S1x512x8x56.size a ≤ S1x512x8x56.size a
  h_S1x512x8x56 : 0 < S1x512x8x56.numel
  transposes_S1x512x8x56_p0_2_3_1_S1x8x56x512 : S1x512x8x56.Transposes [0, 2, 3, 1] S1x8x56x512
  shapeCasts_S1x8x56x512_S448x512 : S1x8x56x512.ShapeCasts S448x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S448x512 : S1x512.Broadcasts S448x512
  shapeCasts_S448x512_S448x32x16 : S448x512.ShapeCasts S448x32x16
  shapeCasts_S448x16x16_S448x256 : S448x16x16.ShapeCasts S448x256
  shapeCasts_S1x256_S1x256 : S1x256.ShapeCasts S1x256
  reduces_S448x256_S256 : S448x256.Reduces [0] S256
  shapeCasts_S256_S1x256 : S256.ShapeCasts S1x256
  shapeCasts_S448x256_S1x8x56x256 : S448x256.ShapeCasts S1x8x56x256
  inb_S1x8x56x256_S1x8x56x256_0_0_0_0 : ∀ a, (![0, 0, 0, 0] : Fin 4 → Nat) a + S1x8x56x256.size a ≤ S1x8x56x256.size a
  h_S1x8x56x256 : 0 < S1x8x56x256.numel
  packedbf16_S1x8x56x256_S1x8x56x256_0_0_0_0 : (Rect.unit (s := S1x8x56x256) ![0, 0, 0, 0] S1x8x56x256.size inb_S1x8x56x256_S1x8x56x256_0_0_0_0).PackedRows (EltTy.packing .bf16)
  bcast_S_S1x256 : S_.BroadcastsInDim S1x256 (![] : Fin 0 → Fin S1x256.rank)
  bcast_S1x256_S1x256x2_0_1 : S1x256.BroadcastsInDim S1x256x2 (![0, 1] : Fin 2 → Fin S1x256x2.rank)
  shapeCasts_S1x256x2_S1x512 : S1x256x2.ShapeCasts S1x512
  bcast_S_S1x512 : S_.BroadcastsInDim S1x512 (![] : Fin 0 → Fin S1x512.rank)
  inb_S4x512x8x56_S4x512x8x56_0_0_0_0 : ∀ a, (![0, 0, 0, 0] : Fin 4 → Nat) a + S4x512x8x56.size a ≤ S4x512x8x56.size a
  h_S4x512x8x56 : 0 < S4x512x8x56.numel
  inb_S4x8x56x256_S4x8x56x256_0_0_0_0 : ∀ a, (![0, 0, 0, 0] : Fin 4 → Nat) a + S4x8x56x256.size a ≤ S4x8x56x256.size a
  h_S4x8x56x256 : 0 < S4x8x56x256.numel
  shapeCasts_S4x8x56x256_S4x8x56x256 : S4x8x56x256.ShapeCasts S4x8x56x256
  shapeCasts_S4x8x56x256_S1792x256 : S4x8x56x256.ShapeCasts S1792x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S1792x512 : S1x512.Broadcasts S1792x512
  shapeCasts_S1792x512_S4x8x56x512 : S1792x512.ShapeCasts S4x8x56x512
  transposes_S4x8x56x512_p0_3_1_2_S4x512x8x56 : S4x8x56x512.Transposes [0, 3, 1, 2] S4x512x8x56
  dot_S448x512_S512x512_S448x512_1_0_0_1_n_n_wf : DotDims.WF S448x512 S512x512 S448x512 [1] [0] [0] [1] [] []
  dot_S448x32x16_S448x32x16_S448x16x16_1_1_2_2_0_0_wf : DotDims.WF S448x32x16 S448x32x16 S448x16x16 [1] [1] [2] [2] [0] [0]
  dot_S1792x256_S256x512_S1792x512_1_0_0_1_n_n_wf : DotDims.WF S1792x256 S256x512 S1792x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8x56.size a ≤ S32x512x56x56.size a
  hwx0_0 : ∀ i : grid0.Coords, EltTy.bits .f32 = 32 ∨ (Rect.block (s := S32x512x56x56) S1x512x8x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x56x256.size a ≤ S32x56x56x256.size a
  hwx0_3 : ∀ i : grid0.Coords, EltTy.bits .bf16 = 32 ∨ (Rect.block (s := S32x56x56x256) S1x8x56x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x8x56.size a ≤ S32x512x56x56.size a
  hwx1_0 : ∀ i : grid1.Coords, EltTy.bits .f32 = 32 ∨ (Rect.block (s := S32x512x56x56) S4x512x8x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x8x56x256.size a ≤ S32x56x56x256.size a
  hwx1_1 : ∀ i : grid1.Coords, EltTy.bits .bf16 = 32 ∨ (Rect.block (s := S32x56x56x256) S4x8x56x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x512x8x56.size a ≤ S32x512x56x56.size a
  hwx1_5 : ∀ i : grid1.Coords, EltTy.bits .f32 = 32 ∨ (Rect.block (s := S32x512x56x56) S4x512x8x56.size (cc1_transform_5 i) (hinb1_5 i)).WholeWords (EltTy.packing .f32)

variable [Facts₀]

def dot_S448x512_S512x512_S448x512_1_0_0_1_n_n : DotDims S448x512 S512x512 S448x512 where
  lhsContracting := [1]
  rhsContracting := [0]
  lhsNonContracting := [0]
  rhsNonContracting := [1]
  lhsBatch := []
  rhsBatch := []
  wf := dot_S448x512_S512x512_S448x512_1_0_0_1_n_n_wf
def dot_S448x32x16_S448x32x16_S448x16x16_1_1_2_2_0_0 : DotDims S448x32x16 S448x32x16 S448x16x16 where
  lhsContracting := [1]
  rhsContracting := [1]
  lhsNonContracting := [2]
  rhsNonContracting := [2]
  lhsBatch := [0]
  rhsBatch := [0]
  wf := dot_S448x32x16_S448x32x16_S448x16x16_1_1_2_2_0_0_wf
def dot_S1792x256_S256x512_S1792x512_1_0_0_1_n_n : DotDims S1792x256 S256x512 S1792x512 where
  lhsContracting := [1]
  rhsContracting := [0]
  lhsNonContracting := [0]
  rhsNonContracting := [1]
  lhsBatch := []
  rhsBatch := []
  wf := dot_S1792x256_S256x512_S1792x512_1_0_0_1_n_n_wf

abbrev win0_0 : Pipeline.Window sig grid0 :=
  Pipeline.Window.ofSpec (Memref.whole main_arg0) S1x512x8x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x8x56x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S4x512x8x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S4x8x56x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S4x512x8x56.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x512x56x56 : Shape := ⟨4, ![32, 512, 56, 56]⟩
abbrev S512x512 : Shape := ⟨2, ![512, 512]⟩
abbrev S512 : Shape := ⟨1, ![512]⟩
abbrev S32x56x56x512 : Shape := ⟨4, ![32, 56, 56, 512]⟩
abbrev S100352x512 : Shape := ⟨2, ![100352, 512]⟩
abbrev S1x512 : Shape := ⟨2, ![1, 512]⟩
abbrev S100352x32x16 : Shape := ⟨3, ![100352, 32, 16]⟩
abbrev S100352x16x16 : Shape := ⟨3, ![100352, 16, 16]⟩
abbrev S_ : Shape := ⟨0, ![]⟩
abbrev S32x56x56x256 : Shape := ⟨4, ![32, 56, 56, 256]⟩
abbrev S512x1 : Shape := ⟨2, ![512, 1]⟩
abbrev S1x512x1x1 : Shape := ⟨4, ![1, 512, 1, 1]⟩

abbrev nBuf : Space → Nat
  | .hbm => 97
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S32x56x56x512, .f32⟩
  | .hbm, ⟨6, _⟩ => ⟨S100352x512, .f32⟩
  | .hbm, ⟨7, _⟩ => ⟨S512x512, .f32⟩
  | .hbm, ⟨8, _⟩ => ⟨S100352x512, .f32⟩
  | .hbm, ⟨9, _⟩ => ⟨S1x512, .f32⟩
  | .hbm, ⟨10, _⟩ => ⟨S100352x512, .f32⟩
  | .hbm, ⟨11, _⟩ => ⟨S100352x512, .f32⟩
  | .hbm, ⟨12, _⟩ => ⟨S100352x512, .f32⟩
  | .hbm, ⟨13, _⟩ => ⟨S100352x32x16, .f32⟩
  | .hbm, ⟨14, _⟩ => ⟨S100352x16x16, .f32⟩
  | .hbm, ⟨15, _⟩ => ⟨S_, .f32⟩
  | .hbm, ⟨16, _⟩ => ⟨S100352x16x16, .f32⟩
  | .hbm, ⟨17, _⟩ => ⟨S100352x16x16, .f32⟩
  | .hbm, ⟨18, _⟩ => ⟨S100352x16x16, .f32⟩
  | .hbm, ⟨19, _⟩ => ⟨S32x56x56x256, .f32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S32x56x56x512, .f32⟩
  | .hbm, ⟨51, _⟩ => ⟨S32x512x56x56, .f32⟩
  | .hbm, ⟨52, _⟩ => ⟨S_, .f32⟩
  | .hbm, ⟨53, _⟩ => ⟨S512, .f32⟩
  | .hbm, ⟨54, _⟩ => ⟨S1x512x1x1, .f32⟩
  | .hbm, ⟨55, _⟩ => ⟨S_, .f32⟩
  | .hbm, ⟨56, _⟩ => ⟨S1x512x1x1, .f32⟩
  | .hbm, ⟨57, _⟩ => ⟨S1x512x1x1, .f32⟩
  | .hbm, ⟨58, _⟩ => ⟨S_, .i32⟩
  | .hbm, ⟨59, _⟩ => ⟨S_, .f32⟩
  | .hbm, ⟨60, _⟩ => ⟨S512, .f32⟩
  | .hbm, ⟨61, _⟩ => ⟨S1x512x1x1, .f32⟩
  | .hbm, ⟨62, _⟩ => ⟨S_, .f32⟩
  | .hbm, ⟨63, _⟩ => ⟨S1x512x1x1, .f32⟩
  | .hbm, ⟨64, _⟩ => ⟨S1x512x1x1, .f32⟩
  | .hbm, ⟨65, _⟩ => ⟨S32x512x56x56, .f32⟩
  | .hbm, ⟨66, _⟩ => ⟨S32x512x56x56, .f32⟩
  | .hbm, ⟨67, _⟩ => ⟨S32x512x56x56, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S512, .f32⟩
  | .hbm, ⟨73, _⟩ => ⟨S1x512x1x1, .f32⟩
  | .hbm, ⟨74, _⟩ => ⟨S1x512x1x1, .f32⟩
  | .hbm, ⟨75, _⟩ => ⟨S1x512x1x1, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S1x512x1x1, .f32⟩
  | .hbm, ⟨81, _⟩ => ⟨S1x512x1x1, .f32⟩
  | .hbm, ⟨82, _⟩ => ⟨S32x512x56x56, .f32⟩
  | .hbm, ⟨83, _⟩ => ⟨S32x512x56x56, .f32⟩
  | .hbm, ⟨84, _⟩ => ⟨S_, .f32⟩
  | .hbm, ⟨85, _⟩ => ⟨S1x512x1x1, .f32⟩
  | .hbm, ⟨86, _⟩ => ⟨S1x512x1x1, .f32⟩
  | .hbm, ⟨87, _⟩ => ⟨S1x512x1x1, .f32⟩
  | .hbm, ⟨88, _⟩ => ⟨S32x512x56x56, .f32⟩
  | .hbm, ⟨89, _⟩ => ⟨S32x512x56x56, .f32⟩
  | .hbm, ⟨90, _⟩ => ⟨S1x512x1x1, .f32⟩
  | .hbm, ⟨91, _⟩ => ⟨S32x512x56x56, .f32⟩
  | .hbm, ⟨92, _⟩ => ⟨S32x512x56x56, .f32⟩
  | .hbm, ⟨93, _⟩ => ⟨S1x512x1x1, .f32⟩
  | .hbm, ⟨94, _⟩ => ⟨S32x512x56x56, .f32⟩
  | .hbm, ⟨95, _⟩ => ⟨S32x512x56x56, .f32⟩
  | .hbm, ⟨96, _⟩ => ⟨S32x512x56x56, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_cst_3 : Ref sig .tc := ⟨.hbm, 76, rfl⟩
abbrev main_call1_v13 : Ref sig .tc := ⟨.hbm, 77, rfl⟩
abbrev main_call1_cst_4 : Ref sig .tc := ⟨.hbm, 78, rfl⟩
abbrev main_call1_call0_v0 : Ref sig .tc := ⟨.hbm, 79, rfl⟩
abbrev main_call1_call0_v1 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_6 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]

class Facts₀ : Prop where
  transposes_S32x512x56x56_S32x56x56x512_0_2_3_1 : S32x512x56x56.Transposes [0, 2, 3, 1] S32x56x56x512
  shapeCasts_S32x56x56x512_S100352x512 : S32x56x56x512.ShapeCasts S100352x512
  transposes_S512x512_S512x512_1_0 : S512x512.Transposes [1, 0] S512x512
  bcast_S512_S1x512_1 : S512.BroadcastsInDim S1x512 (![1] : Fin 1 → Fin S1x512.rank)
  bcast_S1x512_S100352x512_0_1 : S1x512.BroadcastsInDim S100352x512 (![0, 1] : Fin 2 → Fin S100352x512.rank)
  shapeCasts_S100352x512_S100352x32x16 : S100352x512.ShapeCasts S100352x32x16
  bcast_S_S100352x16x16 : S_.BroadcastsInDim S100352x16x16 (![] : Fin 0 → Fin S100352x16x16.rank)
  shapeCasts_S100352x16x16_S32x56x56x256 : S100352x16x16.ShapeCasts S32x56x56x256
  bcast_S_S512 : S_.BroadcastsInDim S512 (![] : Fin 0 → Fin S512.rank)
  bcast_S512_S512x1_0 : S512.BroadcastsInDim S512x1 (![0] : Fin 1 → Fin S512x1.rank)
  transposes_S32x56x56x512_S32x512x56x56_0_3_1_2 : S32x56x56x512.Transposes [0, 3, 1, 2] S32x512x56x56
  reducesTo_S32x512x56x56_S512_d0_2_3 : S32x512x56x56.ReducesTo [0, 2, 3] S512
  h_S_ : 0 < S_.numel
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S32x512x56x56_0_1_2_3 : S1x512x1x1.BroadcastsInDim S32x512x56x56 (![0, 1, 2, 3] : Fin 4 → Fin S32x512x56x56.rank)
  dot_S100352x512_S512x512_S100352x512_1_0_0_1_n_n_wf : DotDims.WF S100352x512 S512x512 S100352x512 [1] [0] [0] [1] [] []
  dot_S100352x32x16_S100352x32x16_S100352x16x16_1_1_2_2_0_0_wf : DotDims.WF S100352x32x16 S100352x32x16 S100352x16x16 [1] [1] [2] [2] [0] [0]
  gather_S32x56x56x256_S512x1_S32x56x56x512_012_3_n_n_3_1_3256561_wf : GatherDims.WF S32x56x56x256 S512x1 S32x56x56x512 [0, 1, 2] [3] [] [3] [] 1 ![32, 56, 56, 1]

variable [Facts₀]

def dot_S100352x512_S512x512_S100352x512_1_0_0_1_n_n : DotDims S100352x512 S512x512 S100352x512 where
  lhsContracting := [1]
  rhsContracting := [0]
  lhsNonContracting := [0]
  rhsNonContracting := [1]
  lhsBatch := []
  rhsBatch := []
  wf := dot_S100352x512_S512x512_S100352x512_1_0_0_1_n_n_wf
def dot_S100352x32x16_S100352x32x16_S100352x16x16_1_1_2_2_0_0 : DotDims S100352x32x16 S100352x32x16 S100352x16x16 where
  lhsContracting := [1]
  rhsContracting := [1]
  lhsNonContracting := [2]
  rhsNonContracting := [2]
  lhsBatch := [0]
  rhsBatch := [0]
  wf := dot_S100352x32x16_S100352x32x16_S100352x16x16_1_1_2_2_0_0_wf
def gather_S32x56x56x256_S512x1_S32x56x56x512_012_3_n_n_3_1_3256561 : GatherDims S32x56x56x256 S512x1 S32x56x56x512 where
  offsetDims := [0, 1, 2]
  collapsedSliceDims := [3]
  operandBatchingDims := []
  startIndicesBatchingDims := []
  startIndexMap := [3]
  indexVectorDim := 1
  sliceSizes := ![32, 56, 56, 1]
  wf := gather_S32x56x56x256_S512x1_S32x56x56x512_012_3_n_n_3_1_3256561_wf

class Facts : Prop extends Facts₀ where

variable [Facts]
-- ==== Proof.Spec.lean ====
/-
  What both programs compute, as functions of the argument arrays on the extended reals.

  Write a pixel as (b, w, h) and a channel as c. The linear layer with its residual is
    lin(b,w,h,c) = x(b,c,w,h) + (∑ₖ x(b,k,w,h) · fw(c,k) + fb(c)).
  The 512 channels are 32 groups of 16; the grouped product of a pixel with itself is the 16 × 16 matrix
    gram(b,w,h,p,q) = ∑_g lin(b,w,h,16g+p) · lin(b,w,h,16g+q),
  and the activation is act(b,w,h,16p+q) = tanh(gram(b,w,h,p,q) · (1/32)), a real number in [-1, 1] whatever the
  arguments are. Channel c of the upsampled activation is entry c/2 of it, and the result is the batch-normalised
  upsampled activation added to x.

  The two programs normalise differently. One keeps the running totals ∑ act and ∑ act² over all pixels, forms the
  mean and "mean of squares minus squared mean", and folds the normalisation into one scale and one offset per channel
  (`fusedForm`). The other subtracts the mean, averages the squared deviations, and applies rsqrt, gain and offset in
  that order (`centredForm`). Both are stated over an arbitrary activation array `U` so that the law joining them is a
  statement about sums of reals only.
-/
import Idealize.ShloMosaic.PureOps.Ideal
import Idealize.ShloMosaic.Lib.ValueIdx

noncomputable section

open scoped BigOperators

namespace Cert.Spec

open Idealize.ShloMosaic Idealize.ShloMosaic.ValueIdx

/-- The number of pixels, 32 · 56 · 56 = 100352, as the single-precision word both programs divide by. -/
abbrev nPix : EReal := Ideal.ofBits .f32 0x47C40000#32
/-- The variance offset both programs add before the reciprocal square root (the word nearest 1e-5). -/
abbrev eps : EReal := Ideal.ofBits .f32 0x3727C5AC#32

/-- Channel `16 g + p`: entry `p` of group `g`. -/
def chan (g : Fin 32) (p : Fin 16) : Fin 512 := ⟨g.val * 16 + p.val, by omega⟩
/-- The activation entry channel `c` is upsampled from: `c / 2`. -/
def half (c : Fin 512) : Fin 256 := ⟨c.val / 2, by omega⟩
/-- Row `j / 16` of the 16 × 16 product that activation entry `j` comes from. -/
def rowOf (j : Fin 256) : Fin 16 := ⟨j.val / 16, by omega⟩
/-- Column `j % 16` of the 16 × 16 product that activation entry `j` comes from. -/
def colOf (j : Fin 256) : Fin 16 := ⟨j.val % 16, by omega⟩

section Activation

variable (x : (⟨4, ![32, 512, 56, 56]⟩ : Shape).Idx → EReal) (fw : (⟨2, ![512, 512]⟩ : Shape).Idx → EReal)
  (fb : (⟨1, ![512]⟩ : Shape).Idx → EReal)

/-- The linear layer plus its residual at pixel (b, w, h), channel c. -/
def lin (b : Fin 32) (w h : Fin 56) (c : Fin 512) : EReal :=
  x (ix4 b c w h) + ((∑ k : Fin 512, x (ix4 b k w h) * fw (ix2 c k)) + fb (ix1 c))

/-- The grouped product of a pixel's channels with themselves: entry (p, q) sums over the 32 groups. -/
def gram (b : Fin 32) (w h : Fin 56) (p q : Fin 16) : EReal :=
  ∑ g : Fin 32, lin x fw fb b w h (chan g p) * lin x fw fb b w h (chan g q)

/-- The activation: tanh of the grouped product scaled by 1/32, entry `j = 16 p + q`. -/
def act (b : Fin 32) (w h : Fin 56) (j : Fin 256) : EReal :=
  Ideal.tanh (gram x fw fb b w h (rowOf j) (colOf j) * ((1 / 32 : ℝ) : EReal))

/-- The activation is a real number at every entry: tanh sends both infinities to ±1. -/
theorem act_real (b : Fin 32) (w h : Fin 56) (j : Fin 256) : ∃ r : ℝ, act x fw fb b w h j = (r : EReal) := by
  unfold act
  induction (gram x fw fb b w h (rowOf j) (colOf j) * ((1 / 32 : ℝ) : EReal)) using EReal.rec with
  | bot => exact ⟨-1, by simp⟩
  | coe r => exact ⟨Real.tanh r, rfl⟩
  | top => exact ⟨1, by simp⟩

end Activation

section Forms

variable (U : Fin 32 → Fin 56 → Fin 56 → Fin 256 → EReal)
  (γ β : (⟨1, ![512]⟩ : Shape).Idx → EReal) (x : (⟨4, ![32, 512, 56, 56]⟩ : Shape).Idx → EReal)

/-- The total of activation entry `j` over all pixels. -/
def total (j : Fin 256) : EReal := ∑ b : Fin 32, ∑ w : Fin 56, ∑ h : Fin 56, U b w h j
/-- The total of the squares of activation entry `j` over all pixels. -/
def totalSq (j : Fin 256) : EReal := ∑ b : Fin 32, ∑ w : Fin 56, ∑ h : Fin 56, U b w h j * U b w h j

/-- The batch mean of entry `j`. -/
def mean (j : Fin 256) : EReal := Ideal.div (total U j) nPix
/-- The variance as mean of squares minus squared mean. -/
def varRaw (j : Fin 256) : EReal := Ideal.div (totalSq U j) nPix - mean U j * mean U j
/-- The variance as the mean squared deviation from the mean. -/
def varCentred (j : Fin 256) : EReal :=
  Ideal.div (∑ b : Fin 32, ∑ w : Fin 56, ∑ h : Fin 56, (U b w h j - mean U j) * (U b w h j - mean U j)) nPix

/-- The per-channel scale: gain times the reciprocal standard deviation of the entry it is upsampled from. -/
def scale (c : Fin 512) : EReal := γ (ix1 c) * Ideal.rsqrt (varRaw U (half c) + eps)
/-- The per-channel offset that absorbs the mean. -/
def offset (c : Fin 512) : EReal := β (ix1 c) - mean U (half c) * scale U γ c

/-- Normalisation folded into one scale and one offset per channel, added to x. -/
def fusedForm : (⟨4, ![32, 512, 56, 56]⟩ : Shape).Idx → EReal := fun i =>
  x i + (U (i 0) (i 2) (i 3) (half (i 1)) * scale U γ (i 1) + offset U γ β (i 1))

/-- Normalisation in textbook order — subtract the mean, multiply by the reciprocal standard deviation, then gain and
    offset — added to x. -/
def centredForm : (⟨4, ![32, 512, 56, 56]⟩ : Shape).Idx → EReal := fun i =>
  x i + (((U (i 0) (i 2) (i 3) (half (i 1)) - mean U (half (i 1))) * Ideal.rsqrt (varCentred U (half (i 1)) + eps))
    * γ (ix1 (i 1)) + β (ix1 (i 1)))

end Forms

end Cert.Spec

end
-- ==== Proof.Consts.lean ====
/-
  The float constants the two programs spell, as the extended reals their words denote: 32 and its reciprocal 1/32
  (both exact in single precision, which is why a product with one is a quotient by the other), the pixel count
  100352 = 32 · 56 · 56, zero, and the variance offset, of which only positivity and finiteness are ever used.
-/
import Idealize.ShloMosaic.PureOps.Ideal

noncomputable section

namespace Cert.Consts

open Idealize.ShloMosaic

/-- The zero word denotes 0. -/
theorem ofBits_zero : Ideal.ofBits .f32 0x00000000#32 = 0 := by
  simp [Ideal.ofBits, Ideal.ieee]

/-- The word 0x42000000 denotes 32. -/
theorem ofBits_32 : Ideal.ofBits .f32 0x42000000#32 = ((32 : ℝ) : EReal) := by
  simp [Ideal.ofBits, Ideal.ieee, -EReal.coe_mul]; norm_num

/-- The word 0x3D000000 denotes 1/32, exactly. -/
theorem ofBits_inv32 : Ideal.ofBits .f32 0x3D000000#32 = ((1 / 32 : ℝ) : EReal) := by
  simp [Ideal.ofBits, Ideal.ieee, -EReal.coe_mul]; norm_num

/-- The word 0x47C40000 denotes 100352. -/
theorem ofBits_nPix : Ideal.ofBits .f32 0x47C40000#32 = ((100352 : ℝ) : EReal) := by
  simp [Ideal.ofBits, Ideal.ieee, -EReal.coe_mul]; norm_num

/-- The variance offset is a positive real number. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

end Cert.Consts

end
-- ==== Proof.Algebra.lean ====
/-
  The law that joins the two normalisations, on the extended reals.

  Fix an activation array U whose every entry is (the image of) a real number, and real gain γ and offset β. Let N be
  the number of pixels, μ the mean of an entry over the pixels, and write ρ for the reciprocal square root of the
  variance plus the positive offset ε.

  • The variance can be computed two ways, and over the reals they agree: with ∑ u = N μ,
        (∑ u²) / N − μ² = (∑ (u − μ)²) / N,
    by expanding (u − μ)² = u² − 2 μ u + μ² and summing over the N pixels.
  • The second expression is a sum of squares divided by a positive number, hence non-negative; adding ε > 0 makes it
    positive, so ρ is a real number (the reciprocal square root has no corner there).
  • With every quantity real, u · (γ ρ) + (β − μ · (γ ρ)) = ((u − μ) · ρ) · γ + β by distributivity.
  All three steps use that the quantities are finite: on the extended reals distributivity and cancellation fail at
  the infinities. The input x is only ever added on the left of both sides, so nothing is asked of it.
-/
import proofs.«174560_j51247549776179_2_alg».proof.Proof.Spec
import proofs.«174560_j51247549776179_2_alg».proof.Proof.Consts
import Mathlib.Tactic.Ring
import Mathlib.Tactic.FieldSimp
import Mathlib.Tactic.Positivity

noncomputable section

open scoped BigOperators

namespace Cert.Algebra

open Idealize.ShloMosaic Idealize.ShloMosaic.ValueIdx Cert.Spec

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mean of squares minus squared mean is the mean squared deviation, for reals indexed by any finite type whose
    cardinality is the divisor. -/
theorem var_real {ι : Type*} [Fintype ι] (f : ι → ℝ) (N : ℝ) (hN : N ≠ 0) (hn : (Fintype.card ι : ℝ) = N) :
    (∑ k, f k * f k) * (1 / N) - ((∑ k, f k) * (1 / N)) * ((∑ k, f k) * (1 / N))
      = (∑ k, (f k - (∑ k, f k) * (1 / N)) * (f k - (∑ k, f k) * (1 / N))) * (1 / N) := by
  obtain ⟨μ, hμ⟩ : ∃ μ, μ = (∑ k, f k) * (1 / N) := ⟨_, rfl⟩
  rw [← hμ]
  have e : ∑ k, (f k - μ) * (f k - μ) = (∑ k, f k * f k) - 2 * μ * (∑ k, f k) + N * (μ * μ) := by
    have : ∀ k, (f k - μ) * (f k - μ) = f k * f k - 2 * μ * f k + μ * μ := fun k => by ring
    simp only [this, Finset.sum_add_distrib, Finset.sum_sub_distrib, ← Finset.mul_sum, Finset.sum_const,
      Finset.card_univ, nsmul_eq_mul, hn]
    ring
  have hS : (∑ k, f k) = μ * N := by rw [hμ]; field_simp
  rw [e, hS]
  field_simp
  ring

/-- A triple sum over pixels is one sum over the product type. -/
theorem sum_pixels {M : Type*} [AddCommMonoid M] (f : Fin 32 → Fin 56 → Fin 56 → M) :
    (∑ b : Fin 32, ∑ w : Fin 56, ∑ h : Fin 56, f b w h) = ∑ p : Fin 32 × Fin 56 × Fin 56, f p.1 p.2.1 p.2.2 := by
  rw [Fintype.sum_prod_type]
  exact Finset.sum_congr rfl fun b _ => by rw [Fintype.sum_prod_type]

/-- There are 100352 pixels. -/
theorem card_pixels : (Fintype.card (Fin 32 × Fin 56 × Fin 56) : ℝ) = 100352 := by
  simp [Fintype.card_prod]

section Forms

variable (u : Fin 32 → Fin 56 → Fin 56 → Fin 256 → ℝ)

/-- The real mean of entry `j`. -/
def meanR (j : Fin 256) : ℝ := (∑ p : Fin 32 × Fin 56 × Fin 56, u p.1 p.2.1 p.2.2 j) * (1 / 100352)
/-- The real variance of entry `j`, as the mean squared deviation. -/
def varR (j : Fin 256) : ℝ :=
  (∑ p : Fin 32 × Fin 56 × Fin 56, (u p.1 p.2.1 p.2.2 j - meanR u j) * (u p.1 p.2.1 p.2.2 j - meanR u j)) * (1 / 100352)

theorem varR_nonneg (j : Fin 256) : 0 ≤ varR u j := by
  unfold varR
  exact mul_nonneg (Finset.sum_nonneg fun p _ => mul_self_nonneg _) (by norm_num)

theorem total_coe (j : Fin 256) :
    total (fun b w h j => (u b w h j : EReal)) j = ((∑ p : Fin 32 × Fin 56 × Fin 56, u p.1 p.2.1 p.2.2 j : ℝ) : EReal) := by
  unfold total; rw [sum_pixels, coe_sum]

theorem totalSq_coe (j : Fin 256) :
    totalSq (fun b w h j => (u b w h j : EReal)) j
      = ((∑ p : Fin 32 × Fin 56 × Fin 56, u p.1 p.2.1 p.2.2 j * u p.1 p.2.1 p.2.2 j : ℝ) : EReal) := by
  unfold totalSq; rw [sum_pixels, coe_sum]
  exact Finset.sum_congr rfl fun p _ => (EReal.coe_mul _ _).symm

theorem mean_coe (j : Fin 256) : mean (fun b w h j => (u b w h j : EReal)) j = (meanR u j : EReal) := by
  unfold mean meanR nPix
  rw [Cert.Consts.ofBits_nPix, Ideal.div_coe (by norm_num : (100352 : ℝ) ≠ 0), total_coe, ← EReal.coe_mul]

theorem varCentred_coe (j : Fin 256) : varCentred (fun b w h j => (u b w h j : EReal)) j = (varR u j : EReal) := by
  unfold varCentred varR nPix
  rw [Cert.Consts.ofBits_nPix, Ideal.div_coe (by norm_num : (100352 : ℝ) ≠ 0), mean_coe, sum_pixels]
  have e : (∑ p : Fin 32 × Fin 56 × Fin 56, ((u p.1 p.2.1 p.2.2 j : EReal) - (meanR u j : EReal)) * ((u p.1 p.2.1 p.2.2 j : EReal) - (meanR u j : EReal)))
      = ((∑ p : Fin 32 × Fin 56 × Fin 56, (u p.1 p.2.1 p.2.2 j - meanR u j) * (u p.1 p.2.1 p.2.2 j - meanR u j) : ℝ) : EReal) := by
    rw [coe_sum]; exact Finset.sum_congr rfl fun p _ => by rw [← EReal.coe_sub, ← EReal.coe_mul]
  rw [e, ← EReal.coe_mul]

theorem varRaw_coe (j : Fin 256) : varRaw (fun b w h j => (u b w h j : EReal)) j = (varR u j : EReal) := by
  unfold varRaw nPix
  rw [Cert.Consts.ofBits_nPix, Ideal.div_coe (by norm_num : (100352 : ℝ) ≠ 0), mean_coe, totalSq_coe,
    ← EReal.coe_mul, ← EReal.coe_mul, ← EReal.coe_sub]
  refine congrArg _ ?_
  unfold varR meanR
  exact var_real (fun p : Fin 32 × Fin 56 × Fin 56 => u p.1 p.2.1 p.2.2 j) 100352 (by norm_num) card_pixels

end Forms

/-- The reciprocal square root of a positive real is a real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

/-- THE LAW: for a real activation array and real gain and offset, the fused normalisation and the textbook one are
    the same function, whatever x is. -/
theorem fused_eq_centred (U : Fin 32 → Fin 56 → Fin 56 → Fin 256 → EReal)
    (hU : ∀ b w h j, ∃ r : ℝ, U b w h j = (r : EReal))
    (γ β : (⟨1, ![512]⟩ : Shape).Idx → EReal)
    (hγ : ∀ c : Fin 512, ∃ r : ℝ, γ (ix1 c) = (r : EReal)) (hβ : ∀ c : Fin 512, ∃ r : ℝ, β (ix1 c) = (r : EReal))
    (x : (⟨4, ![32, 512, 56, 56]⟩ : Shape).Idx → EReal) :
    fusedForm U γ β x = centredForm U γ β x := by
  choose u hu using hU
  obtain rfl : U = fun b w h j => (u b w h j : EReal) := funext fun b => funext fun w => funext fun h => funext fun j => hu b w h j
  obtain ⟨e, he, hε⟩ := Cert.Consts.eps_pos
  funext i
  obtain ⟨g, hg⟩ := hγ (i 1)
  obtain ⟨bt, hb⟩ := hβ (i 1)
  have hpos : 0 < varR u (half (i 1)) + e := add_pos_of_nonneg_of_pos (varR_nonneg u _) he
  unfold fusedForm centredForm offset scale eps
  rw [varRaw_coe, varCentred_coe, mean_coe, hε, hg, hb, ← EReal.coe_add, rsqrt_pos hpos]
  refine congrArg (x i + ·) ?_
  rw [← EReal.coe_mul, ← EReal.coe_mul, ← EReal.coe_mul, ← EReal.coe_sub, ← EReal.coe_add, ← EReal.coe_sub,
    ← EReal.coe_mul, ← EReal.coe_mul, ← EReal.coe_add]
  exact congrArg _ (by ring)

end Cert.Algebra

end
-- ==== Proof.Finite.lean ====
/-
  From the precondition to "the gain and the offset are real numbers".

  The precondition says of each of the five argument arrays that every entry v satisfies |v| < +∞, the five "for all
  entries" statements joined by "and". On the extended reals |v| = max v (−v), which is +∞ exactly at the two
  infinities, so an entry passing the test is (the image of) a real number. Only the last two arrays, the gain and the
  offset of the normalisation, are needed: the law that joins the two programs multiplies and distributes over them.
-/
import proofs.«174560_j51247549776179_2_alg».proof.Pre_finite_inputs
import proofs.«174560_j51247549776179_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

/-- The index type of a rank-0 array has one element. -/
instance : Subsingleton S_.Idx := ⟨fun _ _ => funext fun d => d.elim0⟩

/-- An extended real whose absolute value is below +∞ is a real number. -/
theorem real_of_abs_lt_inf (v : EReal)
    (h : Ideal.cmp .olt (max v (-v)) (Ideal.ofBits .f32 0x7F800000#32) = 1#1) : ∃ r : ℝ, v = (r : EReal) := by
  induction v using EReal.rec with
  | bot => exact absurd h (by simp [Ideal.cmp, Ideal.ofBits, Ideal.ieee])
  | coe r => exact ⟨r, rfl⟩
  | top => exact absurd h (by simp [Ideal.cmp, Ideal.ofBits, Ideal.ieee])

variable [Cert.Pre_finite_inputs.Facts]

/-- Under the precondition every entry of the gain and of the offset is a real number. -/
theorem gain_offset_real (x : FVec Ideal S32x512x56x56 .f32) (fw : FVec Ideal S512x512 .f32) (fb g b : FVec Ideal S512 .f32)
    (h : Cert.Pre_finite_inputs.fn (F := Ideal) x fw fb g b = fun _ => 1#1) :
    (∀ c : Fin 512, ∃ r : ℝ, g (ix1 c) = (r : EReal)) ∧ (∀ c : Fin 512, ∃ r : ℝ, b (ix1 c) = (r : EReal)) := by
  have h0 := congrFun h ix0
  dsimp only [Cert.Pre_finite_inputs.fn, Cert.Pre_finite_inputs.fn_part1] at h0
  obtain ⟨h1, hb⟩ := IntOp.andi_eq_one.mp h0
  obtain ⟨-, hg⟩ := IntOp.andi_eq_one.mp h1
  exact ⟨fun c => real_of_abs_lt_inf _ (Host.reduce_andi_all _ _ _ _ ix0 hg (ix1 c)),
    fun c => real_of_abs_lt_inf _ (Host.reduce_andi_all _ _ _ _ ix0 hb (ix1 c))⟩

end Cert.Finite

end
-- ==== Proof.KernelRun.lean ====
/-
  The idealized kernel program's run with its RESULT named.

  The program is three stretches of host operations, the statistics pass, one more stretch, and the normalising pass.
  Its buffer contents at each boundary are a fold through those six segments from the launch memory; after the last
  segment every unscoped buffer holds the last boundary's contents. Read at the five arguments this is "the arguments
  end as launched"; read at the result buffer it is "the result is what the second pass's write-backs leave in its
  output array", which is what a value proof needs. This module states both in one run: every weakly fair execution
  terminates without a fault, the result array is the second pass's output array after its last grid point, and the
  arguments are unchanged.
-/
import proofs.«174560_j51247549776179_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second pass's output window, so after the last segment it holds what that
    pass's write-backs leave there. -/
theorem W6_result (c : Dev nD) :
    W6 m ρ c (Proc.devRef .tc main_v25) = (dat1 (V5 m ρ) c).arrAt 5 cfg1.N :=
  W6_arr m ρ c 5

set_option backward.isDefEq.respectTransparency.types false in
/-- Every weakly fair execution of the program terminates, nothing faulting; the result array ends at the second
    pass's output array after its last grid point, and the five argument arrays end as launched. -/
theorem run_result : θ_run defs (onTc (τ := τ) (main (F := F))) ⟨m, fun _ => 0, ρ⟩ (fun r => ∀ c : Dev nD,
      r.2.mem ((c.tc : Thread nD τ).loc main_v25) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v25 (by decide))).trans (W6_result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Run

end
-- ==== Proof.Wiring.lean ====
/-
  The pieces the two-pass program hands from its first pass to its second, as functions of arrays.

  After the first pass the program holds the activation array and the two rows of totals. On the host it turns the
  totals into one row of scales and one row of offsets, 512 entries each, entry c computed from entry c/2 of the
  totals; it also builds, once, the 0/1 matrix D with D(j, c) = 1 exactly when c/2 = j, so that multiplying an
  activation row by D repeats every entry twice. The second pass then computes, at image b, channel c, row w, column h,
      x(b,c,w,h) + ((∑ⱼ u(b,w,h,j) · D(j,c)) · scale(c) + offset(c)).
  Here these are plain definitions over arbitrary arrays, and the last lemma says what they amount to when the
  arrays are the activation and its totals: the fused form of the specification.
-/
import proofs.«174560_j51247549776179_2_alg».proof.Proof.Spec

noncomputable section

open scoped BigOperators

namespace Cert.Wiring

open Idealize.ShloMosaic Idealize.ShloMosaic.ValueIdx Cert.Spec

/-- A 512-vector laid out as one row. -/
def rowCopy (v : (⟨1, ![512]⟩ : Shape).Idx → EReal) : (⟨2, ![1, 512]⟩ : Shape).Idx → EReal := fun i => v (ix1 (i 1))

/-- The duplication matrix: column c is fed by row c/2. -/
def dupMatrix : (⟨2, ![256, 512]⟩ : Shape).Idx → EReal := fun i => if (i 1).val / 2 = (i 0).val then 1 else 0

/-- The row of per-channel scales computed from the rows of totals `s1` (of the activation) and `s2` (of its
    squares) and the gain. -/
def scaleRow (s1 s2 : (⟨2, ![1, 256]⟩ : Shape).Idx → EReal) (γ : (⟨1, ![512]⟩ : Shape).Idx → EReal) :
    (⟨2, ![1, 512]⟩ : Shape).Idx → EReal := fun i =>
  γ (ix1 (i 1)) * Ideal.rsqrt ((Ideal.div (s2 (ix2 0 (half (i 1)))) nPix
    - Ideal.div (s1 (ix2 0 (half (i 1)))) nPix * Ideal.div (s1 (ix2 0 (half (i 1)))) nPix) + eps)

/-- The row of per-channel offsets: the offset minus the mean times the scale. -/
def offsetRow (s1 s2 : (⟨2, ![1, 256]⟩ : Shape).Idx → EReal) (γ β : (⟨1, ![512]⟩ : Shape).Idx → EReal) :
    (⟨2, ![1, 512]⟩ : Shape).Idx → EReal := fun i =>
  β (ix1 (i 1)) - Ideal.div (s1 (ix2 0 (half (i 1)))) nPix * scaleRow s1 s2 γ i

/-- What the second pass writes, as a function of the arrays it reads. -/
def secondPass (x : (⟨4, ![32, 512, 56, 56]⟩ : Shape).Idx → EReal) (u : (⟨4, ![32, 56, 56, 256]⟩ : Shape).Idx → EReal)
    (d : (⟨2, ![256, 512]⟩ : Shape).Idx → EReal) (s o : (⟨2, ![1, 512]⟩ : Shape).Idx → EReal) :
    (⟨4, ![32, 512, 56, 56]⟩ : Shape).Idx → EReal := fun i =>
  x i + ((∑ j : Fin 256, u (ix4 (i 0) (i 2) (i 3) j) * d (ix2 j (i 1))) * s (ix2 0 (i 1)) + o (ix2 0 (i 1)))

/-- A sum against the duplication matrix picks the one row that feeds the column. -/
theorem sum_dup (f : Fin 256 → EReal) (k : Fin 512) :
    (∑ j : Fin 256, f j * dupMatrix (ix2 j k)) = f (half k) := by
  rw [Finset.sum_eq_single (half k)]
  · show f (half k) * (if k.val / 2 = (half k).val then (1 : EReal) else 0) = _
    rw [if_pos (show k.val / 2 = (half k).val from rfl), mul_one]
  · intro j _ hj
    show f j * (if k.val / 2 = j.val then (1 : EReal) else 0) = 0
    rw [if_neg (fun e => hj (Fin.ext e.symm)), mul_zero]
  · intro h; exact absurd (Finset.mem_univ _) h

/-- With the activation, its totals, the duplication matrix and the two rows in place, the second pass computes
    the fused form of the specification. -/
theorem secondPass_eq (U : Fin 32 → Fin 56 → Fin 56 → Fin 256 → EReal)
    (γ β : (⟨1, ![512]⟩ : Shape).Idx → EReal) (x : (⟨4, ![32, 512, 56, 56]⟩ : Shape).Idx → EReal) :
    secondPass x (fun i => U (i 0) (i 1) (i 2) (i 3)) dupMatrix
        (scaleRow (fun i => total U (i 1)) (fun i => totalSq U (i 1)) γ)
        (offsetRow (fun i => total U (i 1)) (fun i => totalSq U (i 1)) γ β)
      = fusedForm U γ β x := by
  funext i
  unfold secondPass
  rw [sum_dup (fun j => U (i 0) (i 2) (i 3) j) (i 1)]
  rfl

end Cert.Wiring

end
-- ==== Proof.StatsBlock.lean ====
/-
  One grid point of the statistics pass, as mathematics on one block.

  A block of x is one batch image's strip of 8 image rows: entries x0(0, c, w, h) with 512 channels c, rows w < 8 and
  columns h < 56. The body lists the strip's 448 pixels as rows r = 56 w + h of a matrix with the channels as columns,
  applies the linear layer with its residual,
      lin(r, c) = x0(0, c, w, h) + (∑ₖ x0(0, k, w, h) · fw(c, k) + fb(0, c)),
  splits the 512 channels into 32 groups of 16, multiplies each pixel's 32 × 16 matrix with itself over the groups,
      gram(r, p, q) = ∑_g lin(r, 16 g + p) · lin(r, 16 g + q),
  and takes act(r, 16 p + q) = tanh(gram(r, p, q) · (1/32)). The two running totals receive the column sums
  ∑ᵣ act(r, j) and ∑ᵣ act(r, j)² of the block. Every step is read here at one entry: the layout steps (a transpose, the
  reshapes between [1, 8, 56, ·], [448, ·], [448, 32, 16] and [448, 16, 16]) name the entry they copy, a product of
  matrices is the sum over its one contracted coordinate, and a change of float format is the identity on the extended
  reals.
-/
import proofs.«174560_j51247549776179_2_alg».proof.Proof.Gen.KernelIdeal.Skeleton
import proofs.«174560_j51247549776179_2_alg».proof.Proof.Spec
import proofs.«174560_j51247549776179_2_alg».proof.Proof.Consts
import Idealize.ShloMosaic.Lib.Pipeline.Value
import Idealize.ShloMosaic.Lib.ValueLayout
import Idealize.ShloMosaic.PureOps.Ideal.Laws

noncomputable section

open scoped BigOperators

namespace Cert.KernelIdeal.Stats

open Idealize.ShloMosaic Idealize.ShloMosaic.ValueIdx Idealize.SL.Sem
open Cert.KernelIdeal Cert.KernelIdeal.Gen
open Cert.Spec (chan rowOf colOf)

/-! ## Rows of the block: pixel r = 56 w + h -/

/-- The image row (within the strip) of block row `r`: `r / 56`. -/
def rowW (r : Fin 448) : Fin 8 := ⟨r.val / 56, by have := r.isLt; omega⟩
/-- The image column of block row `r`: `r % 56`. -/
def rowH (r : Fin 448) : Fin 56 := ⟨r.val % 56, by omega⟩
/-- Block row `56 w + h` of the pixel in strip row `w`, column `h`. -/
def rowAt (w : Fin 8) (h : Fin 56) : Fin 448 := ⟨w.val * 56 + h.val, by have := w.isLt; have := h.isLt; omega⟩

theorem rowW_rowAt (w : Fin 8) (h : Fin 56) : rowW (rowAt w h) = w := Fin.ext (by
  show (w.val * 56 + h.val) / 56 = w.val
  have := h.isLt; omega)
theorem rowH_rowAt (w : Fin 8) (h : Fin 56) : rowH (rowAt w h) = h := Fin.ext (by
  show (w.val * 56 + h.val) % 56 = h.val
  have := h.isLt; omega)

/-! ## The block's mathematics -/

section Block

variable (x0 : Vec Ideal S1x512x8x56 .f32) (fw : Vec Ideal S512x512 .f32) (fb : Vec Ideal S1x512 .f32)

/-- The linear layer with its residual at block row `r`, channel `c`. -/
def blin (r : Fin 448) (c : Fin 512) : EReal :=
  x0 (ix4 (0 : Fin 1) c (rowW r) (rowH r))
    + ((∑ k : Fin 512, x0 (ix4 (0 : Fin 1) k (rowW r) (rowH r)) * fw (ix2 c k)) + fb (ix2 (0 : Fin 1) c))

/-- The grouped product of a pixel's channels with themselves. -/
def bgram (r : Fin 448) (p q : Fin 16) : EReal :=
  ∑ g : Fin 32, blin x0 fw fb r (chan g p) * blin x0 fw fb r (chan g q)

/-- The activation of block row `r`, entry `j`. -/
def bact (r : Fin 448) (j : Fin 256) : EReal :=
  Ideal.tanh (bgram x0 fw fb r (rowOf j) (colOf j) * ((1 / 32 : ℝ) : EReal))

end Block

/-! ## The layout steps at an entry -/

section Layout
variable {α : Type}

/-- Moving the channel axis last: entry (0, w, h, c) of the result is entry (0, c, w, h) of the block. -/
theorem chanLast_apply (x : S1x512x8x56.Idx → α) (ht : S1x512x8x56.Transposes [0, 2, 3, 1] S1x8x56x512)
    (w : Fin 8) (h : Fin 56) (c : Fin 512) :
    transpose S1x8x56x512 [0, 2, 3, 1] x ht (ix4 (0 : Fin 1) w h c) = x (ix4 (0 : Fin 1) c w h) :=
  transpose_apply [0, 2, 3, 1] x ht (ix4 (0 : Fin 1) w h c) (ix4 (0 : Fin 1) c w h) fun b => by
    match b with
    | ⟨0, _⟩ => rfl
    | ⟨1, _⟩ => rfl
    | ⟨2, _⟩ => rfl
    | ⟨3, _⟩ => rfl

/-- Listing the strip's pixels as 448 rows: row `r` is pixel (r / 56, r % 56). -/
theorem pixelRows_apply (v : S1x8x56x512.Idx → α) (hc : S1x8x56x512.ShapeCasts S448x512) (r : Fin 448) (c : Fin 512) :
    shapeCast S448x512 v hc (ix2 r c) = v (ix4 (0 : Fin 1) (rowW r) (rowH r) c) :=
  shapeCast_apply v hc (ix2 r c) (ix4 (0 : Fin 1) (rowW r) (rowH r) c) (by
    rw [Shape.rowMajor_val_four, Shape.rowMajor_val_two]
    show (((0 : ℕ) * 8 + r.val / 56) * 56 + r.val % 56) * 512 + c.val = r.val * 512 + c.val
    omega)

/-- Splitting the channels into 32 groups of 16: entry (r, g, p) is channel 16 g + p of row r. -/
theorem groups_apply (v : S448x512.Idx → α) (hc : S448x512.ShapeCasts S448x32x16) (r : Fin 448) (g : Fin 32) (p : Fin 16) :
    shapeCast S448x32x16 v hc (ix3 r g p) = v (ix2 r (chan g p)) :=
  shapeCast_apply v hc (ix3 r g p) (ix2 r (chan g p)) (by
    rw [Shape.rowMajor_val_three, Shape.rowMajor_val_two]
    show r.val * 512 + (g.val * 16 + p.val) = (r.val * 32 + g.val) * 16 + p.val
    omega)

/-- Flattening the 16 × 16 products: entry (r, j) is entry (r, j / 16, j % 16). -/
theorem flat_apply (v : S448x16x16.Idx → α) (hc : S448x16x16.ShapeCasts S448x256) (r : Fin 448) (j : Fin 256) :
    shapeCast S448x256 v hc (ix2 r j) = v (ix3 r (rowOf j) (colOf j)) :=
  shapeCast_apply v hc (ix2 r j) (ix3 r (rowOf j) (colOf j)) (by
    rw [Shape.rowMajor_val_three, Shape.rowMajor_val_two]
    show (r.val * 16 + j.val / 16) * 16 + j.val % 16 = r.val * 256 + j.val
    omega)

/-- The block as it is stored, [1, 8, 56, 256]: entry (0, w, h, j) is row 56 w + h of the [448, 256] matrix. -/
theorem stored_apply (v : S448x256.Idx → α) (hc : S448x256.ShapeCasts S1x8x56x256) (w : Fin 8) (h : Fin 56) (j : Fin 256) :
    shapeCast S1x8x56x256 v hc (ix4 (0 : Fin 1) w h j) = v (ix2 (rowAt w h) j) :=
  shapeCast_apply v hc (ix4 (0 : Fin 1) w h j) (ix2 (rowAt w h) j) (by
    rw [Shape.rowMajor_val_four, Shape.rowMajor_val_two]
    show (w.val * 56 + h.val) * 256 + j.val = (((0 : ℕ) * 8 + w.val) * 56 + h.val) * 256 + j.val
    omega)

end Layout

/-! ## The two products and the column sum at an entry -/

section Products

local notation "dotW" => dot_S448x512_S512x512_S448x512_1_0_0_1_n_n
local notation "dotG" => dot_S448x32x16_S448x32x16_S448x16x16_1_1_2_2_0_0

/-! The operand entries a product reads at result entry `i` and contracted position `q`, axis by axis. -/

theorem lhsW_0 (i : S448x512.Idx) (q : (dotW).contr.Idx) : ((dotW).lhsIdx i q 0).val = (i 0).val := by
  unfold DotDims.lhsIdx
  rw [dif_neg (show ¬(0 : Fin S448x512.rank) ∈ (dotW).lhsBatch by decide),
    dif_pos (show (0 : Fin S448x512.rank) ∈ (dotW).lhsNonContracting by decide)]
  rfl
theorem lhsW_1 (i : S448x512.Idx) (q : (dotW).contr.Idx) : ((dotW).lhsIdx i q 1).val = (q ⟨0, by decide⟩).val :=
  (dotW).lhsIdx_val_of_single rfl i q
theorem rhsW_0 (i : S448x512.Idx) (q : (dotW).contr.Idx) : ((dotW).rhsIdx i q 0).val = (q ⟨0, by decide⟩).val :=
  (dotW).rhsIdx_val_of_single rfl i q
theorem rhsW_1 (i : S448x512.Idx) (q : (dotW).contr.Idx) : ((dotW).rhsIdx i q 1).val = (i 1).val := by
  unfold DotDims.rhsIdx
  rw [dif_neg (show ¬(1 : Fin S512x512.rank) ∈ (dotW).rhsBatch by decide),
    dif_pos (show (1 : Fin S512x512.rank) ∈ (dotW).rhsNonContracting by decide)]
  rfl

theorem lhsG_0 (i : S448x16x16.Idx) (q : (dotG).contr.Idx) : ((dotG).lhsIdx i q 0).val = (i 0).val := by
  unfold DotDims.lhsIdx
  rw [dif_pos (show (0 : Fin S448x32x16.rank) ∈ (dotG).lhsBatch by decide)]
  rfl
theorem lhsG_1 (i : S448x16x16.Idx) (q : (dotG).contr.Idx) : ((dotG).lhsIdx i q 1).val = (q ⟨0, by decide⟩).val :=
  (dotG).lhsIdx_val_of_single rfl i q
theorem lhsG_2 (i : S448x16x16.Idx) (q : (dotG).contr.Idx) : ((dotG).lhsIdx i q 2).val = (i 1).val := by
  unfold DotDims.lhsIdx
  rw [dif_neg (show ¬(2 : Fin S448x32x16.rank) ∈ (dotG).lhsBatch by decide),
    dif_pos (show (2 : Fin S448x32x16.rank) ∈ (dotG).lhsNonContracting by decide)]
  rfl
theorem rhsG_0 (i : S448x16x16.Idx) (q : (dotG).contr.Idx) : ((dotG).rhsIdx i q 0).val = (i 0).val := by
  unfold DotDims.rhsIdx
  rw [dif_pos (show (0 : Fin S448x32x16.rank) ∈ (dotG).rhsBatch by decide)]
  rfl
theorem rhsG_1 (i : S448x16x16.Idx) (q : (dotG).contr.Idx) : ((dotG).rhsIdx i q 1).val = (q ⟨0, by decide⟩).val :=
  (dotG).rhsIdx_val_of_single rfl i q
theorem rhsG_2 (i : S448x16x16.Idx) (q : (dotG).contr.Idx) : ((dotG).rhsIdx i q 2).val = (i 2).val := by
  unfold DotDims.rhsIdx
  rw [dif_neg (show ¬(2 : Fin S448x32x16.rank) ∈ (dotG).rhsBatch by decide),
    dif_pos (show (2 : Fin S448x32x16.rank) ∈ (dotG).rhsNonContracting by decide)]
  rfl

/-- Rows times the weight matrix (already transposed), into zero: entry (r, c) is ∑ₖ a(r, k) · b(k, c). -/
theorem rowsTimes_apply (a : FVec Ideal S448x512 .bf16) (b : FVec Ideal S512x512 .bf16) (r : Fin 448) (c : Fin 512) :
    matmul dotW none a b (constant (F := Ideal) S448x512 .f32 0x00000000#32) (ix2 r c)
      = ∑ k : Fin 512, a (ix2 r k) * b (ix2 k c) := by
  refine (Ideal.matmul_constant_zero_apply dotW none a b (ix2 r c)).trans ?_
  rw [← Equiv.sum_comp (contrEquiv1 dotW 512 rfl rfl).symm]
  refine Finset.sum_congr rfl fun k _ => ?_
  have hk := contrEquiv1_symm_val dotW 512 rfl rfl k
  have el : (dotW).lhsIdx (ix2 r c) ((contrEquiv1 dotW 512 rfl rfl).symm k) = ix2 r k := funext fun a => Fin.ext (by
    match a with
    | ⟨0, _⟩ => exact lhsW_0 (ix2 r c) _
    | ⟨1, _⟩ => exact (lhsW_1 (ix2 r c) _).trans hk)
  have er : (dotW).rhsIdx (ix2 r c) ((contrEquiv1 dotW 512 rfl rfl).symm k) = ix2 k c := funext fun a => Fin.ext (by
    match a with
    | ⟨0, _⟩ => exact (rhsW_0 (ix2 r c) _).trans hk
    | ⟨1, _⟩ => exact rhsW_1 (ix2 r c) _)
  rw [el, er]

/-- Each pixel's 32 × 16 matrix times itself over the groups, into zero: entry (r, p, q) is ∑_g a(r, g, p) · b(r, g, q). -/
theorem groupGram_apply (a b : FVec Ideal S448x32x16 .bf16) (r : Fin 448) (p q : Fin 16) :
    matmul dotG none a b (constant (F := Ideal) S448x16x16 .f32 0x00000000#32) (ix3 r p q)
      = ∑ g : Fin 32, a (ix3 r g p) * b (ix3 r g q) := by
  refine (Ideal.matmul_constant_zero_apply dotG none a b (ix3 r p q)).trans ?_
  rw [← Equiv.sum_comp (contrEquiv1 dotG 32 rfl rfl).symm]
  refine Finset.sum_congr rfl fun k _ => ?_
  have hk := contrEquiv1_symm_val dotG 32 rfl rfl k
  have el : (dotG).lhsIdx (ix3 r p q) ((contrEquiv1 dotG 32 rfl rfl).symm k) = ix3 r k p := funext fun a => Fin.ext (by
    match a with
    | ⟨0, _⟩ => exact lhsG_0 (ix3 r p q) _
    | ⟨1, _⟩ => exact (lhsG_1 (ix3 r p q) _).trans hk
    | ⟨2, _⟩ => exact lhsG_2 (ix3 r p q) _)
  have er : (dotG).rhsIdx (ix3 r p q) ((contrEquiv1 dotG 32 rfl rfl).symm k) = ix3 r k q := funext fun a => Fin.ext (by
    match a with
    | ⟨0, _⟩ => exact rhsG_0 (ix3 r p q) _
    | ⟨1, _⟩ => exact (rhsG_1 (ix3 r p q) _).trans hk
    | ⟨2, _⟩ => exact rhsG_2 (ix3 r p q) _)
  rw [el, er]

/-- The sum of a [448, 256] matrix down its rows: entry j is ∑ᵣ v(r, j). -/
theorem colSum_apply (v : FVec Ideal S448x256 .f32) (hr : S448x256.Reduces [0] S256) (hφ : FKind.Formats .f32)
    (hacc : (0x00000000#32 : BitVec 32) = FKind.add.neutral .f32 hφ) (j : Fin 256) :
    multiReduction (F := Ideal) .add [0] S256 v 0x00000000#32 hr hφ hacc (ix1 j) = ∑ r : Fin 448, v (ix2 r j) := by
  refine (Ideal.multiReduction_add_single v 0x00000000#32 hr hφ hacc (ix1 j)).trans ?_
  refine Finset.sum_congr rfl fun k _ => congrArg v (funext fun a => ?_)
  match a with
  | ⟨0, _⟩ => rfl
  | ⟨1, _⟩ => rfl

end Products

/-! ## The body's payloads at an entry -/

section Payloads

variable (x0 : Vec Ideal S1x512x8x56 .f32) (fw : Vec Ideal S512x512 .f32) (fb : Vec Ideal S1x512 .f32)

/-- The strip's pixels as rows, the channels as columns. -/
def rowsOf : FVec Ideal S448x512 .f32 :=
  shapeCast S448x512 (transpose S1x8x56x512 [0, 2, 3, 1] x0 transposes_S1x512x8x56_p0_2_3_1_S1x8x56x512)
    shapeCasts_S1x8x56x512_S448x512

theorem rowsOf_apply (r : Fin 448) (c : Fin 512) : rowsOf x0 (ix2 r c) = x0 (ix4 (0 : Fin 1) c (rowW r) (rowH r)) :=
  (pixelRows_apply _ _ r c).trans (chanLast_apply x0 _ (rowW r) (rowH r) c)

/-- The linear layer with its residual, as the body computes it on the rows. -/
def linOf : FVec Ideal S448x512 .f32 :=
  addf (rowsOf x0)
    (addf
      (matmul dot_S448x512_S512x512_S448x512_1_0_0_1_n_n none (truncf .bf16 (rowsOf x0) bitsLt_bf16_f32)
        (transpose S512x512 [1, 0] (truncf .bf16 fw bitsLt_bf16_f32) transposes_S512x512_p1_0_S512x512)
        (constant S448x512 .f32 0x00000000#32))
      (broadcastTo S448x512 (shapeCast S1x512 fb shapeCasts_S1x512_S1x512) broadcasts_S1x512_S448x512))

theorem linOf_apply (r : Fin 448) (c : Fin 512) : linOf x0 fw fb (ix2 r c) = blin x0 fw fb r c := by
  unfold linOf blin
  refine (addf_apply _ _ _).trans (congrArg₂ (· + ·) (rowsOf_apply x0 r c) ?_)
  refine (addf_apply _ _ _).trans (congrArg₂ (· + ·) ?_ ?_)
  · refine (rowsTimes_apply _ _ r c).trans (Finset.sum_congr rfl fun k _ => congrArg₂ (· * ·) ?_ ?_)
    · exact rowsOf_apply x0 r k
    · exact transpose_ix2_apply _ _ k c
  · refine (broadcastTo_1b_ab_apply _ _ r c).trans ?_
    rw [shapeCast_self]

/-- The grouped products scaled by 1/32, before the tanh. -/
def gramOf : FVec Ideal S448x256 .f32 :=
  shapeCast S448x256
    (matmul dot_S448x32x16_S448x32x16_S448x16x16_1_1_2_2_0_0 none
      (truncf .bf16 (shapeCast S448x32x16 (linOf x0 fw fb) shapeCasts_S448x512_S448x32x16) bitsLt_bf16_f32)
      (truncf .bf16 (shapeCast S448x32x16 (linOf x0 fw fb) shapeCasts_S448x512_S448x32x16) bitsLt_bf16_f32)
      (constant S448x16x16 .f32 0x00000000#32))
    shapeCasts_S448x16x16_S448x256

theorem gramOf_apply (r : Fin 448) (j : Fin 256) :
    gramOf x0 fw fb (ix2 r j) = bgram x0 fw fb r (rowOf j) (colOf j) := by
  unfold gramOf bgram
  refine (flat_apply _ _ r j).trans ?_
  refine (groupGram_apply _ _ r (rowOf j) (colOf j)).trans (Finset.sum_congr rfl fun g _ => congrArg₂ (· * ·) ?_ ?_)
  · exact (groups_apply _ _ r g (rowOf j)).trans (linOf_apply x0 fw fb r _)
  · exact (groups_apply _ _ r g (colOf j)).trans (linOf_apply x0 fw fb r _)

/-- The activation payload is tanh of the scaled grouped products. -/
theorem pay5_eq : k0_pay5 (F := Ideal) x0 fw fb
    = tanh (mulf (gramOf x0 fw fb) (broadcast S448x256 (Scalar.ofBits (F := Ideal) .f32 0x3D000000#32))) := rfl

/-- THE ACTIVATION BLOCK at row `r`, entry `j`. -/
theorem pay5_apply (r : Fin 448) (j : Fin 256) : k0_pay5 (F := Ideal) x0 fw fb (ix2 r j) = bact x0 fw fb r j := by
  rw [pay5_eq]
  unfold bact
  refine congrArg Ideal.tanh ?_
  exact congrArg₂ (· * ·) (gramOf_apply x0 fw fb r j) Cert.Consts.ofBits_inv32

/-- Its squares. -/
theorem pay8_apply (r : Fin 448) (j : Fin 256) :
    k0_pay8 (F := Ideal) x0 fw fb (ix2 r j) = bact x0 fw fb r j * bact x0 fw fb r j := by
  unfold k0_pay8
  exact (mulf_apply _ _ _).trans (congrArg₂ (· * ·) (pay5_apply x0 fw fb r j) (pay5_apply x0 fw fb r j))

/-- The block as stored: entry (0, w, h, j) is row 56 w + h of the activation matrix. -/
theorem pay2_apply (v : FVec Ideal S448x256 .f32) (w : Fin 8) (h : Fin 56) (j : Fin 256) :
    k0_pay2 (F := Ideal) v (ix4 (0 : Fin 1) w h j) = v (ix2 (rowAt w h) j) := by
  unfold k0_pay2
  exact stored_apply _ _ w h j

/-- The running total of the activations after this block: what it held plus the block's column sums. -/
theorem pay6_apply (acc : Vec Ideal S1x256 .f32) (u : Fin 1) (j : Fin 256) :
    k0_pay6 (F := Ideal) x0 fw fb acc (ix2 u j) = acc (ix2 u j) + ∑ r : Fin 448, bact x0 fw fb r j := by
  unfold k0_pay6
  refine (addf_apply _ _ _).trans (congrArg₂ (· + ·) (by rw [shapeCast_self]) ?_)
  refine (shapeCast_a_1a_apply _ _ u j).trans ?_
  exact (colSum_apply _ _ _ _ j).trans (Finset.sum_congr rfl fun r _ => pay5_apply x0 fw fb r j)

/-- The running total of a matrix's column sums: what it held plus the column sums. -/
theorem pay1_apply (acc : FVec Ideal S1x256 .f32) (v : FVec Ideal S448x256 .f32) (u : Fin 1) (j : Fin 256) :
    k0_pay1 (F := Ideal) acc v (ix2 u j) = acc (ix2 u j) + ∑ r : Fin 448, v (ix2 r j) := by
  unfold k0_pay1
  refine (addf_apply _ _ _).trans (congrArg₂ (· + ·) rfl ?_)
  exact (shapeCast_a_1a_apply _ _ u j).trans (colSum_apply _ _ _ _ j)

/-- A same-shape cast of the carried total changes nothing. -/
theorem pay7_eq (v : Vec Ideal S1x256 .f32) : k0_pay7 (F := Ideal) v = v := by
  unfold k0_pay7
  exact shapeCast_self _ _

/-- The two zero blocks are zero everywhere. -/
theorem pay3_apply (i : S1x256.Idx) : k0_pay3 (F := Ideal) i = 0 := Cert.Consts.ofBits_zero
theorem pay4_apply (i : S1x256.Idx) : k0_pay4 (F := Ideal) i = 0 := Cert.Consts.ofBits_zero

end Payloads

end Cert.KernelIdeal.Stats

end
-- ==== Proof.StatsChain.lean ====
/-
  The statistics pass point by point.

  At every grid point the body leaves three things: the activation block of the point's strip (stored as it is), and
  the two running totals. At the first point the totals are first set to zero, so after it they hold 0 plus the first
  block's column sums; at every later point they hold what the point before left plus this block's column sums. Hence
  after point n the totals are the sums, over the points 0 … n, of the blocks' column sums of the activations and of
  their squares — proved by induction on the point, never by listing the points.
-/
import proofs.«174560_j51247549776179_2_alg».proof.Proof.Gen.KernelIdeal.Frame
import proofs.«174560_j51247549776179_2_alg».proof.Proof.StatsBlock
import Idealize.ShloMosaic.Lib.Pipeline.Value
import Idealize.ShloMosaic.Lib.Tactic

noncomputable section

open scoped BigOperators

namespace Cert.KernelIdeal.Stats

open Idealize.ShloMosaic Idealize.ShloMosaic.TcCoe Idealize.ShloMosaic.ValueIdx Idealize.SL.Sem
open Idealize.ShloMosaic.Pipeline (Dat)
open Cert.KernelIdeal Cert.KernelIdeal.Gen

/-! ## What each case of the body leaves, as the body's own terms (any float values) -/

section Pieces

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point stores the activation block of its strip, -/
theorem outB_3 (c : Dev nD) (i : grid0.Coords) (arg2 : Memref sig .tc .vmem S1x512x8x56 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x8x56x256 .bf16) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x512x8x56 .f32) (x1 : Vec F S512x512 .f32) (x2 : Vec F S1x512 .f32) (xo4 : Vec F S1x256 .f32) (xo5 : Vec F S1x256 .f32) :
    out0_B_3 c i arg2 harg2 arg3 harg3 arg4 harg4 arg5 harg5 arg6 harg6 arg7 harg7 hc0 x0 x1 x2 xo4 xo5 = k0_pay2 (k0_pay5 x0 x1 x2) := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  sl_unfold_words
  rw [View.canon_unit_zero hz4]
  simp only [View.readAt_eq_ld, harg2.read_unread, harg3.read_unread, harg4.read_unread, harg6.read_unread, harg7.read_unread,
    View.ld_unit_zero (S := S1x512x8x56) hz4, View.ld_unit_zero (S := S512x512) hz2, View.ld_unit_zero (S := S1x512) hz2,
    View.ld_unit_zero (S := S1x256) hz2]

/-- adds the block's column sums to the first total it finds, -/
theorem outB_4 (c : Dev nD) (i : grid0.Coords) (arg2 : Memref sig .tc .vmem S1x512x8x56 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x8x56x256 .bf16) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x512x8x56 .f32) (x1 : Vec F S512x512 .f32) (x2 : Vec F S1x512 .f32) (xo4 : Vec F S1x256 .f32) (xo5 : Vec F S1x256 .f32) :
    out0_B_4 c i arg2 harg2 arg3 harg3 arg4 harg4 arg5 harg5 arg6 harg6 arg7 harg7 hc0 x0 x1 x2 xo4 xo5 = k0_pay6 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  sl_unfold_words
  rw [View.canon_unit_zero hz2]
  simp only [View.readAt_eq_ld, harg2.read_unread, harg3.read_unread, harg4.read_unread, harg6.read_unread, harg7.read_unread,
    View.ld_unit_zero (S := S1x512x8x56) hz4, View.ld_unit_zero (S := S512x512) hz2, View.ld_unit_zero (S := S1x512) hz2,
    View.ld_unit_zero (S := S1x256) hz2]

/-- and the column sums of the squares to the second. -/
theorem outB_5 (c : Dev nD) (i : grid0.Coords) (arg2 : Memref sig .tc .vmem S1x512x8x56 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x8x56x256 .bf16) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x512x8x56 .f32) (x1 : Vec F S512x512 .f32) (x2 : Vec F S1x512 .f32) (xo4 : Vec F S1x256 .f32) (xo5 : Vec F S1x256 .f32) :
    out0_B_5 c i arg2 harg2 arg3 harg3 arg4 harg4 arg5 harg5 arg6 harg6 arg7 harg7 hc0 x0 x1 x2 xo4 xo5 = k0_pay1 (k0_pay7 xo5) (k0_pay8 x0 x1 x2) := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero hz2]
  simp only [View.readAt_eq_ld, harg2.read_unread, harg3.read_unread, harg4.read_unread, harg6.read_unread, harg7.read_unread,
    View.ld_unit_zero (S := S1x512x8x56) hz4, View.ld_unit_zero (S := S512x512) hz2, View.ld_unit_zero (S := S1x512) hz2,
    View.ld_unit_zero (S := S1x256) hz2]

/-- The first point stores its activation block too, -/
theorem outA_3 (c : Dev nD) (i : grid0.Coords) (arg2 : Memref sig .tc .vmem S1x512x8x56 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x8x56x256 .bf16) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x512x8x56 .f32) (x1 : Vec F S512x512 .f32) (x2 : Vec F S1x512 .f32) :
    out0_A_3 c i arg2 harg2 arg3 harg3 arg4 harg4 arg5 harg5 arg6 harg6 arg7 harg7 hc0 x0 x1 x2 = k0_pay2 (k0_pay5 x0 x1 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz4]
  simp only [View.readAt_eq_ld, harg2.read_unread, harg3.read_unread, harg4.read_unread, harg6.read_unread, harg7.read_unread,
    View.ld_unit_zero (S := S1x512x8x56) hz4, View.ld_unit_zero (S := S512x512) hz2, View.ld_unit_zero (S := S1x512) hz2,
    View.ld_unit_zero (S := S1x256) hz2]

/-- and adds the column sums to the zero block it has just written over each total. -/
theorem outA_4 (c : Dev nD) (i : grid0.Coords) (arg2 : Memref sig .tc .vmem S1x512x8x56 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x8x56x256 .bf16) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x512x8x56 .f32) (x1 : Vec F S512x512 .f32) (x2 : Vec F S1x512 .f32) :
    out0_A_4 c i arg2 harg2 arg3 harg3 arg4 harg4 arg5 harg5 arg6 harg6 arg7 harg7 hc0 x0 x1 x2 = k0_pay6 x0 x1 x2 k0_pay3 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg6.read_unread, harg7.read_unread,
    View.ld_unit_zero (S := S1x512x8x56) hz4, View.ld_unit_zero (S := S512x512) hz2, View.ld_unit_zero (S := S1x512) hz2,
    View.ld_unit_zero (S := S1x256) hz2]

theorem outA_5 (c : Dev nD) (i : grid0.Coords) (arg2 : Memref sig .tc .vmem S1x512x8x56 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x8x56x256 .bf16) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x512x8x56 .f32) (x1 : Vec F S512x512 .f32) (x2 : Vec F S1x512 .f32) :
    out0_A_5 c i arg2 harg2 arg3 harg3 arg4 harg4 arg5 harg5 arg6 harg6 arg7 harg7 hc0 x0 x1 x2 = k0_pay1 (k0_pay7 k0_pay4) (k0_pay8 x0 x1 x2) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg6.read_unread, harg7.read_unread,
    View.ld_unit_zero (S := S1x512x8x56) hz4, View.ld_unit_zero (S := S512x512) hz2, View.ld_unit_zero (S := S1x512) hz2,
    View.ld_unit_zero (S := S1x256) hz2]

end Pieces

/-! ## The totals after each point -/

section Chain

variable (V : (c : Dev nD) → (b : Ref sig .tc) → Buf (Elt Ideal) ((c : Thread nD τ).loc b))

/-- The activation matrix of point `n`'s strip at block row `r`, entry `j` (zero past the grid, where it is never
    used: a function of every natural number, so that sums over ranges of points need no bound). -/
def pointAct (c : Dev nD) (n : ℕ) (r : Fin 448) (j : Fin 256) : EReal :=
  if h : n < cfg0.N then bact (iblk0 V c 0 ⟨n, h⟩) (iblk0 V c 1 ⟨n, h⟩) (iblk0 V c 2 ⟨n, h⟩) r j else 0

theorem pointAct_eq (c : Dev nD) (n : ℕ) (h : n < cfg0.N) (r : Fin 448) (j : Fin 256) :
    pointAct V c n r j = bact (iblk0 V c 0 ⟨n, h⟩) (iblk0 V c 1 ⟨n, h⟩) (iblk0 V c 2 ⟨n, h⟩) r j := dif_pos h

/-- The state of the three outputs after point `n`: the stored block is the point's activation block, and the two totals
    are the sums over the points 0 … n of the blocks' column sums of the activations and of their squares. -/
def After (c : Dev nD) (n : ℕ) (h : n < cfg0.N) : Prop :=
  (outsAt0 V c n h).1 = k0_pay2 (F := Ideal) (k0_pay5 (F := Ideal) (iblk0 V c 0 ⟨n, h⟩) (iblk0 V c 1 ⟨n, h⟩) (iblk0 V c 2 ⟨n, h⟩))
    ∧ (∀ (u : Fin 1) (j : Fin 256), (outsAt0 V c n h).2.1 (ix2 u j)
        = ∑ s ∈ Finset.range (n + 1), ∑ r : Fin 448, pointAct V c s r j)
    ∧ (∀ (u : Fin 1) (j : Fin 256), (outsAt0 V c n h).2.2 (ix2 u j)
        = ∑ s ∈ Finset.range (n + 1), ∑ r : Fin 448, pointAct V c s r j * pointAct V c s r j)

/-- The first point: the totals start from zero. -/
theorem after_first (c : Dev nD) (h : 0 < cfg0.N) : After V c 0 h := by
  have hc : cond0_0 (grid0.coords (⟨0, h⟩ : Fin cfg0.N)) := (hcond0_0 (⟨0, h⟩ : Fin cfg0.N)).mpr rfl
  have e : outsAt0 V c 0 h = _ := outsAt0_A V c (⟨0, h⟩ : Fin cfg0.N) rfl
  rw [outA_3 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) hc (iblk0 V c 0 (⟨0, h⟩ : Fin cfg0.N)) (iblk0 V c 1 (⟨0, h⟩ : Fin cfg0.N)) (iblk0 V c 2 (⟨0, h⟩ : Fin cfg0.N)),
    outA_4 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) hc (iblk0 V c 0 (⟨0, h⟩ : Fin cfg0.N)) (iblk0 V c 1 (⟨0, h⟩ : Fin cfg0.N)) (iblk0 V c 2 (⟨0, h⟩ : Fin cfg0.N)),
    outA_5 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) hc (iblk0 V c 0 (⟨0, h⟩ : Fin cfg0.N)) (iblk0 V c 1 (⟨0, h⟩ : Fin cfg0.N)) (iblk0 V c 2 (⟨0, h⟩ : Fin cfg0.N))] at e
  refine ⟨?_, fun u j => ?_, fun u j => ?_⟩
  · rw [e]
  · rw [e]
    dsimp only
    refine (pay6_apply (iblk0 V c 0 (⟨0, h⟩ : Fin cfg0.N)) (iblk0 V c 1 (⟨0, h⟩ : Fin cfg0.N)) (iblk0 V c 2 (⟨0, h⟩ : Fin cfg0.N)) (k0_pay3 (F := Ideal)) u j).trans ?_
    rw [pay3_apply, zero_add, Finset.sum_range_one]
    exact Finset.sum_congr rfl fun r _ => (pointAct_eq V c 0 h r j).symm
  · rw [e]
    dsimp only
    refine (pay1_apply (k0_pay7 (F := Ideal) (k0_pay4 (F := Ideal))) (k0_pay8 (F := Ideal) (iblk0 V c 0 (⟨0, h⟩ : Fin cfg0.N)) (iblk0 V c 1 (⟨0, h⟩ : Fin cfg0.N)) (iblk0 V c 2 (⟨0, h⟩ : Fin cfg0.N))) u j).trans ?_
    rw [pay7_eq, pay4_apply, zero_add, Finset.sum_range_one]
    refine Finset.sum_congr rfl fun r _ => (pay8_apply (iblk0 V c 0 (⟨0, h⟩ : Fin cfg0.N)) (iblk0 V c 1 (⟨0, h⟩ : Fin cfg0.N)) (iblk0 V c 2 (⟨0, h⟩ : Fin cfg0.N)) r j).trans ?_
    rw [pointAct_eq V c 0 h r j]

/-- Every later point adds its block's column sums to what the point before left. -/
theorem after_next (c : Dev nD) (n : ℕ) (h : n + 1 < cfg0.N) (ih : After V c n (Nat.lt_of_succ_lt h)) :
    After V c (n + 1) h := by
  have hN : cfg0.N = 224 := N_0
  have hB : ¬(⟨n + 1, h⟩ : Fin cfg0.N).val % 224 = 0 := by dsimp only; omega
  have hc : ¬cond0_0 (grid0.coords (⟨n + 1, h⟩ : Fin cfg0.N)) := fun hh => hB ((hcond0_0 (⟨n + 1, h⟩ : Fin cfg0.N)).mp hh)
  obtain ⟨-, ih4, ih5⟩ := ih
  have e : outsAt0 V c (n + 1) h = _ := outsAt0_B V c (⟨n + 1, h⟩ : Fin cfg0.N) hB
  rw [outB_3 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) hc (iblk0 V c 0 (⟨n + 1, h⟩ : Fin cfg0.N)) (iblk0 V c 1 (⟨n + 1, h⟩ : Fin cfg0.N)) (iblk0 V c 2 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2,
    outB_4 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) hc (iblk0 V c 0 (⟨n + 1, h⟩ : Fin cfg0.N)) (iblk0 V c 1 (⟨n + 1, h⟩ : Fin cfg0.N)) (iblk0 V c 2 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2,
    outB_5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) hc (iblk0 V c 0 (⟨n + 1, h⟩ : Fin cfg0.N)) (iblk0 V c 1 (⟨n + 1, h⟩ : Fin cfg0.N)) (iblk0 V c 2 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2] at e
  refine ⟨?_, fun u j => ?_, fun u j => ?_⟩
  · rw [e]
  · rw [e]
    dsimp only
    refine (pay6_apply (iblk0 V c 0 (⟨n + 1, h⟩ : Fin cfg0.N)) (iblk0 V c 1 (⟨n + 1, h⟩ : Fin cfg0.N)) (iblk0 V c 2 (⟨n + 1, h⟩ : Fin cfg0.N)) (outsAt0 V c n (Nat.lt_of_succ_lt h)).2.1 u j).trans ?_
    rw [ih4 u j, Finset.sum_range_succ _ (n + 1)]
    exact congrArg _ (Finset.sum_congr rfl fun r _ => (pointAct_eq V c (n + 1) h r j).symm)
  · rw [e]
    dsimp only
    refine (pay1_apply (k0_pay7 (F := Ideal) (outsAt0 V c n (Nat.lt_of_succ_lt h)).2.2) (k0_pay8 (F := Ideal) (iblk0 V c 0 (⟨n + 1, h⟩ : Fin cfg0.N)) (iblk0 V c 1 (⟨n + 1, h⟩ : Fin cfg0.N)) (iblk0 V c 2 (⟨n + 1, h⟩ : Fin cfg0.N))) u j).trans ?_
    rw [pay7_eq, ih5 u j, Finset.sum_range_succ _ (n + 1)]
    refine congrArg _ (Finset.sum_congr rfl fun r _ => (pay8_apply (iblk0 V c 0 (⟨n + 1, h⟩ : Fin cfg0.N)) (iblk0 V c 1 (⟨n + 1, h⟩ : Fin cfg0.N)) (iblk0 V c 2 (⟨n + 1, h⟩ : Fin cfg0.N)) r j).trans ?_)
    rw [pointAct_eq V c (n + 1) h r j]

/-- AFTER EVERY POINT, by induction on the point. -/
theorem outsAt_eq (c : Dev nD) : ∀ (n : ℕ) (h : n < cfg0.N), After V c n h
  | 0, h => after_first V c h
  | n + 1, h => after_next V c n h (outsAt_eq c n (Nat.lt_of_succ_lt h))

end Chain

end Cert.KernelIdeal.Stats

end
-- ==== Proof.StatsPoint.lean ====
/-
  One grid point of the statistics pass against the whole arrays.

  Point t of the 32 × 7 grid is batch image t / 7 and strip t % 7 of eight image rows. Its block of x holds, at
  (0, c, w, h), the entry (t / 7, c, 8 (t % 7) + w, h) of x; the weight block is the whole weight matrix and the bias
  block the whole one-row copy of the bias. So the block's linear layer, grouped product and activation at block row r
  are those of the whole arrays at the pixel (t / 7, 8 (t % 7) + r / 56, r % 56).
-/
import proofs.«174560_j51247549776179_2_alg».proof.Proof.Gen.KernelIdeal.Frame
import proofs.«174560_j51247549776179_2_alg».proof.Proof.StatsBlock
import Idealize.ShloMosaic.Lib.Pipeline.Value

noncomputable section

open scoped BigOperators

namespace Cert.KernelIdeal.Stats

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The bias, read out of its one-row copy. -/
def biasOf (c : Dev nD) : (⟨1, ![512]⟩ : Shape).Idx → EReal := fun k => V c main_v0 (ix2 (0 : Fin 1) (k 0))

/-- The batch image of point `t`: `t / 7`. -/
def imgOf (t : Fin cfg0.N) : Fin 32 :=
  ⟨t.val / 7, by have := lt_of_lt_of_eq t.isLt (show cfg0.N = 224 from N_0); omega⟩
/-- The image row of strip row `w` at point `t`: `8 (t % 7) + w`. -/
def lineOf (t : Fin cfg0.N) (w : Fin 8) : Fin 56 := ⟨(t.val % 7) * 8 + w.val, by have := w.isLt; omega⟩

/-- Where the input windows' blocks sit at point `t`, decided once over the grid. -/
theorem in_idx : ∀ t : Fin cfg0.N,
    win0_0.index t (0 : Fin 4) = t.val / 7 ∧ win0_0.index t (1 : Fin 4) = 0
    ∧ win0_0.index t (2 : Fin 4) = t.val % 7 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of x at point `t`. -/
theorem x_block (c : Dev nD) (t : Fin cfg0.N) (ch : Fin 512) (w : Fin 8) (h : Fin 56) :
    (iblk0 V c 0 t : Vec Ideal S1x512x8x56 .f32) (ix4 (0 : Fin 1) ch w h)
      = V c main_arg0 (ix4 (imgOf t) ch (lineOf t w) h) := by
  obtain ⟨e0, e1, e2, e3, -⟩ := in_idx t
  unfold iblk0
  rw [View.read_apply]
  show V c main_arg0 _ = V c main_arg0 _
  refine congrArg (V c main_arg0) (funext fun a => Fin.ext ?_)
  match a with
  | ⟨0, _⟩ => show win0_0.index t (0 : Fin 4) * 1 + 1 * (0 : ℕ) = t.val / 7; omega
  | ⟨1, _⟩ => show win0_0.index t (1 : Fin 4) * 512 + 1 * ch.val = ch.val; omega
  | ⟨2, _⟩ => show win0_0.index t (2 : Fin 4) * 8 + 1 * w.val = (t.val % 7) * 8 + w.val; omega
  | ⟨3, _⟩ => show win0_0.index t (3 : Fin 4) * 56 + 1 * h.val = h.val; omega

/-- The weight block is the whole weight matrix. -/
theorem w_block (c : Dev nD) (t : Fin cfg0.N) (a b : Fin 512) :
    (iblk0 V c 1 t : Vec Ideal S512x512 .f32) (ix2 a b) = V c main_arg1 (ix2 a b) := by
  obtain ⟨-, -, -, -, e0, e1, -⟩ := in_idx t
  unfold iblk0
  rw [View.read_apply]
  show V c main_arg1 _ = V c main_arg1 _
  refine congrArg (V c main_arg1) (funext fun x => Fin.ext ?_)
  match x with
  | ⟨0, _⟩ => show win0_1.index t (0 : Fin 2) * 512 + 1 * a.val = a.val; omega
  | ⟨1, _⟩ => show win0_1.index t (1 : Fin 2) * 512 + 1 * b.val = b.val; omega

/-- The bias block is the whole one-row copy of the bias. -/
theorem b_block (c : Dev nD) (t : Fin cfg0.N) (k : Fin 512) :
    (iblk0 V c 2 t : Vec Ideal S1x512 .f32) (ix2 (0 : Fin 1) k) = biasOf V c (ix1 k) := by
  obtain ⟨-, -, -, -, -, -, e0, e1⟩ := in_idx t
  unfold iblk0 biasOf
  rw [View.read_apply]
  show V c main_v0 _ = V c main_v0 _
  refine congrArg (V c main_v0) (funext fun x => Fin.ext ?_)
  match x with
  | ⟨0, _⟩ => show win0_2.index t (0 : Fin 2) * 1 + 1 * (0 : ℕ) = 0; omega
  | ⟨1, _⟩ => show win0_2.index t (1 : Fin 2) * 512 + 1 * k.val = k.val; omega

/-- The block's linear layer is the whole arrays' at the point's pixel. -/
theorem blin_point (c : Dev nD) (t : Fin cfg0.N) (r : Fin 448) (ch : Fin 512) :
    blin (iblk0 V c 0 t) (iblk0 V c 1 t) (iblk0 V c 2 t) r ch
      = Cert.Spec.lin (V c main_arg0) (V c main_arg1) (biasOf V c) (imgOf t) (lineOf t (rowW r)) (rowH r) ch := by
  unfold blin Cert.Spec.lin
  refine congrArg₂ (· + ·) (x_block V c t ch (rowW r) (rowH r)) (congrArg₂ (· + ·) ?_ (b_block V c t ch))
  exact Finset.sum_congr rfl fun k _ => congrArg₂ (· * ·) (x_block V c t k (rowW r) (rowH r)) (w_block V c t ch k)

/-- THE BLOCK'S ACTIVATION is the whole arrays' at the point's pixel. -/
theorem bact_point (c : Dev nD) (t : Fin cfg0.N) (r : Fin 448) (j : Fin 256) :
    bact (iblk0 V c 0 t) (iblk0 V c 1 t) (iblk0 V c 2 t) r j
      = Cert.Spec.act (V c main_arg0) (V c main_arg1) (biasOf V c) (imgOf t) (lineOf t (rowW r)) (rowH r) j := by
  unfold bact Cert.Spec.act
  refine congrArg Ideal.tanh (congrArg (· * _) ?_)
  unfold bgram Cert.Spec.gram
  exact Finset.sum_congr rfl fun g _ => congrArg₂ (· * ·) (blin_point V c t r _) (blin_point V c t r _)

end Cert.KernelIdeal.Stats

end
-- ==== Proof.StatsCover.lean ====
/-
  The first pass's three output arrays, from what each grid point leaves.

  The grid has 32 × 7 points; point t works on image t / 7 and the strip of 8 image rows number t % 7. Every point
  writes its [1, 8, 56, 256] block of the activation back to image t / 7, rows 8 (t % 7) … 8 (t % 7) + 7 of the
  [32, 56, 56, 256] array. Pixel (b, w) lies in the block of point 7b + w / 8, so the 224 blocks cover the array:
  if what point t leaves is the block of one array-sized function A, the array ends holding A.
  The two rows of totals are single blocks that are carried from point to point and written back once, after the
  last point; the array then holds what the last point left.
-/
import proofs.«174560_j51247549776179_2_alg».proof.Proof.Gen.KernelIdeal.Frame
import Idealize.ShloMosaic.Lib.Pipeline.Value
import Idealize.ShloMosaic.Lib.ValueIdx
import Idealize.ShloMosaic.PureOps.Ideal
import Idealize.ShloMosaic.Lib.Tactic

noncomputable section

namespace Cert.KernelIdeal.Stats.Cover

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The index maps over the grid: the activation block of point t sits at image t / 7 and strip t % 7; the rows
    of totals sit at block (0, 0). -/
theorem grid_facts : ∀ t : Fin cfg0.N,
    win0_3.index t (0 : Fin 4) = t.val / 7 ∧ win0_3.index t (1 : Fin 4) = t.val % 7
    ∧ win0_3.index t (2 : Fin 4) = 0 ∧ win0_3.index t (3 : Fin 4) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- An index of the activation array is in point t's block iff each coordinate is in the block's range. -/
theorem mem_blk3 (t : Fin cfg0.N) (i : S32x56x56x256.Idx) :
    i ∈ ((cfg0.win 3).blk t).view.set ↔ ∀ a : Fin 4, win0_3.index t a * S1x8x56x256.size a ≤ (i a).val
      ∧ (i a).val < win0_3.index t a * S1x8x56x256.size a + S1x8x56x256.size a := by
  show i ∈ ((View.whole main_v6_0).slice (win0_3.rect t)).set ↔ _
  rw [View.set_slice_whole, Rect.mem_set_unit]
  exact Iff.rfl

/-- Every index of the activation array is in some point's block: pixel (b, w) in that of point 7b + w / 8. -/
theorem covered3 (i : S32x56x56x256.Idx) :
    ∃ t : Fin cfg0.N, (cfg0.win 3).flush t = true ∧ i ∈ ((cfg0.win 3).blk t).view.set := by
  have h0 : (i 0).val < 32 := (i 0).isLt
  have h1 : (i 1).val < 56 := (i 1).isLt
  have h2 : (i 2).val < 56 := (i 2).isLt
  have h3 : (i 3).val < 256 := (i 3).isLt
  have hN : cfg0.N = 224 := N_0
  let t : Fin cfg0.N := ⟨(i 0).val * 7 + (i 1).val / 8, by rw [hN]; omega⟩
  have tv : t.val = (i 0).val * 7 + (i 1).val / 8 := rfl
  obtain ⟨g0, g1, g2, g3, -⟩ := grid_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 56 ≤ (i 2).val ∧ (i 2).val < win0_3.index t (2 : Fin 4) * 56 + 56; omega
  | ⟨3, _⟩ => show win0_3.index t (3 : Fin 4) * 256 ≤ (i 3).val ∧ (i 3).val < win0_3.index t (3 : Fin 4) * 256 + 256; omega

/-- Where position y of point t's activation block lands in the array: image t / 7, row 8 (t % 7) + y₁, column y₂,
    entry y₃. -/
theorem emb3 (t : Fin cfg0.N) (y : S1x8x56x256.Idx) :
    ((((cfg0.win 3).blk t).view.emb y : S32x56x56x256.Idx) 0).val = t.val / 7
    ∧ ((((cfg0.win 3).blk t).view.emb y : S32x56x56x256.Idx) 1).val = (t.val % 7) * 8 + (y 1).val
    ∧ ((((cfg0.win 3).blk t).view.emb y : S32x56x56x256.Idx) 2).val = (y 2).val
    ∧ ((((cfg0.win 3).blk t).view.emb y : S32x56x56x256.Idx) 3).val = (y 3).val := by
  obtain ⟨g0, g1, g2, g3, -⟩ := grid_facts t
  have y0 : (y 0).val < 1 := (y 0).isLt
  refine ⟨?_, ?_, ?_, ?_⟩
  · show win0_3.index t (0 : Fin 4) * 1 + 1 * (y 0).val = _; omega
  · show win0_3.index t (1 : Fin 4) * 8 + 1 * (y 1).val = _; omega
  · show win0_3.index t (2 : Fin 4) * 56 + 1 * (y 2).val = _; omega
  · show win0_3.index t (3 : Fin 4) * 256 + 1 * (y 3).val = _; omega

/-- THE ACTIVATION ARRAY, from blocks: if what every point leaves in the activation window is the block of A at
    that point, the array ends holding A. -/
theorem act_final_of_blocks (c : Dev nD) (A : S32x56x56x256.Idx → EReal)
    (hpt : ∀ t : Fin cfg0.N, (outsAt0 V c t.val t.isLt).1 = ((cfg0.win 3).blk t).view.read (Elt Ideal) A) :
    (dat0 V c).arrAt 3 cfg0.N = A :=
  (dat0 V c).arrAt_eq_of_cover 3 A (fun t _ => by
    show (cfg0.win 3).cut (grid0.coords t) ((dat0 V c).after 3 t) = _
    rw [after0_3]
    exact hpt t) covered3

/-- The same from the entries: if position y of what point t leaves is A at image t / 7, row 8 (t % 7) + y₁,
    column y₂, entry y₃ — stated for any array index i with those coordinates — the array ends holding A. -/
theorem act_final (c : Dev nD) (A : S32x56x56x256.Idx → EReal)
    (hpt : ∀ (t : Fin cfg0.N) (y : S1x8x56x256.Idx) (i : S32x56x56x256.Idx),
      (i 0).val = t.val / 7 → (i 1).val = (t.val % 7) * 8 + (y 1).val → (i 2).val = (y 2).val → (i 3).val = (y 3).val →
      (outsAt0 V c t.val t.isLt).1 y = A i) :
    (dat0 V c).arrAt 3 cfg0.N = A :=
  act_final_of_blocks V c A fun t => funext fun y => by
    obtain ⟨e0, e1, e2, e3⟩ := emb3 t y
    exact hpt t y _ e0 e1 e2 e3

/-- THE ROWS OF TOTALS: each array ends holding what the last point (number 223) leaves in its window. -/
theorem sum_final (c : Dev nD) (T : S1x256.Idx → EReal)
    (hlast : ∀ t : Fin cfg0.N, t.val = 223 → (outsAt0 V c t.val t.isLt).2.1 = T) :
    (dat0 V c).arrAt 4 cfg0.N = T := by
  have hN : cfg0.N = 224 := N_0
  refine (dat0 V c).arrAt_eq_of_cover 4 T (fun t hf => ?_) (fun i => ?_)
  · have h223 : t.val = 223 := by have := (flush0_4 t).mp hf; have := t.isLt; omega
    show (cfg0.win 4).cut (grid0.coords t) ((dat0 V c).after 4 t) = _
    rw [after0_4, hlast t h223]
    obtain ⟨-, -, -, -, g4, g5, -⟩ := grid_facts t
    funext y
    show T y = T (((cfg0.win 4).blk t).view.emb y)
    refine congrArg T (funext fun a => Fin.ext ?_)
    match a with
    | ⟨0, _⟩ => show (y 0).val = win0_4.index t (0 : Fin 2) * 1 + 1 * (y 0).val; omega
    | ⟨1, _⟩ => show (y 1).val = win0_4.index t (1 : Fin 2) * 256 + 1 * (y 1).val; omega
  · let t : Fin cfg0.N := ⟨223, by rw [hN]; omega⟩
    obtain ⟨-, -, -, -, g4, g5, -⟩ := grid_facts t
    refine ⟨t, (flush0_4 t).mpr rfl, ?_⟩
    show i ∈ ((View.whole main_v6_1).slice (win0_4.rect t)).set
    rw [View.set_slice_whole, Rect.mem_set_unit]
    have h0 : (i 0).val < 1 := (i 0).isLt
    have h1 : (i 1).val < 256 := (i 1).isLt
    intro a
    match a with
    | ⟨0, _⟩ => show win0_4.index t (0 : Fin 2) * 1 ≤ (i 0).val ∧ (i 0).val < win0_4.index t (0 : Fin 2) * 1 + 1; omega
    | ⟨1, _⟩ => show win0_4.index t (1 : Fin 2) * 256 ≤ (i 1).val ∧ (i 1).val < win0_4.index t (1 : Fin 2) * 256 + 256; omega

/-- The same for the row of totals of the squares. -/
theorem sumsq_final (c : Dev nD) (T : S1x256.Idx → EReal)
    (hlast : ∀ t : Fin cfg0.N, t.val = 223 → (outsAt0 V c t.val t.isLt).2.2 = T) :
    (dat0 V c).arrAt 5 cfg0.N = T := by
  have hN : cfg0.N = 224 := N_0
  refine (dat0 V c).arrAt_eq_of_cover 5 T (fun t hf => ?_) (fun i => ?_)
  · have h223 : t.val = 223 := by have := (flush0_5 t).mp hf; have := t.isLt; omega
    show (cfg0.win 5).cut (grid0.coords t) ((dat0 V c).after 5 t) = _
    rw [after0_5, hlast t h223]
    obtain ⟨-, -, -, -, -, -, g6, g7⟩ := grid_facts t
    funext y
    show T y = T (((cfg0.win 5).blk t).view.emb y)
    refine congrArg T (funext fun a => Fin.ext ?_)
    match a with
    | ⟨0, _⟩ => show (y 0).val = win0_5.index t (0 : Fin 2) * 1 + 1 * (y 0).val; omega
    | ⟨1, _⟩ => show (y 1).val = win0_5.index t (1 : Fin 2) * 256 + 1 * (y 1).val; omega
  · let t : Fin cfg0.N := ⟨223, by rw [hN]; omega⟩
    obtain ⟨-, -, -, -, -, -, g6, g7⟩ := grid_facts t
    refine ⟨t, (flush0_5 t).mpr rfl, ?_⟩
    show i ∈ ((View.whole main_v6_2).slice (win0_5.rect t)).set
    rw [View.set_slice_whole, Rect.mem_set_unit]
    have h0 : (i 0).val < 1 := (i 0).isLt
    have h1 : (i 1).val < 256 := (i 1).isLt
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 256 ≤ (i 1).val ∧ (i 1).val < win0_5.index t (1 : Fin 2) * 256 + 256; omega

/-- The activation array from the entries of the blocks, with the coordinates written out: entry (0, w, h, j) of
    what point t leaves is A at image t / 7, row 8 (t % 7) + w, column h, entry j. -/
theorem act_array (c : Dev nD) (A : S32x56x56x256.Idx → EReal)
    (hpt : ∀ (t : Fin cfg0.N) (w : Fin 8) (h : Fin 56) (j : Fin 256),
      (outsAt0 V c t.val t.isLt).1 (ix4 (0 : Fin 1) w h j)
        = A (ix4 (⟨t.val / 7, by have h := t.isLt; have hN : cfg0.N = 224 := N_0; omega⟩ : Fin 32)
            (⟨(t.val % 7) * 8 + w.val, by have := w.isLt; omega⟩ : Fin 56) h j)) :
    (dat0 V c).arrAt 3 cfg0.N = A :=
  act_final V c A fun t y i e0 e1 e2 e3 => by
    obtain ⟨u, w, h, j, rfl⟩ : ∃ (u : Fin 1) (w : Fin 8) (h : Fin 56) (j : Fin 256), y = ix4 u w h j :=
      ⟨y 0, y 1, y 2, y 3, eq_ix4 y⟩
    obtain rfl : u = 0 := Subsingleton.elim u 0
    refine (hpt t w h j).trans (congrArg A (funext fun a => Fin.ext ?_))
    match a with
    | ⟨0, _⟩ => exact e0.symm
    | ⟨1, _⟩ => exact e1.symm
    | ⟨2, _⟩ => exact e2.symm
    | ⟨3, _⟩ => exact e3.symm

/-- The row of totals from its entries at the last point. -/
theorem total_array (c : Dev nD) (T : S1x256.Idx → EReal)
    (hlast : ∀ t : Fin cfg0.N, t.val % 224 = 223 → ∀ (u : Fin 1) (j : Fin 256),
      (outsAt0 V c t.val t.isLt).2.1 (ix2 u j) = T (ix2 (0 : Fin 1) j)) :
    (dat0 V c).arrAt 4 cfg0.N = T :=
  sum_final V c T fun t ht => funext fun y => by
    obtain ⟨u, j, rfl⟩ : ∃ (u : Fin 1) (j : Fin 256), y = ix2 u j := ⟨y 0, y 1, eq_ix2 y⟩
    obtain rfl : u = 0 := Subsingleton.elim u 0
    exact hlast t (by omega) 0 j

/-- The row of totals of the squares from its entries at the last point. -/
theorem totalSq_array (c : Dev nD) (T : S1x256.Idx → EReal)
    (hlast : ∀ t : Fin cfg0.N, t.val % 224 = 223 → ∀ (u : Fin 1) (j : Fin 256),
      (outsAt0 V c t.val t.isLt).2.2 (ix2 u j) = T (ix2 (0 : Fin 1) j)) :
    (dat0 V c).arrAt 5 cfg0.N = T :=
  sumsq_final V c T fun t ht => funext fun y => by
    obtain ⟨u, j, rfl⟩ : ∃ (u : Fin 1) (j : Fin 256), y = ix2 u j := ⟨y 0, y 1, eq_ix2 y⟩
    obtain rfl : u = 0 := Subsingleton.elim u 0
    exact hlast t (by omega) 0 j

end Cert.KernelIdeal.Stats.Cover

end
-- ==== Proof.LibStripSum.lean ====
/-
  A sum over strips of pixels is the sum over all pixels.

  The 32 · 56 · 56 pixels (image b, row w, column h) are visited strip by strip: 224 = 32 · 7 visits, visit t
  being image t / 7 and strip t % 7, a strip being 8 consecutive rows; inside a strip the 448 = 8 · 56 pixels are
  numbered r, row r / 56 of the strip and column r % 56. Every pixel is met exactly once — (b, w, h) at visit
  7b + w / 8, number 56 (w % 8) + h — so for any function of the pixel with values in a commutative monoid the
  double sum over visits and numbers is the triple sum over images, rows and columns.
-/
import Mathlib.Algebra.BigOperators.Fin
import Mathlib.Logic.Equiv.Fin.Basic
import Mathlib.Tactic.NormNum

open scoped BigOperators

namespace Cert.Lib.StripSum

variable {M : Type*} [AddCommMonoid M]

/-- A sum over m · n consecutive numbers, split as m groups of n: number n·a + b is member b of group a. -/
theorem sum_groups (m n : ℕ) (g : Fin (m * n) → M) :
    ∑ x, g x = ∑ a : Fin m, ∑ b : Fin n, g (finProdFinEquiv (a, b)) := by
  rw [← Equiv.sum_comp finProdFinEquiv g, Fintype.sum_prod_type]

/-- The strip sum with the coordinates of a visit and of a number given as functions, known only through their
    values: image t / 7, row (t % 7) · 8 + r / 56, column r % 56. -/
theorem sum_strips_of (f : Fin 32 → Fin 56 → Fin 56 → M)
    (img : Fin 224 → Fin 32) (line : Fin 224 → Fin 448 → Fin 56) (col : Fin 448 → Fin 56)
    (himg : ∀ t, (img t).val = t.val / 7) (hline : ∀ t r, (line t r).val = (t.val % 7) * 8 + r.val / 56)
    (hcol : ∀ r, (col r).val = r.val % 56) :
    (∑ t : Fin 224, ∑ r : Fin 448, f (img t) (line t r) (col r)) = ∑ b : Fin 32, ∑ w : Fin 56, ∑ h : Fin 56, f b w h := by
  refine (sum_groups 32 7 _).trans (Finset.sum_congr rfl fun b _ => ?_)
  refine Eq.trans ?_ (sum_groups 7 8 _).symm
  refine Finset.sum_congr rfl fun s _ => ?_
  refine (sum_groups 8 56 _).trans (Finset.sum_congr rfl fun w _ => Finset.sum_congr rfl fun h _ => ?_)
  have hb : b.val < 32 := b.isLt
  have hs : s.val < 7 := s.isLt
  have hw : w.val < 8 := w.isLt
  have hh : h.val < 56 := h.isLt
  have vt : (finProdFinEquiv (b, s) : Fin (32 * 7)).val = s.val + 7 * b.val := rfl
  have vr : (finProdFinEquiv (w, h) : Fin (8 * 56)).val = h.val + 56 * w.val := rfl
  have vw : (finProdFinEquiv (s, w) : Fin (7 * 8)).val = w.val + 8 * s.val := rfl
  have e0 : img (finProdFinEquiv (b, s)) = b := Fin.ext (by rw [himg, vt]; omega)
  have e1 : line (finProdFinEquiv (b, s)) (finProdFinEquiv (w, h)) = finProdFinEquiv (s, w) :=
    Fin.ext (by rw [hline, vt, vr, vw]; omega)
  have e2 : col (finProdFinEquiv (w, h)) = h := Fin.ext (by rw [hcol, vr]; omega)
  rw [e0, e1, e2]

/-- The strip sum with the coordinates written out. -/
theorem sum_strips (f : Fin 32 → Fin 56 → Fin 56 → M) :
    (∑ t : Fin 224, ∑ r : Fin 448,
        f ⟨t.val / 7, by omega⟩ ⟨(t.val % 7) * 8 + r.val / 56, by omega⟩ ⟨r.val % 56, Nat.mod_lt _ (by norm_num)⟩)
      = ∑ b : Fin 32, ∑ w : Fin 56, ∑ h : Fin 56, f b w h :=
  sum_strips_of f _ _ _ (fun _ => rfl) (fun _ _ => rfl) (fun _ => rfl)

end Cert.Lib.StripSum
-- ==== Proof.StatsFinal.lean ====
/-
  The three results of the statistics pass, as functions of the whole arrays.

  The activation array is written strip by strip: point t stores the activations of batch image t / 7, image rows
  8 (t % 7) … 8 (t % 7) + 7, so entry (b, w, h, j) of the array is act(b, w, h, j) of the whole arrays. The two totals
  are written back once, after the last point, when they hold the sums over all 224 points of the blocks' column
  sums; a point's 448 block rows are the pixels (t / 7, 8 (t % 7) + r / 56, r % 56), and as t runs over the points and r
  over the rows these run over every pixel (b, w, h) exactly once: the totals are ∑ act and ∑ act² over all pixels.
-/
import proofs.«174560_j51247549776179_2_alg».proof.Proof.StatsChain
import proofs.«174560_j51247549776179_2_alg».proof.Proof.StatsPoint
import proofs.«174560_j51247549776179_2_alg».proof.Proof.StatsCover
import proofs.«174560_j51247549776179_2_alg».proof.Proof.LibStripSum

noncomputable section

open scoped BigOperators

namespace Cert.KernelIdeal.Stats

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The activation matrix of point `t` at block row `r` is the whole arrays' activation at the pixel
    (t / 7, 8 (t % 7) + r / 56, r % 56). -/
theorem pointAct_pixel (c : Dev nD) (t : Fin 224) (r : Fin 448) (j : Fin 256) :
    pointAct V c t.val r j
      = Cert.Spec.act (V c main_arg0) (V c main_arg1) (biasOf V c) ⟨t.val / 7, by omega⟩ ⟨(t.val % 7) * 8 + r.val / 56, by omega⟩
          ⟨r.val % 56, Nat.mod_lt _ (by norm_num)⟩ j :=
  have ht : t.val < cfg0.N := lt_of_lt_of_eq t.isLt (show cfg0.N = 224 from N_0).symm
  (pointAct_eq V c t.val ht r j).trans (bact_point V c ⟨t.val, ht⟩ r j)

/-- THE ACTIVATION ARRAY after the pass. -/
theorem act_final (c : Dev nD) :
    (dat0 V c).arrAt 3 cfg0.N = fun i => Cert.Spec.act (V c main_arg0) (V c main_arg1) (biasOf V c) (i 0) (i 1) (i 2) (i 3) := by
  refine Cover.act_array V c _ fun t w h j => ?_
  rw [(outsAt_eq V c t.val t.isLt).1]
  refine (pay2_apply _ w h j).trans ((pay5_apply (iblk0 V c 0 t) (iblk0 V c 1 t) (iblk0 V c 2 t) (rowAt w h) j).trans ?_)
  refine (bact_point V c t (rowAt w h) j).trans ?_
  rw [rowW_rowAt, rowH_rowAt]
  rfl

/-- THE TOTAL OF THE ACTIVATIONS after the pass. -/
theorem total_final (c : Dev nD) :
    (dat0 V c).arrAt 4 cfg0.N = fun i => Cert.Spec.total (Cert.Spec.act (V c main_arg0) (V c main_arg1) (biasOf V c)) (i 1) := by
  refine Cover.total_array V c _ fun t ht u j => ?_
  have hN : cfg0.N = 224 := N_0
  have hlt := t.isLt
  have h223 : t.val + 1 = 224 := by omega
  refine ((outsAt_eq V c t.val t.isLt).2.1 u j).trans ?_
  rw [h223]
  show ∑ s ∈ Finset.range 224, ∑ r : Fin 448, pointAct V c s r j = Cert.Spec.total _ j
  refine (Finset.sum_range _).trans ?_
  refine (Finset.sum_congr rfl fun t _ => Finset.sum_congr rfl fun r _ => pointAct_pixel V c t r j).trans ?_
  exact Cert.Lib.StripSum.sum_strips (fun b w h => Cert.Spec.act (V c main_arg0) (V c main_arg1) (biasOf V c) b w h j)

/-- THE TOTAL OF THE SQUARED ACTIVATIONS after the pass. -/
theorem totalSq_final (c : Dev nD) :
    (dat0 V c).arrAt 5 cfg0.N = fun i => Cert.Spec.totalSq (Cert.Spec.act (V c main_arg0) (V c main_arg1) (biasOf V c)) (i 1) := by
  refine Cover.totalSq_array V c _ fun t ht u j => ?_
  have hN : cfg0.N = 224 := N_0
  have hlt := t.isLt
  have h223 : t.val + 1 = 224 := by omega
  refine ((outsAt_eq V c t.val t.isLt).2.2 u j).trans ?_
  rw [h223]
  show ∑ s ∈ Finset.range 224, ∑ r : Fin 448, pointAct V c s r j * pointAct V c s r j = Cert.Spec.totalSq _ j
  refine (Finset.sum_range _).trans ?_
  refine (Finset.sum_congr rfl fun t _ => Finset.sum_congr rfl fun r _ =>
    congrArg₂ (· * ·) (pointAct_pixel V c t r j) (pointAct_pixel V c t r j)).trans ?_
  exact Cert.Lib.StripSum.sum_strips (fun b w h => Cert.Spec.act (V c main_arg0) (V c main_arg1) (biasOf V c) b w h j * Cert.Spec.act (V c main_arg0) (V c main_arg1) (biasOf V c) b w h j)

end Cert.KernelIdeal.Stats

end
-- ==== Proof.Pass2Block.lean ====
/-
  One block of the second pass, read entry by entry.

  A block holds 4 images, 8 image rows of 56 pixels each, so 4 · 8 · 56 = 1792 pixels. The body lists the pixels of
  the activation block as the rows of a 1792 × 256 matrix (pixel (a, w, h) is row (8a + w) · 56 + h), multiplies it
  by the 256 × 512 matrix, scales column c by entry c of one row vector and shifts it by entry c of another, reads
  the 1792 × 512 result back as [4, 8, 56, 512], moves the channel axis in front of the two pixel axes, and adds the
  block of x. Entry (a, c, w, h) of what it stores is therefore
    x(a,c,w,h) + ((∑ⱼ u(a,w,h,j) · d(j,c)) · s(0,c) + o(0,c)).
  Both matrix operands are in the half-width format; on the extended reals a change of format changes nothing.
-/
import proofs.«174560_j51247549776179_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pass2

open Idealize.ShloMosaic Idealize.ShloMosaic.ValueIdx Cert.KernelIdeal Cert.KernelIdeal.Gen

/-- Pixel (a, w, h) of a block as a row of the 1792-row matrix: (8a + w) · 56 + h. -/
def row (a : Fin 4) (w : Fin 8) (h : Fin 56) : Fin 1792 := ⟨(a.val * 8 + w.val) * 56 + h.val, by omega⟩

section Layout
variable {α : Type}

/-- Moving the channel axis in front of the pixel axes: entry (a, c, w, h) of the result is entry (a, w, h, c). -/
theorem chanFirst_apply (y : S4x8x56x512.Idx → α) (hT : S4x8x56x512.Transposes [0, 3, 1, 2] S4x512x8x56)
    (a : Fin 4) (c : Fin 512) (w : Fin 8) (h : Fin 56) :
    transpose S4x512x8x56 [0, 3, 1, 2] y hT (ix4 a c w h) = y (ix4 a w h c) :=
  transpose_apply _ y hT _ _ fun b => match b with | ⟨0, _⟩ => rfl | ⟨1, _⟩ => rfl | ⟨2, _⟩ => rfl | ⟨3, _⟩ => rfl

/-- The 1792 × 512 matrix read back as [4, 8, 56, 512]: entry (a, w, h, c) is row (a, w, h), column c. -/
theorem unrows_apply (z : S1792x512.Idx → α) (hC : S1792x512.ShapeCasts S4x8x56x512)
    (a : Fin 4) (w : Fin 8) (h : Fin 56) (c : Fin 512) :
    shapeCast S4x8x56x512 z hC (ix4 a w h c) = z (ix2 (row a w h) c) :=
  shapeCast_apply z hC _ _ (by
    rw [Shape.rowMajor_val_two, Shape.rowMajor_val_four]
    show ((a.val * 8 + w.val) * 56 + h.val) * 512 + c.val = ((a.val * 8 + w.val) * 56 + h.val) * 512 + c.val
    rfl)

/-- The [4, 8, 56, 256] block listed as a 1792 × 256 matrix: row (a, w, h), column j is entry (a, w, h, j). -/
theorem rows_apply (u : S4x8x56x256.Idx → α) (hC : S4x8x56x256.ShapeCasts S1792x256)
    (a : Fin 4) (w : Fin 8) (h : Fin 56) (j : Fin 256) :
    shapeCast S1792x256 u hC (ix2 (row a w h) j) = u (ix4 a w h j) :=
  shapeCast_apply u hC _ _ (by
    rw [Shape.rowMajor_val_two, Shape.rowMajor_val_four]
    show ((a.val * 8 + w.val) * 56 + h.val) * 256 + j.val = ((a.val * 8 + w.val) * 56 + h.val) * 256 + j.val
    rfl)

end Layout

/-- The matrix product into a zero accumulator, at row r and column c: the sum over the 256 shared entries. -/
theorem product_apply (A : FVec Ideal S1792x256 .bf16) (B : FVec Ideal S256x512 .bf16) (r : Fin 1792) (c : Fin 512) :
    matmul dot_S1792x256_S256x512_S1792x512_1_0_0_1_n_n none A B (constant (F := Ideal) S1792x512 .f32 0x00000000#32) (ix2 r c)
      = ∑ j : Fin 256, A (ix2 r j) * B (ix2 j c) := by
  show FloatOps.matmul dot_S1792x256_S256x512_S1792x512_1_0_0_1_n_n none A B (constant (F := Ideal) S1792x512 .f32 0x00000000#32) (ix2 r c) = _
  rw [Ideal.matmul_constant_zero_apply,
    ← Equiv.sum_comp (contrEquiv1 dot_S1792x256_S256x512_S1792x512_1_0_0_1_n_n 256 rfl rfl).symm]
  refine Finset.sum_congr rfl fun j _ => ?_
  have cj := contrEquiv1_symm_val dot_S1792x256_S256x512_S1792x512_1_0_0_1_n_n 256 rfl rfl j
  have l2 : dot_S1792x256_S256x512_S1792x512_1_0_0_1_n_n.lhsIdx (ix2 r c) ((contrEquiv1 _ 256 rfl rfl).symm j) = ix2 r j := by
    funext ax; apply Fin.ext
    match ax with
    | ⟨0, _⟩ => simp [DotDims.lhsIdx, dot_S1792x256_S256x512_S1792x512_1_0_0_1_n_n]; rfl
    | ⟨1, _⟩ => exact (DotDims.lhsIdx_val_of_single _ rfl _ _).trans cj
  have r2 : dot_S1792x256_S256x512_S1792x512_1_0_0_1_n_n.rhsIdx (ix2 r c) ((contrEquiv1 _ 256 rfl rfl).symm j) = ix2 j c := by
    funext ax; apply Fin.ext
    match ax with
    | ⟨0, _⟩ => exact (DotDims.rhsIdx_val_of_single _ rfl _ _).trans cj
    | ⟨1, _⟩ => simp [DotDims.rhsIdx, dot_S1792x256_S256x512_S1792x512_1_0_0_1_n_n]; rfl
  rw [l2, r2]

/-- What the body stores, at entry (a, c, w, h) of its block. -/
theorem block_apply (x0 : Vec Ideal S4x512x8x56 .f32) (u0 : Vec Ideal S4x8x56x256 .bf16) (d0 : Vec Ideal S256x512 .bf16)
    (s0 o0 : Vec Ideal S1x512 .f32) (a : Fin 4) (c : Fin 512) (w : Fin 8) (h : Fin 56) :
    k1_pay1 x0 u0 d0 s0 o0 (ix4 a c w h)
      = x0 (ix4 a c w h) + ((∑ j : Fin 256, u0 (ix4 a w h j) * d0 (ix2 j c)) * s0 (ix2 0 c) + o0 (ix2 0 c)) := by
  unfold k1_pay1
  dsimp only
  rw [addf_apply, chanFirst_apply, unrows_apply, addf_apply, mulf_apply, product_apply,
    broadcastTo_1b_ab_apply, broadcastTo_1b_ab_apply]
  simp only [shapeCast_self, rows_apply]

end Cert.KernelIdeal.Pass2

end
-- ==== Proof.Pass2Final.lean ====
/-
  The second pass over the whole array.

  The grid has 8 × 7 points. Point (p, q) works on images 4p … 4p + 3 and image rows 8q … 8q + 7: it reads that
  block of x (all 512 channels, all 56 columns) and the same pixels of the activation (all 256 entries), reads the
  256 × 512 matrix and the two row vectors whole, and writes the same block of the result. Reading each input block
  where the output block's position says, the entry the body stores at position y of its block is the value of one
  function of the five arrays at the array index y lands on:
    secondPass(i) = x(i) + ((∑ⱼ u(i₀, i₂, i₃, j) · d(j, i₁)) · s(0, i₁) + o(0, i₁)).
  Image b lies in block b / 4 and row w in strip w / 8, so the 56 blocks cover the array, which therefore ends
  holding that function everywhere.
-/
import proofs.«174560_j51247549776179_2_alg».proof.Proof.Gen.KernelIdeal.Frame
import proofs.«174560_j51247549776179_2_alg».proof.Proof.Pass2Block
import proofs.«174560_j51247549776179_2_alg».proof.Proof.Wiring
import Idealize.ShloMosaic.Lib.Pipeline.Value
import Idealize.ShloMosaic.Lib.Tactic

noncomputable section

open scoped BigOperators

namespace Cert.KernelIdeal.Pass2

open Idealize.ShloMosaic Idealize.ShloMosaic.TcCoe Idealize.ShloMosaic.ValueIdx Idealize.SL.Sem
open Idealize.ShloMosaic.Pipeline (Dat)
open Cert.KernelIdeal Cert.KernelIdeal.Gen
open Cert.Wiring (secondPass)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- One point, abstractly: when the x block and the activation block are read at image offset 4p and row offset 8q
    and the three small arrays are read whole, what the body stores at y is `secondPass` at the index y lands on. -/
theorem point_eq (X : S32x512x56x56.Idx → EReal) (U : S32x56x56x256.Idx → EReal) (D : S256x512.Idx → EReal)
    (S O : S1x512.Idx → EReal)
    (ex : S4x512x8x56.Idx → S32x512x56x56.Idx) (eu : S4x8x56x256.Idx → S32x56x56x256.Idx)
    (ed : S256x512.Idx → S256x512.Idx) (es eo : S1x512.Idx → S1x512.Idx) (p q : Nat)
    (hex : ∀ y, (ex y 0).val = p * 4 + (y 0).val ∧ (ex y 1).val = (y 1).val
      ∧ (ex y 2).val = q * 8 + (y 2).val ∧ (ex y 3).val = (y 3).val)
    (heu : ∀ y, (eu y 0).val = p * 4 + (y 0).val ∧ (eu y 1).val = q * 8 + (y 1).val
      ∧ (eu y 2).val = (y 2).val ∧ (eu y 3).val = (y 3).val)
    (hed : ∀ y, ed y = y) (hes : ∀ y, es y = y) (heo : ∀ y, eo y = y) (y : S4x512x8x56.Idx) :
    k1_pay1 (F := Ideal) (fun y => X (ex y)) (fun y => U (eu y)) (fun y => D (ed y)) (fun y => S (es y)) (fun y => O (eo y)) y
      = secondPass X U D S O (ex y) := by
  obtain ⟨a, c, w, h, rfl⟩ : ∃ (a : Fin 4) (c : Fin 512) (w : Fin 8) (h : Fin 56), y = ix4 a c w h :=
    ⟨y 0, y 1, y 2, y 3, eq_ix4 y⟩
  rw [block_apply]
  unfold secondPass
  obtain ⟨e0, e1, e2, e3⟩ := hex (ix4 a c w h)
  have hc : ex (ix4 a c w h) 1 = c := Fin.ext e1
  have hu : ∀ j : Fin 256, eu (ix4 a w h j) = ix4 (ex (ix4 a c w h) 0) (ex (ix4 a c w h) 2) (ex (ix4 a c w h) 3) j := fun j => by
    obtain ⟨f0, f1, f2, f3⟩ := heu (ix4 a w h j)
    funext ax; apply Fin.ext
    match ax with
    | ⟨0, _⟩ => exact f0.trans e0.symm
    | ⟨1, _⟩ => exact f1.trans e2.symm
    | ⟨2, _⟩ => exact f2.trans e3.symm
    | ⟨3, _⟩ => exact f3
  simp only [hed, hes, heo, hu, hc] <;> rfl

variable (V : (c : Dev nD) → (b : Ref sig .tc) → Buf (Elt Ideal) ((c : Thread nD τ).loc b))

/-- The index maps over the grid: the x block and the activation block sit at the output block's image and row
    positions, the small arrays at block 0, and the output block's channel and column positions are 0. -/
theorem grid_facts : ∀ t : Fin cfg1.N,
    win1_0.index t (0 : Fin 4) = win1_5.index t (0 : Fin 4) ∧ win1_0.index t (1 : Fin 4) = 0
    ∧ win1_0.index t (2 : Fin 4) = win1_5.index t (2 : Fin 4) ∧ win1_0.index t (3 : Fin 4) = 0
    ∧ win1_1.index t (0 : Fin 4) = win1_5.index t (0 : Fin 4) ∧ win1_1.index t (1 : Fin 4) = win1_5.index t (2 : Fin 4)
    ∧ win1_1.index t (2 : Fin 4) = 0 ∧ win1_1.index t (3 : Fin 4) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 4) = 0 ∧ win1_5.index t (3 : Fin 4) = 0 :=
  (by decide +kernel : ∀ t : Fin grid1.N, _)

/-- Every pair (block of images, strip of rows) is some point's. -/
theorem grid_onto : ∀ (p : Fin 8) (q : Fin 7), ∃ t : Fin cfg1.N, win1_5.index t = ![p.val, 0, q.val, 0] :=
  (by decide +kernel : ∀ (p : Fin 8) (q : Fin 7), ∃ t : Fin grid1.N, win1_5.index t = ![p.val, 0, q.val, 0])

/-- What point t writes back is block t of `secondPass` of the arrays as the pass finds them. -/
theorem flushed_eq (c : Dev nD) (t : Fin cfg1.N) :
    (dat1 V c).flushed 5 t = ((cfg1.win 5).blk t).view.read (Elt Ideal)
      (secondPass (V c main_arg0) (V c main_v6_0) (V c main_v5) (V c main_v21) (V c main_v24)) := by
  show (cfg1.win 5).cut (grid1.coords t) ((dat1 V c).after 5 t) = _
  rw [after1_5]
  unfold out1_5
  rw [View.canon_unit_zero zeros4]
  simp only [View.ld_unit_zero (S := S4x512x8x56) zeros4, View.ld_unit_zero (S := S4x8x56x256) zeros4,
    View.ld_unit_zero (S := S256x512) zeros2, View.ld_unit_zero (S := S1x512) zeros2]
  obtain ⟨g0, g1, g2, g3, g4, g5, g6, g7, g8, g9, g10, g11, g12, g13, g14, g15⟩ := grid_facts t
  funext y
  refine (point_eq (V c main_arg0) (V c main_v6_0) (V c main_v5) (V c main_v21) (V c main_v24)
    ((cfg1.win 0).blk t).view.emb ((cfg1.win 1).blk t).view.emb ((cfg1.win 2).blk t).view.emb
    ((cfg1.win 3).blk t).view.emb ((cfg1.win 4).blk t).view.emb (win1_5.index t (0 : Fin 4)) (win1_5.index t (2 : Fin 4))
    (fun y => ⟨?_, ?_, ?_, ?_⟩) (fun y => ⟨?_, ?_, ?_, ?_⟩) (fun y => ?_) (fun y => ?_) (fun y => ?_) y).trans ?_
  · show win1_0.index t (0 : Fin 4) * 4 + 1 * (y 0).val = _; omega
  · show win1_0.index t (1 : Fin 4) * 512 + 1 * (y 1).val = _; omega
  · show win1_0.index t (2 : Fin 4) * 8 + 1 * (y 2).val = _; omega
  · show win1_0.index t (3 : Fin 4) * 56 + 1 * (y 3).val = _; omega
  · show win1_1.index t (0 : Fin 4) * 4 + 1 * (y 0).val = _; omega
  · show win1_1.index t (1 : Fin 4) * 8 + 1 * (y 1).val = _; omega
  · show win1_1.index t (2 : Fin 4) * 56 + 1 * (y 2).val = _; omega
  · show win1_1.index t (3 : Fin 4) * 256 + 1 * (y 3).val = _; omega
  · funext ax; apply Fin.ext
    match ax with
    | ⟨0, _⟩ => show win1_2.index t (0 : Fin 2) * 256 + 1 * (y 0).val = (y 0).val; omega
    | ⟨1, _⟩ => show win1_2.index t (1 : Fin 2) * 512 + 1 * (y 1).val = (y 1).val; omega
  · funext ax; apply Fin.ext
    match ax with
    | ⟨0, _⟩ => show win1_3.index t (0 : Fin 2) * 1 + 1 * (y 0).val = (y 0).val; omega
    | ⟨1, _⟩ => show win1_3.index t (1 : Fin 2) * 512 + 1 * (y 1).val = (y 1).val; omega
  · funext ax; apply Fin.ext
    match ax with
    | ⟨0, _⟩ => show win1_4.index t (0 : Fin 2) * 1 + 1 * (y 0).val = (y 0).val; omega
    | ⟨1, _⟩ => show win1_4.index t (1 : Fin 2) * 512 + 1 * (y 1).val = (y 1).val; omega
  · show secondPass _ _ _ _ _ (((cfg1.win 0).blk t).view.emb y) = secondPass _ _ _ _ _ (((cfg1.win 5).blk t).view.emb y)
    refine congrArg _ ?_
    funext ax; apply Fin.ext
    match ax with
    | ⟨0, _⟩ => show win1_0.index t (0 : Fin 4) * 4 + 1 * (y 0).val = win1_5.index t (0 : Fin 4) * 4 + 1 * (y 0).val; omega
    | ⟨1, _⟩ => show win1_0.index t (1 : Fin 4) * 512 + 1 * (y 1).val = win1_5.index t (1 : Fin 4) * 512 + 1 * (y 1).val; omega
    | ⟨2, _⟩ => show win1_0.index t (2 : Fin 4) * 8 + 1 * (y 2).val = win1_5.index t (2 : Fin 4) * 8 + 1 * (y 2).val; omega
    | ⟨3, _⟩ => show win1_0.index t (3 : Fin 4) * 56 + 1 * (y 3).val = win1_5.index t (3 : Fin 4) * 56 + 1 * (y 3).val; omega

/-- An index of the array is in point t's block iff each coordinate is in the block's range on its axis. -/
theorem mem_blk (t : Fin cfg1.N) (i : S32x512x56x56.Idx) :
    i ∈ ((cfg1.win 5).blk t).view.set ↔ ∀ a : Fin 4, win1_5.index t a * S4x512x8x56.size a ≤ (i a).val
      ∧ (i a).val < win1_5.index t a * S4x512x8x56.size a + S4x512x8x56.size a := by
  show i ∈ ((View.whole main_v25).slice (win1_5.rect t)).set ↔ _
  rw [View.set_slice_whole, Rect.mem_set_unit]
  exact Iff.rfl

/-- Every index of the array is in some point's block: image b in block b / 4, row w in strip w / 8. -/
theorem covered (i : S32x512x56x56.Idx) :
    ∃ t : Fin cfg1.N, (cfg1.win 5).flush t = true ∧ i ∈ ((cfg1.win 5).blk t).view.set := by
  have h0 : (i 0).val < 32 := (i 0).isLt
  have h1 : (i 1).val < 512 := (i 1).isLt
  have h2 : (i 2).val < 56 := (i 2).isLt
  have h3 : (i 3).val < 56 := (i 3).isLt
  obtain ⟨t, ht⟩ := grid_onto ⟨(i 0).val / 4, by omega⟩ ⟨(i 2).val / 8, by omega⟩
  have q0 : win1_5.index t (0 : Fin 4) = (i 0).val / 4 := congrFun ht 0
  have q1 : win1_5.index t (1 : Fin 4) = 0 := congrFun ht 1
  have q2 : win1_5.index t (2 : Fin 4) = (i 2).val / 8 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 4 ≤ (i 0).val ∧ (i 0).val < win1_5.index t (0 : Fin 4) * 4 + 4; omega
  | ⟨1, _⟩ => show win1_5.index t (1 : Fin 4) * 512 ≤ (i 1).val ∧ (i 1).val < win1_5.index t (1 : Fin 4) * 512 + 512; omega
  | ⟨2, _⟩ => show win1_5.index t (2 : Fin 4) * 8 ≤ (i 2).val ∧ (i 2).val < win1_5.index t (2 : Fin 4) * 8 + 8; omega
  | ⟨3, _⟩ => show win1_5.index t (3 : Fin 4) * 56 ≤ (i 3).val ∧ (i 3).val < win1_5.index t (3 : Fin 4) * 56 + 56; omega

/-- The array after the second pass is `secondPass` of the arrays as the pass finds them: at index i = (image, channel,
    row, column) it holds x(i) plus the activation of that pixel times column i₁ of the matrix, scaled and shifted by
    entry i₁ of the two row vectors. -/
theorem out_final (c : Dev nD) : (dat1 V c).arrAt 5 cfg1.N
    = secondPass (V c main_arg0) (V c main_v6_0) (V c main_v5) (V c main_v21) (V c main_v24) :=
  (dat1 V c).arrAt_eq_of_cover 5 _ (fun t _ => flushed_eq V c t) covered

end Cert.KernelIdeal.Pass2

end
-- ==== Proof.GlueEntry0.lean ====
/-
  The host operations ahead of the first kernel call, read back as values.

  No host operation writes an argument array, so at the first call's entry each of them is what the caller passed, and
  the bias row the call reads is the bias vector viewed as one row. The same stretch builds the duplication matrix the
  second call reads: entry (j, c) compares the row number j with the column number c divided by two, the quotient
  taken by the round-toward-minus-infinity recipe (truncated quotient, minus one when the signs differ and the
  remainder is not zero). On the columns 0 … 511 the correction never fires, so the quotient is the plain c / 2, and
  the comparison converted to a number is 1 where c / 2 = j and 0 elsewhere.
-/
import proofs.«174560_j51247549776179_2_alg».proof.Proof.Gen.KernelIdeal.Frame
import proofs.«174560_j51247549776179_2_alg».proof.Proof.Wiring
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

/-! ## The integer chain behind the duplication matrix -/

/-- The sign of a 32-bit word: 0, 1 or -1. -/
def sgn (x : BitVec 32) : BitVec 32 := if x = 0 then 0 else if x.msb then -1 else 1

/-- The quotient by two rounded toward minus infinity, as the program spells it: the truncated quotient, less one
    when the operands' signs differ and the remainder is not zero. -/
def floorHalf (k : BitVec 32) : BitVec 32 :=
  Scalar.select
    (IntOp.andi (IntOp.cmpi .ne (sgn k) (sgn 2#32)) (IntOp.cmpi .ne (IntOp.remsi .host k 2#32) 0#32))
    (IntOp.subi (IntOp.divsi .host k 2#32) 1#32)
    (IntOp.divsi .host k 2#32)

/-- On the column numbers the recipe is the plain quotient. -/
theorem floorHalf_ofNat : ∀ k : Fin 512, floorHalf (BitVec.ofNat 32 k.val) = BitVec.ofNat 32 (k.val / 2) := by
  decide +kernel

/-- One entry of the matrix: the comparison of the halved column number with the row number, as a number. -/
theorem cell (j : Fin 256) (k : Fin 512) :
    FloatOps.uitofp (F := Ideal) .bf16 (IntOp.cmpi .eq (floorHalf (BitVec.ofNat 32 k.val)) (BitVec.ofNat 32 j.val))
      = if k.val / 2 = j.val then (1 : EReal) else 0 := by
  rw [floorHalf_ofNat]
  show (((BitVec.ofBool (BitVec.ofNat 32 (k.val / 2) == BitVec.ofNat 32 j.val)).toNat : ℝ) : EReal) = _
  by_cases h : k.val / 2 = j.val
  · rw [if_pos h, h]
    simp
  · rw [if_neg h]
    have hne : BitVec.ofNat 32 (k.val / 2) ≠ BitVec.ofNat 32 j.val := by
      intro e
      have e' := congrArg BitVec.toNat e
      simp only [BitVec.toNat_ofNat] at e'
      have := k.isLt
      have := j.isLt
      omega
    rw [beq_eq_false_iff_ne.mpr hne]
    simp

variable (m : (ℓ : Loc nD τ sig) → Buf (Elt Ideal) ℓ) (ρ : Dev nD → PrngReg) (c : Dev nD)

/-! ## The argument arrays at the first call's entry -/

/-- No host operation ahead of the first call writes the input array. -/
theorem entry0_x : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp

/-- Nor the weight matrix. -/
theorem entry0_w : V3 m ρ c main_arg1 = m ((c : Thread nD τ).loc main_arg1) := by
  show StableHlo.after hostOps0_2 (StableHlo.after hostOps0_1 (StableHlo.after hostOps0 (W0 m ρ c))) (Proc.devRef .tc main_arg1) = _
  dsimp only [hostOps0, hostOps0_1, hostOps0_2]
  after_results_simp

/-- Nor the gain vector. -/
theorem entry0_gain : V3 m ρ c main_arg3 = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp

/-- Nor the offset vector. -/
theorem entry0_shift : V3 m ρ c main_arg4 = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp

/-- The bias row is the bias vector laid out as one row. -/
theorem entry0_b : V3 m ρ c main_v0 = Cert.Wiring.rowCopy (m ((c : Thread nD τ).loc main_arg2)) := by
  have e : (V3 m ρ c main_v0 : S1x512.Idx → EReal)
      = fun i => shapeCast S1x512 (m ((c : Thread nD τ).loc main_arg2) : S512.Idx → EReal) shapeCasts_S512_S1x512 i := by
    show StableHlo.after hostOps0_2 (StableHlo.after hostOps0_1 (StableHlo.after hostOps0 (W0 m ρ c))) (Proc.devRef .tc main_v0) = _
    dsimp only [hostOps0, hostOps0_1, hostOps0_2]
    after_results_simp
    rfl
  rw [e]
  funext i
  obtain ⟨a, b, rfl⟩ : ∃ a b, i = ix2 a b := ⟨i 0, i 1, eq_ix2 i⟩
  exact shapeCast_a_1a_apply _ _ a b

/-- The duplication matrix, as the first stretch of host operations leaves it. -/
theorem entry0_d : V3 m ρ c main_v5 = Cert.Wiring.dupMatrix := by
  have e : (V3 m ρ c main_v5 : S256x512.Idx → EReal) = fun i =>
      FloatOps.uitofp (F := Ideal) .bf16 (IntOp.cmpi .eq (floorHalf (BitVec.ofNat 32 (i 1).val)) (BitVec.ofNat 32 (i 0).val)) := by
    show StableHlo.after hostOps0_2 (StableHlo.after hostOps0_1 (StableHlo.after hostOps0 (W0 m ρ c))) (Proc.devRef .tc main_v5) = _
    dsimp only [hostOps0, hostOps0_1, hostOps0_2]
    after_results_simp
    simp only [cast_cast, cast_eq]
    funext i
    rfl
  rw [e]
  funext i
  exact cell (i 0) (i 1)

end Cert.KernelIdeal.Glue

end
-- ==== Proof.GlueEntry1.lean ====
/-
  The host operations between the two kernel calls, read back as values.

  The first call leaves the activation array and two rows of totals, s1 (of the activation) and s2 (of its squares).
  The host divides both rows by the pixel count, forms s2/N − (s1/N)·(s1/N), repeats every entry of that row and of
  s1/N twice (entry c of the long row is entry c / 2 of the short one: the row is broadcast to [1, 256, 2] and read
  back as [1, 512], and position (j, r) of the former is position 2 j + r of the latter), adds the variance offset,
  takes the reciprocal square root, multiplies by the gain, and subtracts mean times scale from the offset vector.
  Here each of these is read at an index, and the two rows the second call reads come out as the scale row and the
  offset row of the wiring definitions. The arrays the stretch does not write are carried through unchanged.
-/
import proofs.«174560_j51247549776179_2_alg».proof.Proof.GlueEntry0
import Idealize.ShloMosaic.Lib.IdealHost

noncomputable section

namespace Cert.KernelIdeal.Glue

open Idealize.ShloMosaic Idealize.ShloMosaic.TcCoe Idealize.ShloMosaic.ValueIdx
open Cert.KernelIdeal Cert.KernelIdeal.Gen

/-! ## The host arithmetic as functions of arrays -/

/-- A row of totals divided by the pixel count. -/
def meanOf (s : FVec Ideal S1x256 .f32) : FVec Ideal S1x256 .f32 :=
  Host.divf s (broadcastInDim S1x256 ![] bcast_S_S1x256 (constant (F := Ideal) S_ .f32 0x47C40000#32))

/-- A row of 256 entries with every entry repeated twice. -/
def twice (v : FVec Ideal S1x256 .f32) : FVec Ideal S1x512 .f32 :=
  fun i => shapeCast S1x512 (broadcastInDim S1x256x2 ![0, 1] bcast_S1x256_S1x256x2_0_1 v) shapeCasts_S1x256x2_S1x512 i

/-- A vector of 512 entries as one row. -/
def asRow (v : FVec Ideal S512 .f32) : FVec Ideal S1x512 .f32 :=
  fun i => shapeCast S1x512 v shapeCasts_S512_S1x512 i

/-- The scale row as the program computes it. -/
def scaleProg (s1 s2 : FVec Ideal S1x256 .f32) (g : FVec Ideal S512 .f32) : FVec Ideal S1x512 .f32 :=
  mulf (asRow g)
    (Host.rsqrt (addf (twice (subf (meanOf s2) (mulf (meanOf s1) (meanOf s1))))
      (broadcastInDim S1x512 ![] bcast_S_S1x512 (constant (F := Ideal) S_ .f32 0x3727C5AC#32))))

/-- The offset row as the program computes it. -/
def offsetProg (s1 s2 : FVec Ideal S1x256 .f32) (g b : FVec Ideal S512 .f32) : FVec Ideal S1x512 .f32 :=
  subf (asRow b) (mulf (twice (meanOf s1)) (scaleProg s1 s2 g))

theorem meanOf_apply (s : FVec Ideal S1x256 .f32) (i : S1x256.Idx) : meanOf s i = Ideal.div (s i) Spec.nPix := rfl

theorem asRow_apply (v : FVec Ideal S512 .f32) (u : Fin 1) (k : Fin 512) : asRow v (ix2 u k) = v (ix1 k) :=
  shapeCast_a_1a_apply _ _ u k

/-- Entry c of the doubled row is entry c / 2 of the row. -/
theorem twice_apply (v : FVec Ideal S1x256 .f32) (u : Fin 1) (k : Fin 512) :
    twice v (ix2 u k) = v (ix2 0 (Spec.half k)) := by
  have hu : u.val = 0 := by omega
  have hk := k.isLt
  unfold twice
  refine (shapeCast_apply _ shapeCasts_S1x256x2_S1x512 (ix2 u k)
    (ix3 (0 : Fin 1) (Spec.half k) (⟨k.val % 2, Nat.mod_lt _ (by decide)⟩ : Fin 2)) ?_).trans ?_
  · rw [Shape.rowMajor_val_three, Shape.rowMajor_val_two]
    show (0 * 256 + k.val / 2) * 2 + k.val % 2 = u.val * 512 + k.val
    omega
  · refine broadcastInDim_apply _ bcast_S1x256_S1x256x2_0_1 v _ (ix2 (0 : Fin 1) (Spec.half k)) ?_
    intro a
    match a with
    | ⟨0, _⟩ => rfl
    | ⟨1, _⟩ => rfl

theorem scaleProg_eq (s1 s2 : FVec Ideal S1x256 .f32) (g : FVec Ideal S512 .f32) :
    scaleProg s1 s2 g = Cert.Wiring.scaleRow s1 s2 g := by
  funext i
  obtain ⟨a, b, rfl⟩ : ∃ a b, i = ix2 a b := ⟨i 0, i 1, eq_ix2 i⟩
  show asRow g (ix2 a b)
      * Ideal.rsqrt (twice (subf (meanOf s2) (mulf (meanOf s1) (meanOf s1))) (ix2 a b) + Spec.eps) = _
  rw [asRow_apply, twice_apply]
  rfl

theorem offsetProg_eq (s1 s2 : FVec Ideal S1x256 .f32) (g b : FVec Ideal S512 .f32) :
    offsetProg s1 s2 g b = Cert.Wiring.offsetRow s1 s2 g b := by
  funext i
  obtain ⟨a, k, rfl⟩ : ∃ a k, i = ix2 a k := ⟨i 0, i 1, eq_ix2 i⟩
  show asRow b (ix2 a k) - twice (meanOf s1) (ix2 a k) * scaleProg s1 s2 g (ix2 a k) = _
  rw [asRow_apply, twice_apply, scaleProg_eq]
  rfl

variable (m : (ℓ : Loc nD τ sig) → Buf (Elt Ideal) ℓ) (ρ : Dev nD → PrngReg) (c : Dev nD)

/-! ## What the first call leaves, and what the stretch does not touch -/

theorem exit0_total : W4 m ρ c (Proc.devRef .tc main_v6_1) = (dat0 (V3 m ρ) c).arrAt 4 cfg0.N := W4_arr m ρ c 4
theorem exit0_totalSq : W4 m ρ c (Proc.devRef .tc main_v6_2) = (dat0 (V3 m ρ) c).arrAt 5 cfg0.N := W4_arr m ρ c 5
theorem exit0_gain : W4 m ρ c (Proc.devRef .tc main_arg3) = m ((c : Thread nD τ).loc main_arg3) :=
  (W4_of_ne m ρ c main_arg3 (by decide)).trans (entry0_gain m ρ c)
theorem exit0_shift : W4 m ρ c (Proc.devRef .tc main_arg4) = m ((c : Thread nD τ).loc main_arg4) :=
  (W4_of_ne m ρ c main_arg4 (by decide)).trans (entry0_shift m ρ c)

/-- The input array reaches the second call as the caller passed it: the first call only reads it. -/
theorem entry1_x : V5 m ρ c main_arg0 = m ((c : Thread nD τ).loc main_arg0) := by
  show StableHlo.after hostOps1 (W4 m ρ c) (Proc.devRef .tc main_arg0) = _
  dsimp only [hostOps1]
  after_results_simp
  exact (W4_arr m ρ c 0).trans (((dat0 (V3 m ρ) c).arrAt_in 0 rfl _).trans ((A_eq0 (V3 m ρ) c 0).trans (entry0_x m ρ c)))

/-- The activation array reaches the second call as the first call left it. -/
theorem entry1_u : V5 m ρ c main_v6_0 = (dat0 (V3 m ρ) c).arrAt 3 cfg0.N := by
  show StableHlo.after hostOps1 (W4 m ρ c) (Proc.devRef .tc main_v6_0) = _
  dsimp only [hostOps1]
  after_results_simp
  exact W4_arr m ρ c 3

/-- The duplication matrix reaches the second call as it was built. -/
theorem entry1_d : V5 m ρ c main_v5 = Cert.Wiring.dupMatrix := by
  show StableHlo.after hostOps1 (W4 m ρ c) (Proc.devRef .tc main_v5) = _
  dsimp only [hostOps1]
  after_results_simp
  exact (W4_of_ne m ρ c main_v5 (by decide)).trans (entry0_d m ρ c)

/-! ## The two rows the second call reads -/

theorem entry1_scale : V5 m ρ c main_v21
    = Cert.Wiring.scaleRow ((dat0 (V3 m ρ) c).arrAt 4 cfg0.N) ((dat0 (V3 m ρ) c).arrAt 5 cfg0.N)
        (m ((c : Thread nD τ).loc main_arg3)) := by
  have e : (V5 m ρ c main_v21 : S1x512.Idx → EReal)
      = scaleProg (W4 m ρ c (Proc.devRef .tc main_v6_1)) (W4 m ρ c (Proc.devRef .tc main_v6_2))
          (W4 m ρ c (Proc.devRef .tc main_arg3)) := by
    show StableHlo.after hostOps1 (W4 m ρ c) (Proc.devRef .tc main_v21) = _
    dsimp only [hostOps1]
    after_results_simp
    rfl
  rw [e, scaleProg_eq, exit0_total, exit0_totalSq, exit0_gain]

theorem entry1_offset : V5 m ρ c main_v24
    = Cert.Wiring.offsetRow ((dat0 (V3 m ρ) c).arrAt 4 cfg0.N) ((dat0 (V3 m ρ) c).arrAt 5 cfg0.N)
        (m ((c : Thread nD τ).loc main_arg3)) (m ((c : Thread nD τ).loc main_arg4)) := by
  have e : (V5 m ρ c main_v24 : S1x512.Idx → EReal)
      = offsetProg (W4 m ρ c (Proc.devRef .tc main_v6_1)) (W4 m ρ c (Proc.devRef .tc main_v6_2))
          (W4 m ρ c (Proc.devRef .tc main_arg3)) (W4 m ρ c (Proc.devRef .tc main_arg4)) := by
    show StableHlo.after hostOps1 (W4 m ρ c) (Proc.devRef .tc main_v24) = _
    dsimp only [hostOps1]
    after_results_simp
    rfl
  rw [e, offsetProg_eq, exit0_total, exit0_totalSq, exit0_gain, exit0_shift]

end Cert.KernelIdeal.Glue

end
-- ==== Proof.KernelValue.lean ====
/-
  The idealized kernel program's result as a function of its arguments.

  The second pass's output array is the second-pass formula over the arrays that pass reads. Each of those arrays is
  known: x is the argument as launched; the activation array is what the first pass wrote, which is the
  specification's activation of the arguments; the 0/1 matrix is the duplication matrix; the scale and offset rows
  are the host's arithmetic on the first pass's two rows of totals, which are the specification's totals of the
  activation. Substituting them, the second-pass formula is the fused form of the specification.

  The substitutions are made by congruence — equal arrays give equal formulas — one array at a time.
-/
import proofs.«174560_j51247549776179_2_alg».proof.Proof.Gen.KernelIdeal.Frame
import proofs.«174560_j51247549776179_2_alg».proof.Proof.Spec
import proofs.«174560_j51247549776179_2_alg».proof.Proof.Wiring
import proofs.«174560_j51247549776179_2_alg».proof.Proof.StatsFinal
import proofs.«174560_j51247549776179_2_alg».proof.Proof.Pass2Final
import proofs.«174560_j51247549776179_2_alg».proof.Proof.GlueEntry0
import proofs.«174560_j51247549776179_2_alg».proof.Proof.GlueEntry1

set_option maxRecDepth 16384

noncomputable section

open scoped BigOperators

namespace Cert.KernelIdeal.Value

open Idealize.ShloMosaic Idealize.ShloMosaic.TcCoe Idealize.ShloMosaic.ValueIdx Idealize.SL.Sem
open Cert.KernelIdeal Cert.KernelIdeal.Gen Cert.Spec Cert.Wiring

/-- Equal arguments give equal activations. -/
theorem act_congr {x x' : (⟨4, ![32, 512, 56, 56]⟩ : Shape).Idx → EReal} {fw fw' : (⟨2, ![512, 512]⟩ : Shape).Idx → EReal}
    {fb fb' : (⟨1, ![512]⟩ : Shape).Idx → EReal} (hx : x = x') (hw : fw = fw') (hb : fb = fb') :
    act x fw fb = act x' fw' fb' := by subst hx hw hb; rfl

/-- Equal totals and gain give equal scale rows. -/
theorem scaleRow_congr {s1 s1' s2 s2' : (⟨2, ![1, 256]⟩ : Shape).Idx → EReal} {γ γ' : (⟨1, ![512]⟩ : Shape).Idx → EReal}
    (h1 : s1 = s1') (h2 : s2 = s2') (hγ : γ = γ') : scaleRow s1 s2 γ = scaleRow s1' s2' γ' := by subst h1 h2 hγ; rfl

/-- Equal totals, gain and offset give equal offset rows. -/
theorem offsetRow_congr {s1 s1' s2 s2' : (⟨2, ![1, 256]⟩ : Shape).Idx → EReal} {γ γ' β β' : (⟨1, ![512]⟩ : Shape).Idx → EReal}
    (h1 : s1 = s1') (h2 : s2 = s2') (hγ : γ = γ') (hβ : β = β') : offsetRow s1 s2 γ β = offsetRow s1' s2' γ' β' := by
  subst h1 h2 hγ hβ; rfl

/-- Equal input arrays give equal second-pass outputs. -/
theorem secondPass_congr {x x' : (⟨4, ![32, 512, 56, 56]⟩ : Shape).Idx → EReal} {u u' : (⟨4, ![32, 56, 56, 256]⟩ : Shape).Idx → EReal}
    {d d' : (⟨2, ![256, 512]⟩ : Shape).Idx → EReal} {s s' o o' : (⟨2, ![1, 512]⟩ : Shape).Idx → EReal}
    (hx : x = x') (hu : u = u') (hd : d = d') (hs : s = s') (ho : o = o') :
    secondPass x u d s o = secondPass x' u' d' s' o' := by subst hx hu hd hs ho; rfl

variable (m : (ℓ : Loc nD τ sig) → Buf (Elt Ideal) ℓ) (ρ : Dev nD → PrngReg)

/-- The bias the first pass reads, out of its one-row copy, is the bias argument. -/
theorem bias_eq (c : Dev nD) : Cert.KernelIdeal.Stats.biasOf (V3 m ρ) c = m ((c : Thread nD τ).loc main_arg2) := by
  funext k
  show V3 m ρ c main_v0 (ix2 (0 : Fin 1) (k 0)) = _
  rw [Cert.KernelIdeal.Glue.entry0_b m ρ c]
  exact congrArg (m ((c : Thread nD τ).loc main_arg2)) (eq_ix1 k).symm

/-- The result array, after the second pass's last grid point, is the fused form of the specification at the
    program's arguments. -/
theorem result_eq (c : Dev nD) :
    (dat1 (V5 m ρ) c).arrAt 5 cfg1.N
      = fusedForm (act (m ((c : Thread nD τ).loc main_arg0)) (m ((c : Thread nD τ).loc main_arg1)) (m ((c : Thread nD τ).loc main_arg2)))
          (m ((c : Thread nD τ).loc main_arg3)) (m ((c : Thread nD τ).loc main_arg4)) (m ((c : Thread nD τ).loc main_arg0)) := by
  have hA := act_congr (Cert.KernelIdeal.Glue.entry0_x m ρ c) (Cert.KernelIdeal.Glue.entry0_w m ρ c) (bias_eq m ρ c)
  have e1 := (Cert.KernelIdeal.Stats.total_final (V3 m ρ) c).trans
    (congrArg (fun (A : Fin 32 → Fin 56 → Fin 56 → Fin 256 → EReal) => fun i : (⟨2, ![1, 256]⟩ : Shape).Idx => total A (i 1)) hA)
  have e2 := (Cert.KernelIdeal.Stats.totalSq_final (V3 m ρ) c).trans
    (congrArg (fun (A : Fin 32 → Fin 56 → Fin 56 → Fin 256 → EReal) => fun i : (⟨2, ![1, 256]⟩ : Shape).Idx => totalSq A (i 1)) hA)
  have eu := (Cert.KernelIdeal.Glue.entry1_u m ρ c).trans ((Cert.KernelIdeal.Stats.act_final (V3 m ρ) c).trans
    (congrArg (fun (A : Fin 32 → Fin 56 → Fin 56 → Fin 256 → EReal) => fun i : (⟨4, ![32, 56, 56, 256]⟩ : Shape).Idx => A (i 0) (i 1) (i 2) (i 3)) hA))
  exact (Cert.KernelIdeal.Pass2.out_final (V5 m ρ) c).trans
    ((secondPass_congr (Cert.KernelIdeal.Glue.entry1_x m ρ c) eu (Cert.KernelIdeal.Glue.entry1_d m ρ c)
      ((Cert.KernelIdeal.Glue.entry1_scale m ρ c).trans (scaleRow_congr e1 e2 rfl))
      ((Cert.KernelIdeal.Glue.entry1_offset m ρ c).trans (offsetRow_congr e1 e2 rfl rfl))).trans (secondPass_eq _ _ _ _))

end Cert.KernelIdeal.Value

end
-- ==== Proof.RefRunOps.lean ====
/-
  The reference program's entry function read as one straight line of host operations.

  The entry function calls two outlined helpers, integer floor division (which itself calls an elementwise
  selection) and a per-channel variance (which calls a selection of its own against a scalar). A call means the
  callee's body run on the operands, each value of that body in a buffer of the call's own record, so the whole
  function is a single list of ninety-two elementwise, re-indexing, contraction and reduction steps: the entry
  function's fifty-two, the floor division's sixteen and its selection, the variance's twenty and its selection's
  three. This module states that list, proves the entry function equal to the sequence of the list's steps, and
  reads off the run: from any memory with every counter at zero, every weakly fair execution terminates and each
  buffer of the device ends at the value the list's fold assigns it over the contents the launch started from.
-/
import proofs.«174560_j51247549776179_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The entry function's ninety-two operations in program order, each call replaced by its callee's operations
    over that call's buffers: after the first twenty, floor division of the index table by 512 (sixteen steps and
    the selection between the quotient and the quotient less one); after nineteen more, the variance (twenty
    steps and the three of the selection that keeps it when the divisor is positive); then the last thirteen. -/
abbrev ops : List (HloOp τ sig (Elt F)) :=
  [ unary main_arg0 main_v0 ((transpose S32x56x56x512 [0, 2, 3, 1] · transposes_S32x512x56x56_S32x56x56x512_0_2_3_1) : (⟨S32x512x56x56, .f32⟩ : BufTy).Contents (Elt F) → (⟨S32x56x56x512, .f32⟩ : BufTy).Contents (Elt F)),
    reshape main_v0 main_v1 rfl shapeCasts_S32x56x56x512_S100352x512,
    unary main_arg1 main_v2 ((transpose S512x512 [1, 0] · transposes_S512x512_S512x512_1_0) : (⟨S512x512, .f32⟩ : BufTy).Contents (Elt F) → (⟨S512x512, .f32⟩ : BufTy).Contents (Elt F)),
    binary main_v1 main_v2 main_v3 ((fun l r => Host.dotGeneral dot_S100352x512_S512x512_S100352x512_1_0_0_1_n_n none l r) : (⟨S100352x512, .f32⟩ : BufTy).Contents (Elt F) → (⟨S512x512, .f32⟩ : BufTy).Contents (Elt F) → (⟨S100352x512, .f32⟩ : BufTy).Contents (Elt F)),
    unary main_arg2 main_v4 (broadcastInDim S1x512 ![1] bcast_S512_S1x512_1 : (⟨S512, .f32⟩ : BufTy).Contents (Elt F) → (⟨S1x512, .f32⟩ : BufTy).Contents (Elt F)),
    unary main_v4 main_v5 (broadcastInDim S100352x512 ![0, 1] bcast_S1x512_S100352x512_0_1 : (⟨S1x512, .f32⟩ : BufTy).Contents (Elt F) → (⟨S100352x512, .f32⟩ : BufTy).Contents (Elt F)),
    binary main_v3 main_v5 main_v6 (addf : (⟨S100352x512, .f32⟩ : BufTy).Contents (Elt F) → (⟨S100352x512, .f32⟩ : BufTy).Contents (Elt F) → (⟨S100352x512, .f32⟩ : BufTy).Contents (Elt F)),
    binary main_v1 main_v6 main_v7 (addf : (⟨S100352x512, .f32⟩ : BufTy).Contents (Elt F) → (⟨S100352x512, .f32⟩ : BufTy).Contents (Elt F) → (⟨S100352x512, .f32⟩ : BufTy).Contents (Elt F)),
    reshape main_v7 main_v8 rfl shapeCasts_S100352x512_S100352x32x16,
    binary main_v8 main_v8 main_v9 ((fun l r => Host.dotGeneral dot_S100352x32x16_S100352x32x16_S100352x16x16_1_1_2_2_0_0 none l r) : (⟨S100352x32x16, .f32⟩ : BufTy).Contents (Elt F) → (⟨S100352x32x16, .f32⟩ : BufTy).Contents (Elt F) → (⟨S100352x16x16, .f32⟩ : BufTy).Contents (Elt F)),
    nullary main_cst (constant S_ .f32 0x42000000#32),
    unary main_cst main_v10 (broadcastInDim S100352x16x16 ![] bcast_S_S100352x16x16 : (⟨S_, .f32⟩ : BufTy).Contents (Elt F) → (⟨S100352x16x16, .f32⟩ : BufTy).Contents (Elt F)),
    binary main_v9 main_v10 main_v11 (Host.divf : (⟨S100352x16x16, .f32⟩ : BufTy).Contents (Elt F) → (⟨S100352x16x16, .f32⟩ : BufTy).Contents (Elt F) → (⟨S100352x16x16, .f32⟩ : BufTy).Contents (Elt F)),
    unary main_v11 main_v12 (Host.tanh : (⟨S100352x16x16, .f32⟩ : BufTy).Contents (Elt F) → (⟨S100352x16x16, .f32⟩ : BufTy).Contents (Elt F)),
    reshape main_v12 main_v13 rfl shapeCasts_S100352x16x16_S32x56x56x256,
    nullary main_v14 (iotaInDim S512 32 0),
    nullary main_c (constantI S_ 32 256#32),
    unary main_c main_v15 (broadcastInDim S512 ![] bcast_S_S512 : (⟨S_, .i32⟩ : BufTy).Contents (Elt F) → (⟨S512, .i32⟩ : BufTy).Contents (Elt F)),
    binary main_v14 main_v15 main_v16 (muli : (⟨S512, .i32⟩ : BufTy).Contents (Elt F) → (⟨S512, .i32⟩ : BufTy).Contents (Elt F) → (⟨S512, .i32⟩ : BufTy).Contents (Elt F)),
    nullary main_c_0 (constantI S_ 32 512#32),
    TRef.unary (.of main_c_0) main_call0.v0 id,
    TRef.unary main_call0.v0 main_call0.v1 (broadcastInDim S512 ![] bcast_S_S512),
    TRef.binary (.of main_v16) main_call0.v1 main_call0.v2 Host.divsi,
    TRef.unary (.of main_v16) main_call0.v3 signi,
    TRef.unary main_call0.v0 main_call0.v4 signi,
    TRef.unary main_call0.v4 main_call0.v5 (broadcastInDim S512 ![] bcast_S_S512),
    TRef.binary main_call0.v3 main_call0.v5 main_call0.v6 (cmpi .ne),
    TRef.unary main_call0.v0 main_call0.v7 (broadcastInDim S512 ![] bcast_S_S512),
    TRef.binary (.of main_v16) main_call0.v7 main_call0.v8 Host.remsi,
    TRef.nullary main_call0.c (constantI S_ 32 0#32),
    TRef.unary main_call0.c main_call0.v9 (broadcastInDim S512 ![] bcast_S_S512),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S512 ![] bcast_S_S512),
    TRef.binary main_call0.v2 main_call0.v12 main_call0.v13 subi,
    TRef.ternary main_call0.v11 main_call0.v13 main_call0.v2 main_call0.call0.v0 select,
    nullary main_c_1 (constantI S_ 32 0#32),
    unary main_c_1 main_v18 (broadcastInDim S512 ![] bcast_S_S512 : (⟨S_, .i32⟩ : BufTy).Contents (Elt F) → (⟨S512, .i32⟩ : BufTy).Contents (Elt F)),
    binary main_v17 main_v18 main_v19 (cmpi .slt : (⟨S512, .i32⟩ : BufTy).Contents (Elt F) → (⟨S512, .i32⟩ : BufTy).Contents (Elt F) → (⟨S512, .i1⟩ : BufTy).Contents (Elt F)),
    nullary main_c_2 (constantI S_ 32 256#32),
    unary main_c_2 main_v20 (broadcastInDim S512 ![] bcast_S_S512 : (⟨S_, .i32⟩ : BufTy).Contents (Elt F) → (⟨S512, .i32⟩ : BufTy).Contents (Elt F)),
    binary main_v17 main_v20 main_v21 (addi : (⟨S512, .i32⟩ : BufTy).Contents (Elt F) → (⟨S512, .i32⟩ : BufTy).Contents (Elt F) → (⟨S512, .i32⟩ : BufTy).Contents (Elt F)),
    ternary main_v19 main_v21 main_v17 main_v22 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v22 main_v23 (broadcastInDim S512x1 ![0] bcast_S512_S512x1_0 : (⟨S512, .i32⟩ : BufTy).Contents (Elt F) → (⟨S512x1, .i32⟩ : BufTy).Contents (Elt F)),
    binary main_v13 main_v23 main_v24 ((fun x i => Host.gather gather_S32x56x56x256_S512x1_S32x56x56x512_012_3_n_n_3_1_3256561 x i) : (⟨S32x56x56x256, .f32⟩ : BufTy).Contents (Elt F) → (⟨S512x1, .i32⟩ : BufTy).Contents (Elt F) → (⟨S32x56x56x512, .f32⟩ : BufTy).Contents (Elt F)),
    unary main_v24 main_v25 ((transpose S32x512x56x56 [0, 3, 1, 2] · transposes_S32x56x56x512_S32x512x56x56_0_3_1_2) : (⟨S32x56x56x512, .f32⟩ : BufTy).Contents (Elt F) → (⟨S32x512x56x56, .f32⟩ : BufTy).Contents (Elt F)),
    nullary main_cst_3 (constant S_ .f32 0x00000000#32),
    binary main_v25 main_cst_3 main_v26 ((fun x v => Host.reduceAdd x v reducesTo_S32x512x56x56_S512_d0_2_3 h_S_) : (⟨S32x512x56x56, .f32⟩ : BufTy).Contents (Elt F) → (⟨S_, .f32⟩ : BufTy).Contents (Elt F) → (⟨S512, .f32⟩ : BufTy).Contents (Elt F)),
    unary main_v26 main_v27 (broadcastInDim S1x512x1x1 ![1] bcast_S512_S1x512x1x1_1 : (⟨S512, .f32⟩ : BufTy).Contents (Elt F) → (⟨S1x512x1x1, .f32⟩ : BufTy).Contents (Elt F)),
    nullary main_cst_4 (constant S_ .f32 0x47C40000#32),
    unary main_cst_4 main_v28 (broadcastInDim S1x512x1x1 ![] bcast_S_S1x512x1x1 : (⟨S_, .f32⟩ : BufTy).Contents (Elt F) → (⟨S1x512x1x1, .f32⟩ : BufTy).Contents (Elt F)),
    binary main_v27 main_v28 main_v29 (Host.divf : (⟨S1x512x1x1, .f32⟩ : BufTy).Contents (Elt F) → (⟨S1x512x1x1, .f32⟩ : BufTy).Contents (Elt F) → (⟨S1x512x1x1, .f32⟩ : BufTy).Contents (Elt F)),
    nullary main_c_5 (constantI S_ 32 0#32),
    TRef.nullary main_call1.cst (constant S_ .f32 0x00000000#32),
    TRef.binary (.of main_v25) main_call1.cst main_call1.v0 (fun x v => Host.reduceAdd x v reducesTo_S32x512x56x56_S512_d0_2_3 h_S_),
    TRef.unary main_call1.v0 main_call1.v1 (broadcastInDim S1x512x1x1 ![1] bcast_S512_S1x512x1x1_1),
    TRef.nullary main_call1.cst_0 (constant S_ .f32 0x47C40000#32),
    TRef.unary main_call1.cst_0 main_call1.v2 (broadcastInDim S1x512x1x1 ![] bcast_S_S1x512x1x1),
    TRef.binary main_call1.v1 main_call1.v2 main_call1.v3 Host.divf,
    TRef.unary main_call1.v3 main_call1.v4 (broadcastInDim S32x512x56x56 ![0, 1, 2, 3] bcast_S1x512x1x1_S32x512x56x56_0_1_2_3),
    TRef.binary (.of main_v25) main_call1.v4 main_call1.v5 subf,
    TRef.binary main_call1.v5 main_call1.v5 main_call1.v6 mulf,
    TRef.unary (.of main_c_5) main_call1.v7 (sitofp .f32),
    TRef.nullary main_call1.cst_1 (constant S_ .f32 0x47C40000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x512x56x56_S512_d0_2_3 h_S_),
    TRef.unary main_call1.v9 main_call1.v10 (broadcastInDim S1x512x1x1 ![1] bcast_S512_S1x512x1x1_1),
    TRef.unary main_call1.v8 main_call1.v11 (broadcastInDim S1x512x1x1 ![] bcast_S_S1x512x1x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S1x512x1x1 ![] bcast_S_S1x512x1x1),
    TRef.ternary main_call1.v13 main_call1.v12 main_call1.call0.v1 main_call1.call0.v2 (fun p a b => select (broadcastInDim S1x512x1x1 ![] bcast_S_S1x512x1x1 p) a b),
    unary main_v29 main_v31 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v25 main_v31 main_v32 (subf : (⟨S32x512x56x56, .f32⟩ : BufTy).Contents (Elt F) → (⟨S32x512x56x56, .f32⟩ : BufTy).Contents (Elt F) → (⟨S32x512x56x56, .f32⟩ : BufTy).Contents (Elt F)),
    nullary main_cst_6 (constant S_ .f32 0x3727C5AC#32),
    unary main_cst_6 main_v33 (broadcastInDim S1x512x1x1 ![] bcast_S_S1x512x1x1 : (⟨S_, .f32⟩ : BufTy).Contents (Elt F) → (⟨S1x512x1x1, .f32⟩ : BufTy).Contents (Elt F)),
    binary main_v30 main_v33 main_v34 (addf : (⟨S1x512x1x1, .f32⟩ : BufTy).Contents (Elt F) → (⟨S1x512x1x1, .f32⟩ : BufTy).Contents (Elt F) → (⟨S1x512x1x1, .f32⟩ : BufTy).Contents (Elt F)),
    unary main_v34 main_v35 (Host.rsqrt : (⟨S1x512x1x1, .f32⟩ : BufTy).Contents (Elt F) → (⟨S1x512x1x1, .f32⟩ : BufTy).Contents (Elt F)),
    unary main_v35 main_v36 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v32 main_v36 main_v37 (mulf : (⟨S32x512x56x56, .f32⟩ : BufTy).Contents (Elt F) → (⟨S32x512x56x56, .f32⟩ : BufTy).Contents (Elt F) → (⟨S32x512x56x56, .f32⟩ : BufTy).Contents (Elt F)),
    unary main_arg3 main_v38 (broadcastInDim S1x512x1x1 ![1] bcast_S512_S1x512x1x1_1 : (⟨S512, .f32⟩ : BufTy).Contents (Elt F) → (⟨S1x512x1x1, .f32⟩ : BufTy).Contents (Elt F)),
    unary main_v38 main_v39 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v37 main_v39 main_v40 (mulf : (⟨S32x512x56x56, .f32⟩ : BufTy).Contents (Elt F) → (⟨S32x512x56x56, .f32⟩ : BufTy).Contents (Elt F) → (⟨S32x512x56x56, .f32⟩ : BufTy).Contents (Elt F)),
    unary main_arg4 main_v41 (broadcastInDim S1x512x1x1 ![1] bcast_S512_S1x512x1x1_1 : (⟨S512, .f32⟩ : BufTy).Contents (Elt F) → (⟨S1x512x1x1, .f32⟩ : BufTy).Contents (Elt F)),
    unary main_v41 main_v42 (broadcastInDim S32x512x56x56 ![0, 1, 2, 3] bcast_S1x512x1x1_S32x512x56x56_0_1_2_3 : (⟨S1x512x1x1, .f32⟩ : BufTy).Contents (Elt F) → (⟨S32x512x56x56, .f32⟩ : BufTy).Contents (Elt F)),
    binary main_v40 main_v42 main_v43 (addf : (⟨S32x512x56x56, .f32⟩ : BufTy).Contents (Elt F) → (⟨S32x512x56x56, .f32⟩ : BufTy).Contents (Elt F) → (⟨S32x512x56x56, .f32⟩ : BufTy).Contents (Elt F)),
    binary main_arg0 main_v43 main_v44 (addf : (⟨S32x512x56x56, .f32⟩ : BufTy).Contents (Elt F) → (⟨S32x512x56x56, .f32⟩ : BufTy).Contents (Elt F) → (⟨S32x512x56x56, .f32⟩ : BufTy).Contents (Elt F)) ]

-- ninety-two steps nested one inside the other: the comparison descends once per statement
set_option maxRecDepth 4096 in
/-- The entry function is that straight line: with the callees' definitions unfolded where they are called and
    sequencing re-associated, both sides are the same chain of steps, which holds by computation. -/
theorem main_eq (c : Dev nD) : main (F := F) c = seq ops := rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches only buffers of the TensorCore's own table. -/
theorem ops_sub : (ops : List (HloOp τ sig (Elt F))).Forall fun op => op.bufs ⊆ tcRefs τ sig :=
  ⟨unary_bufs_sub .., reshape_bufs_sub .., unary_bufs_sub .., binary_bufs_sub .., unary_bufs_sub .., unary_bufs_sub ..,
    binary_bufs_sub .., binary_bufs_sub .., reshape_bufs_sub .., binary_bufs_sub .., nullary_bufs_sub .., unary_bufs_sub ..,
    binary_bufs_sub .., unary_bufs_sub .., reshape_bufs_sub .., nullary_bufs_sub .., nullary_bufs_sub .., unary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- For any float values, from any memory with zero counters: every weakly fair execution of the entry function on
    the TensorCores terminates, and in every final state each TensorCore buffer holds the fold of the operations
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference computation as one closed expression in its five argument arrays, over the extended reals.

  The expression follows the program line by line. The input is moved to pixel-major order and flattened to
  100352 pixel rows; a linear layer with bias and the residual give the rows of "lin"; each row is cut into
  32 groups of 16 and multiplied with itself over the group axis; the 16 × 16 products are divided by 32,
  passed through tanh, and laid out as 256 activation entries per pixel. An integer index vector (an iota
  times 256, floor-divided by 512, with a wrap-around for negative values) selects, for each of the 512 output
  channels, the activation entry it is upsampled from; a gather and a transpose bring the result back to
  channel-major order. The last part is a batch normalisation over the pixels of each channel (mean, then the
  mean squared deviation guarded by a comparison of the divisor with zero, reciprocal square root, gain,
  offset) added to the input.

  The stages are separate definitions so that each can be read at an index on its own; their composition is
  the program's result array.
-/
import proofs.«174560_j51247549776179_2_alg».proof.ReferenceIdeal
import Idealize.ShloMosaic.PureOps.Ideal

noncomputable section

namespace Cert.ReferenceIdeal.RefValue

open Idealize.ShloMosaic Idealize.SL.Sem
open Cert.ReferenceIdeal Cert.ReferenceIdeal.Facts₀ Cert.ReferenceIdeal.Facts

variable [Cert.ReferenceIdeal.Facts]

/-- The input in pixel-major order, one row of 512 channels per pixel. -/
def rowsT (x : FVec Ideal S32x512x56x56 .f32) : FVec Ideal S100352x512 .f32 :=
  shapeCast S100352x512
    (transpose S32x56x56x512 [0, 2, 3, 1] x transposes_S32x512x56x56_S32x56x56x512_0_2_3_1)
    shapeCasts_S32x56x56x512_S100352x512

/-- The linear layer with bias, plus the residual, per pixel row. -/
def linT (x : FVec Ideal S32x512x56x56 .f32) (fw : FVec Ideal S512x512 .f32) (fb : FVec Ideal S512 .f32) :
    FVec Ideal S100352x512 .f32 :=
  (addf : FVec Ideal S100352x512 .f32 → FVec Ideal S100352x512 .f32 → FVec Ideal S100352x512 .f32)
    (rowsT x)
    ((addf : FVec Ideal S100352x512 .f32 → FVec Ideal S100352x512 .f32 → FVec Ideal S100352x512 .f32)
      (Host.dotGeneral dot_S100352x512_S512x512_S100352x512_1_0_0_1_n_n none (rowsT x)
        (transpose S512x512 [1, 0] fw transposes_S512x512_S512x512_1_0))
      (broadcastInDim S100352x512 ![0, 1] bcast_S1x512_S100352x512_0_1
        (broadcastInDim S1x512 ![1] bcast_S512_S1x512_1 fb)))

/-- The grouped product of each pixel row with itself. -/
def gramT (l : FVec Ideal S100352x512 .f32) : FVec Ideal S100352x16x16 .f32 :=
  Host.dotGeneral dot_S100352x32x16_S100352x32x16_S100352x16x16_1_1_2_2_0_0 none
    (shapeCast S100352x32x16 l shapeCasts_S100352x512_S100352x32x16)
    (shapeCast S100352x32x16 l shapeCasts_S100352x512_S100352x32x16)

/-- Division by 32, tanh, and the layout as 256 entries per pixel. -/
def actT (gm : FVec Ideal S100352x16x16 .f32) : FVec Ideal S32x56x56x256 .f32 :=
  shapeCast S32x56x56x256
    ((Host.tanh : FVec Ideal S100352x16x16 .f32 → FVec Ideal S100352x16x16 .f32)
      ((Host.divf : FVec Ideal S100352x16x16 .f32 → FVec Ideal S100352x16x16 .f32 → FVec Ideal S100352x16x16 .f32)
        gm
        (broadcastInDim S100352x16x16 ![] bcast_S_S100352x16x16 (constant S_ .f32 0x42000000#32 : FVec Ideal S_ .f32))))
    shapeCasts_S100352x16x16_S32x56x56x256

/-- The iota times 256. -/
def scaledIotaT : IVec S512 32 :=
  (muli : IVec S512 32 → IVec S512 32 → IVec S512 32) (iotaInDim S512 32 0)
    (broadcastInDim S512 ![] bcast_S_S512 (constantI S_ 32 256#32))

/-- Floor division of an index vector by a scalar: the truncating quotient, lowered by one where the signs
    differ and the remainder is not zero. -/
def floorDivT (a : IVec S512 32) (d : IVec S_ 32) : IVec S512 32 :=
  select
    ((andi : IVec S512 1 → IVec S512 1 → IVec S512 1)
      ((cmpi .ne : IVec S512 32 → IVec S512 32 → IVec S512 1) (signi a)
        (broadcastInDim S512 ![] bcast_S_S512 (signi (id d))))
      ((cmpi .ne : IVec S512 32 → IVec S512 32 → IVec S512 1)
        (Host.remsi a (broadcastInDim S512 ![] bcast_S_S512 (id d)))
        (broadcastInDim S512 ![] bcast_S_S512 (constantI S_ 32 0#32))))
    ((subi : IVec S512 32 → IVec S512 32 → IVec S512 32)
      (Host.divsi a (broadcastInDim S512 ![] bcast_S_S512 (id d)))
      (broadcastInDim S512 ![] bcast_S_S512 (constantI S_ 32 1#32)))
    (Host.divsi a (broadcastInDim S512 ![] bcast_S_S512 (id d)))

/-- The source entry of each output channel: the floor quotient, wrapped by 256 where negative. -/
def idxT : IVec S512 32 :=
  (select : IVec S512 1 → IVec S512 32 → IVec S512 32 → IVec S512 32)
    ((cmpi .slt : IVec S512 32 → IVec S512 32 → IVec S512 1)
      (floorDivT scaledIotaT (constantI S_ 32 512#32))
      (broadcastInDim S512 ![] bcast_S_S512 (constantI S_ 32 0#32)))
    ((addi : IVec S512 32 → IVec S512 32 → IVec S512 32)
      (floorDivT scaledIotaT (constantI S_ 32 512#32))
      (broadcastInDim S512 ![] bcast_S_S512 (constantI S_ 32 256#32)))
    (floorDivT scaledIotaT (constantI S_ 32 512#32))

/-- The upsampled activation in channel-major order. -/
def upT (a : FVec Ideal S32x56x56x256 .f32) : FVec Ideal S32x512x56x56 .f32 :=
  transpose S32x512x56x56 [0, 3, 1, 2]
    (Host.gather gather_S32x56x56x256_S512x1_S32x56x56x512_012_3_n_n_3_1_3256561 a
      (broadcastInDim S512x1 ![0] bcast_S512_S512x1_0 idxT))
    transposes_S32x56x56x512_S32x512x56x56_0_3_1_2

/-- The per-channel mean: the total over the pixels divided by their number. -/
def meanT (u : FVec Ideal S32x512x56x56 .f32) : FVec Ideal S1x512x1x1 .f32 :=
  (Host.divf : FVec Ideal S1x512x1x1 .f32 → FVec Ideal S1x512x1x1 .f32 → FVec Ideal S1x512x1x1 .f32)
    (broadcastInDim S1x512x1x1 ![1] bcast_S512_S1x512x1x1_1
      (Host.reduceAdd u (constant S_ .f32 0x00000000#32 : FVec Ideal S_ .f32) reducesTo_S32x512x56x56_S512_d0_2_3 h_S_))
    (broadcastInDim S1x512x1x1 ![] bcast_S_S1x512x1x1 (constant S_ .f32 0x47C40000#32 : FVec Ideal S_ .f32))

/-- The divisor of the variance: the pixel count less the (integer) correction. -/
def divisorT (k : IVec S_ 32) : FVec Ideal S_ .f32 :=
  (subf : FVec Ideal S_ .f32 → FVec Ideal S_ .f32 → FVec Ideal S_ .f32)
    (constant S_ .f32 0x47C40000#32) (sitofp .f32 k)

/-- The per-channel variance: the mean squared deviation, kept where the divisor is positive. -/
def varT (u : FVec Ideal S32x512x56x56 .f32) (k : IVec S_ 32) : FVec Ideal S1x512x1x1 .f32 :=
  (fun p a b => select (broadcastInDim S1x512x1x1 ![] bcast_S_S1x512x1x1 p) a b :
      IVec S_ 1 → FVec Ideal S1x512x1x1 .f32 → FVec Ideal S1x512x1x1 .f32 → FVec Ideal S1x512x1x1 .f32)
    ((cmpf .ogt : FVec Ideal S_ .f32 → FVec Ideal S_ .f32 → IVec S_ 1) (divisorT k) (constant S_ .f32 0x00000000#32))
    ((Host.divf : FVec Ideal S1x512x1x1 .f32 → FVec Ideal S1x512x1x1 .f32 → FVec Ideal S1x512x1x1 .f32)
      (broadcastInDim S1x512x1x1 ![1] bcast_S512_S1x512x1x1_1
        (Host.reduceAdd
          ((mulf : FVec Ideal S32x512x56x56 .f32 → FVec Ideal S32x512x56x56 .f32 → FVec Ideal S32x512x56x56 .f32)
            ((subf : FVec Ideal S32x512x56x56 .f32 → FVec Ideal S32x512x56x56 .f32 → FVec Ideal S32x512x56x56 .f32) u
              (broadcastInDim S32x512x56x56 ![0, 1, 2, 3] bcast_S1x512x1x1_S32x512x56x56_0_1_2_3 (meanT u)))
            ((subf : FVec Ideal S32x512x56x56 .f32 → FVec Ideal S32x512x56x56 .f32 → FVec Ideal S32x512x56x56 .f32) u
              (broadcastInDim S32x512x56x56 ![0, 1, 2, 3] bcast_S1x512x1x1_S32x512x56x56_0_1_2_3 (meanT u))))
          (constant S_ .f32 0x00000000#32 : FVec Ideal S_ .f32) reducesTo_S32x512x56x56_S512_d0_2_3 h_S_))
      (broadcastInDim S1x512x1x1 ![] bcast_S_S1x512x1x1 (divisorT k)))
    (broadcastInDim S1x512x1x1 ![] bcast_S_S1x512x1x1 (id (constant S_ .f32 0x7FC00000#32 : FVec Ideal S_ .f32)))

/-- The normalisation of an array over the pixels of each channel, with gain and offset, added to the input. -/
def normT (u x : FVec Ideal S32x512x56x56 .f32) (g b : FVec Ideal S512 .f32) : FVec Ideal S32x512x56x56 .f32 :=
  (addf : FVec Ideal S32x512x56x56 .f32 → FVec Ideal S32x512x56x56 .f32 → FVec Ideal S32x512x56x56 .f32) x
    ((addf : FVec Ideal S32x512x56x56 .f32 → FVec Ideal S32x512x56x56 .f32 → FVec Ideal S32x512x56x56 .f32)
      ((mulf : FVec Ideal S32x512x56x56 .f32 → FVec Ideal S32x512x56x56 .f32 → FVec Ideal S32x512x56x56 .f32)
        ((mulf : FVec Ideal S32x512x56x56 .f32 → FVec Ideal S32x512x56x56 .f32 → FVec Ideal S32x512x56x56 .f32)
          ((subf : FVec Ideal S32x512x56x56 .f32 → FVec Ideal S32x512x56x56 .f32 → FVec Ideal S32x512x56x56 .f32) u
            (broadcastInDim S32x512x56x56 ![0, 1, 2, 3] bcast_S1x512x1x1_S32x512x56x56_0_1_2_3 (meanT u)))
          (broadcastInDim S32x512x56x56 ![0, 1, 2, 3] bcast_S1x512x1x1_S32x512x56x56_0_1_2_3
            ((Host.rsqrt : FVec Ideal S1x512x1x1 .f32 → FVec Ideal S1x512x1x1 .f32)
              ((addf : FVec Ideal S1x512x1x1 .f32 → FVec Ideal S1x512x1x1 .f32 → FVec Ideal S1x512x1x1 .f32)
                (varT u (constantI S_ 32 0#32))
                (broadcastInDim S1x512x1x1 ![] bcast_S_S1x512x1x1 (constant S_ .f32 0x3727C5AC#32 : FVec Ideal S_ .f32))))))
        (broadcastInDim S32x512x56x56 ![0, 1, 2, 3] bcast_S1x512x1x1_S32x512x56x56_0_1_2_3
          (broadcastInDim S1x512x1x1 ![1] bcast_S512_S1x512x1x1_1 g)))
      (broadcastInDim S32x512x56x56 ![0, 1, 2, 3] bcast_S1x512x1x1_S32x512x56x56_0_1_2_3
        (broadcastInDim S1x512x1x1 ![1] bcast_S512_S1x512x1x1_1 b)))

/-- The reference's result array as a function of its five arguments. -/
def refTerm (x : FVec Ideal S32x512x56x56 .f32) (fw : FVec Ideal S512x512 .f32) (fb g b : FVec Ideal S512 .f32) :
    FVec Ideal S32x512x56x56 .f32 :=
  normT (upT (actT (gramT (linT x fw fb)))) x g b

end Cert.ReferenceIdeal.RefValue

end
-- ==== Proof.RefRunOut.lean ====
/-
  What the reference's straight line leaves in its result and argument buffers.

  The fold of the ninety-two operations over any starting contents is read at six buffers. At each of the five
  argument buffers it returns the starting contents, because no operation writes an argument. At the result buffer
  it returns the closed expression of the five arguments obtained by composing the operations in program order:
  each operation's value at the buffer it writes is its function applied to the values of its operand buffers, and
  at every other buffer the value is whatever the earlier operations left there, so reading the last buffer walks
  the data flow back to the arguments. Both facts hold by unfolding alone. Together with the run of the straight
  line they give the packaged run: every execution terminates with the result buffer at that expression of the
  launch contents of the arguments, and the arguments unchanged.
-/
import proofs.«174560_j51247549776179_2_alg».proof.Proof.RefRunOps
import proofs.«174560_j51247549776179_2_alg».proof.Proof.RefTerm

noncomputable section

namespace Cert.ReferenceIdeal.RefRun

open Cert.ReferenceIdeal Cert.ReferenceIdeal.Gen Idealize.ShloMosaic Idealize.ShloMosaic.TcCoe Idealize.SL.Sem
  Idealize.ShloMosaic.StableHlo

section Arguments

variable {F : FTy → Type} [FloatOps F]

/-- No operation writes argument 0: the fold leaves it as it was. -/
theorem arg0_eq (V : Valuation τ sig (Elt F)) :
    after ops V (main_arg0 : DevRef τ sig) = V (main_arg0 : DevRef τ sig) := by
  simp only [after_cons, after_nil]
  rfl

/-- No operation writes argument 1: the fold leaves it as it was. -/
theorem arg1_eq (V : Valuation τ sig (Elt F)) :
    after ops V (main_arg1 : DevRef τ sig) = V (main_arg1 : DevRef τ sig) := by
  simp only [after_cons, after_nil]
  rfl

/-- No operation writes argument 2: the fold leaves it as it was. -/
theorem arg2_eq (V : Valuation τ sig (Elt F)) :
    after ops V (main_arg2 : DevRef τ sig) = V (main_arg2 : DevRef τ sig) := by
  simp only [after_cons, after_nil]
  rfl

/-- No operation writes argument 3: the fold leaves it as it was. -/
theorem arg3_eq (V : Valuation τ sig (Elt F)) :
    after ops V (main_arg3 : DevRef τ sig) = V (main_arg3 : DevRef τ sig) := by
  simp only [after_cons, after_nil]
  rfl

/-- No operation writes argument 4: the fold leaves it as it was. -/
theorem arg4_eq (V : Valuation τ sig (Elt F)) :
    after ops V (main_arg4 : DevRef τ sig) = V (main_arg4 : DevRef τ sig) := by
  simp only [after_cons, after_nil]
  rfl

end Arguments

attribute [local irreducible] Host.reduceAdd Host.gather Ideal.matmul in
set_option maxRecDepth 16384 in
set_option maxHeartbeats 1600000 in
/-- The fold at the result buffer is the composed expression of the arguments. Unrolling the fold, each
    operation's value at a buffer is decided by whether that buffer is the one it writes, and the typed references
    of the callees' records are literal buffers, so their transports are the identity: the two sides agree by
    computation. The contractions, the gather and the reductions stay closed while this is checked: the equation
    never looks inside them, and their bodies are sums and searches over every element of the operand. Written out
    in full the expression repeats its shared parts (the upsampled activation occurs six times in it, the mean of
    that array three), hence the raised bounds. -/
theorem out_eq (V : Valuation τ sig (Elt Ideal)) :
    after ops V (main_v44 : DevRef τ sig)
      = Cert.ReferenceIdeal.RefValue.refTerm (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/-- At the ideal instance, from any memory with zero counters: every weakly fair execution of the entry function
    terminates; on every device the result buffer ends at the composed expression of the five argument arrays as
    the launch found them, and the five argument arrays end as the launch found them. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = Cert.ReferenceIdeal.RefValue.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c main_v44).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_main m ρ)

end Cert.ReferenceIdeal.RefRun

end
-- ==== Proof.RefReadRows.lean ====
/-
  The first stages of the reference read at an index.

  A pixel (b, w, h) is row (b · 56 + w) · 56 + h of the flattened, pixel-major input, so entry (row, k) of that
  array is x(b, k, w, h). The dot product of a row with row c of the (transposed) weight matrix is the sum over k of
  x(b, k, w, h) · fw(c, k); with the bias broadcast along the rows and the residual added, entry (row, c) is the
  linear layer "lin" of the specification at pixel (b, w, h) and channel c.
-/
import proofs.«174560_j51247549776179_2_alg».proof.Proof.RefTerm
import proofs.«174560_j51247549776179_2_alg».proof.Proof.Spec
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Cert.ReferenceIdeal.Facts]

/-- The row of pixel (b, w, h) in pixel-major order. -/
def pix (b : Fin 32) (w h : Fin 56) : Fin 100352 := ⟨(b.val * 56 + w.val) * 56 + h.val, by omega⟩

/-- Entry (row of (b, w, h), k) of the flattened pixel-major input is x(b, k, w, h). -/
theorem rowsT_apply (x : FVec Ideal S32x512x56x56 .f32) (b : Fin 32) (w h : Fin 56) (k : Fin 512) :
    rowsT x (ix2 (pix b w h) k) = x (ix4 b k w h) := by
  unfold rowsT
  refine (shapeCast_apply _ _ (ix2 (pix b w h) k) (ix4 b w h k) ?_).trans ?_
  · rw [Shape.rowMajor_val_four, Shape.rowMajor_val_two]
    show ((b.val * 56 + w.val) * 56 + h.val) * 512 + k.val = ((b.val * 56 + w.val) * 56 + h.val) * 512 + k.val
    rfl
  · exact transpose_apply [0, 2, 3, 1] x _ (ix4 b w h k) (ix4 b k w h) (fun a => by
      match a with
      | ⟨0, _⟩ => rfl
      | ⟨1, _⟩ => rfl
      | ⟨2, _⟩ => rfl
      | ⟨3, _⟩ => rfl)

local notation "D₁" => dot_S100352x512_S512x512_S100352x512_1_0_0_1_n_n

theorem lhs_D1_0 (i : S100352x512.Idx) (q : (D₁).contr.Idx) : ((D₁).lhsIdx i q 0).val = (i 0).val := by
  unfold DotDims.lhsIdx
  rw [dif_neg (show ¬(0 : Fin S100352x512.rank) ∈ (D₁).lhsBatch from (by decide : ¬(0 : Fin 2) ∈ ([] : List (Fin 2)))),
    dif_pos (show (0 : Fin S100352x512.rank) ∈ (D₁).lhsNonContracting from (by decide : (0 : Fin 2) ∈ ([0] : List (Fin 2))))]
  rfl

theorem lhs_D1_1 (i : S100352x512.Idx) (q : (D₁).contr.Idx) : ((D₁).lhsIdx i q 1).val = (q ⟨0, Nat.one_pos⟩).val :=
  (D₁).lhsIdx_val_of_single rfl i q

theorem rhs_D1_0 (i : S100352x512.Idx) (q : (D₁).contr.Idx) : ((D₁).rhsIdx i q 0).val = (q ⟨0, Nat.one_pos⟩).val :=
  (D₁).rhsIdx_val_of_single rfl i q

theorem rhs_D1_1 (i : S100352x512.Idx) (q : (D₁).contr.Idx) : ((D₁).rhsIdx i q 1).val = (i 1).val := by
  unfold DotDims.rhsIdx
  rw [dif_neg (show ¬(1 : Fin S512x512.rank) ∈ (D₁).rhsBatch from (by decide : ¬(1 : Fin 2) ∈ ([] : List (Fin 2)))),
    dif_pos (show (1 : Fin S512x512.rank) ∈ (D₁).rhsNonContracting from (by decide : (1 : Fin 2) ∈ ([1] : List (Fin 2))))]
  rfl

/-- The product of the pixel rows with the transposed weights, at (row, c): the sum over k of the row's entry k times
    fw(c, k). -/
theorem dot1_apply (r : FVec Ideal S100352x512 .f32) (fw : FVec Ideal S512x512 .f32) (n : Fin 100352) (c : Fin 512) :
    Host.dotGeneral D₁ none r (transpose S512x512 [1, 0] fw transposes_S512x512_S512x512_1_0) (ix2 n c)
      = ∑ k : Fin 512, r (ix2 n k) * fw (ix2 c k) := by
  simp only [Host.dotGeneral]
  rw [Ideal.dotGeneral_apply, ← Equiv.sum_comp (contrEquiv1 D₁ 512 rfl rfl).symm]
  refine Finset.sum_congr rfl fun k _ => ?_
  have hk := contrEquiv1_symm_val D₁ 512 rfl rfl k
  have el : (D₁).lhsIdx (ix2 n c) ((contrEquiv1 D₁ 512 rfl rfl).symm k) = ix2 n k := funext fun a => Fin.ext (by
    match a with
    | ⟨0, _⟩ => exact lhs_D1_0 _ _
    | ⟨1, _⟩ => exact (lhs_D1_1 _ _).trans hk)
  have er : (D₁).rhsIdx (ix2 n c) ((contrEquiv1 D₁ 512 rfl rfl).symm k) = ix2 k c := funext fun a => Fin.ext (by
    match a with
    | ⟨0, _⟩ => exact (rhs_D1_0 _ _).trans hk
    | ⟨1, _⟩ => exact rhs_D1_1 _ _)
  rw [el, er]
  exact congrArg (r (ix2 n k) * ·) (transpose_apply [1, 0] fw _ (ix2 k c) (ix2 c k) (fun a => by
    match a with
    | ⟨0, _⟩ => rfl
    | ⟨1, _⟩ => rfl))

/-- The bias broadcast along the rows, at (row, c), is fb(c). -/
theorem bias_apply (fb : FVec Ideal S512 .f32) (n : Fin 100352) (c : Fin 512) :
    broadcastInDim S100352x512 ![0, 1] bcast_S1x512_S100352x512_0_1
      (broadcastInDim S1x512 ![1] bcast_S512_S1x512_1 fb) (ix2 n c) = fb (ix1 c) := by
  refine (broadcastInDim_apply _ _ _ (ix2 n c) (ix2 (0 : Fin 1) c) (fun a => by
    match a with
    | ⟨0, _⟩ => rfl
    | ⟨1, _⟩ => rfl)).trans ?_
  exact broadcastInDim_apply _ _ fb (ix2 (0 : Fin 1) c) (ix1 c) (fun a => by
    match a with
    | ⟨0, _⟩ => rfl)

/-- Entry (row of (b, w, h), c) of the linear stage is the specification's lin at that pixel and channel. -/
theorem linT_apply (x : FVec Ideal S32x512x56x56 .f32) (fw : FVec Ideal S512x512 .f32) (fb : FVec Ideal S512 .f32)
    (b : Fin 32) (w h : Fin 56) (c : Fin 512) :
    linT x fw fb (ix2 (pix b w h) c) = Cert.Spec.lin x fw fb b w h c := by
  unfold linT Cert.Spec.lin
  show rowsT x (ix2 (pix b w h) c) + (_ + _) = _
  rw [rowsT_apply, dot1_apply, bias_apply]
  simp only [rowsT_apply]

end Cert.ReferenceIdeal.RefValue

end
-- ==== Proof.RefReadGram.lean ====
/-
  The grouped product and the activation of the reference read at an index.

  A pixel row of 512 channels is read as 32 groups of 16: entry (g, p) of the regrouped row is channel 16 g + p.
  The batched product contracts the group axis, so entry (p, q) of a pixel's 16 × 16 product is the sum over the 32
  groups of channel 16 g + p times channel 16 g + q. Division by the constant 32 is multiplication by 1/32, tanh is
  applied entrywise, and the 16 × 16 products are laid out as 256 entries per pixel, entry j coming from row j / 16
  and column j % 16.
-/
import proofs.«174560_j51247549776179_2_alg».proof.Proof.RefReadRows
import proofs.«174560_j51247549776179_2_alg».proof.Proof.Consts

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Cert.ReferenceIdeal.Facts]

local notation "D₂" => dot_S100352x32x16_S100352x32x16_S100352x16x16_1_1_2_2_0_0

theorem lhs_D2_0 (i : S100352x16x16.Idx) (q : (D₂).contr.Idx) : ((D₂).lhsIdx i q 0).val = (i 0).val := by
  unfold DotDims.lhsIdx
  rw [dif_pos (show (0 : Fin S100352x32x16.rank) ∈ (D₂).lhsBatch from (by decide : (0 : Fin 3) ∈ ([0] : List (Fin 3))))]
  rfl

theorem lhs_D2_1 (i : S100352x16x16.Idx) (q : (D₂).contr.Idx) : ((D₂).lhsIdx i q 1).val = (q ⟨0, Nat.one_pos⟩).val :=
  (D₂).lhsIdx_val_of_single rfl i q

theorem lhs_D2_2 (i : S100352x16x16.Idx) (q : (D₂).contr.Idx) : ((D₂).lhsIdx i q 2).val = (i 1).val := by
  unfold DotDims.lhsIdx
  rw [dif_neg (show ¬(2 : Fin S100352x32x16.rank) ∈ (D₂).lhsBatch from (by decide : ¬(2 : Fin 3) ∈ ([0] : List (Fin 3)))),
    dif_pos (show (2 : Fin S100352x32x16.rank) ∈ (D₂).lhsNonContracting from (by decide : (2 : Fin 3) ∈ ([2] : List (Fin 3))))]
  rfl

theorem rhs_D2_0 (i : S100352x16x16.Idx) (q : (D₂).contr.Idx) : ((D₂).rhsIdx i q 0).val = (i 0).val := by
  unfold DotDims.rhsIdx
  rw [dif_pos (show (0 : Fin S100352x32x16.rank) ∈ (D₂).rhsBatch from (by decide : (0 : Fin 3) ∈ ([0] : List (Fin 3))))]
  rfl

theorem rhs_D2_1 (i : S100352x16x16.Idx) (q : (D₂).contr.Idx) : ((D₂).rhsIdx i q 1).val = (q ⟨0, Nat.one_pos⟩).val :=
  (D₂).rhsIdx_val_of_single rfl i q

theorem rhs_D2_2 (i : S100352x16x16.Idx) (q : (D₂).contr.Idx) : ((D₂).rhsIdx i q 2).val = (i 2).val := by
  unfold DotDims.rhsIdx
  rw [dif_neg (show ¬(2 : Fin S100352x32x16.rank) ∈ (D₂).rhsBatch from (by decide : ¬(2 : Fin 3) ∈ ([0] : List (Fin 3)))),
    dif_pos (show (2 : Fin S100352x32x16.rank) ∈ (D₂).rhsNonContracting from (by decide : (2 : Fin 3) ∈ ([2] : List (Fin 3))))]
  rfl

/-- Entry (g, p) of a pixel row regrouped as 32 × 16 is channel 16 g + p of the row. -/
theorem regroup_apply (l : FVec Ideal S100352x512 .f32) (n : Fin 100352) (g : Fin 32) (p : Fin 16) :
    shapeCast S100352x32x16 l shapeCasts_S100352x512_S100352x32x16 (ix3 n g p) = l (ix2 n (Cert.Spec.chan g p)) := by
  refine shapeCast_apply _ _ (ix3 n g p) (ix2 n (Cert.Spec.chan g p)) ?_
  rw [Shape.rowMajor_val_two, Shape.rowMajor_val_three]
  show n.val * 512 + (g.val * 16 + p.val) = (n.val * 32 + g.val) * 16 + p.val
  omega

/-- Entry (p, q) of a pixel's grouped product: the sum over the groups of channel 16 g + p times channel 16 g + q. -/
theorem gramT_apply (l : FVec Ideal S100352x512 .f32) (n : Fin 100352) (p q : Fin 16) :
    gramT l (ix3 n p q) = ∑ g : Fin 32, l (ix2 n (Cert.Spec.chan g p)) * l (ix2 n (Cert.Spec.chan g q)) := by
  unfold gramT
  simp only [Host.dotGeneral]
  rw [Ideal.dotGeneral_apply, ← Equiv.sum_comp (contrEquiv1 D₂ 32 rfl rfl).symm]
  refine Finset.sum_congr rfl fun g _ => ?_
  have hk := contrEquiv1_symm_val D₂ 32 rfl rfl g
  have el : (D₂).lhsIdx (ix3 n p q) ((contrEquiv1 D₂ 32 rfl rfl).symm g) = ix3 n g p := funext fun a => Fin.ext (by
    match a with
    | ⟨0, _⟩ => exact lhs_D2_0 _ _
    | ⟨1, _⟩ => exact (lhs_D2_1 _ _).trans hk
    | ⟨2, _⟩ => exact lhs_D2_2 _ _)
  have er : (D₂).rhsIdx (ix3 n p q) ((contrEquiv1 D₂ 32 rfl rfl).symm g) = ix3 n g q := funext fun a => Fin.ext (by
    match a with
    | ⟨0, _⟩ => exact rhs_D2_0 _ _
    | ⟨1, _⟩ => exact (rhs_D2_1 _ _).trans hk
    | ⟨2, _⟩ => exact rhs_D2_2 _ _)
  rw [el, er, regroup_apply, regroup_apply]

/-- Entry j of a pixel's activation: tanh of entry (j / 16, j % 16) of its grouped product times 1/32. -/
theorem actT_apply (gm : FVec Ideal S100352x16x16 .f32) (b : Fin 32) (w h : Fin 56) (j : Fin 256) :
    actT gm (ix4 b w h j)
      = Ideal.tanh (gm (ix3 (pix b w h) (Cert.Spec.rowOf j) (Cert.Spec.colOf j)) * ((1 / 32 : ℝ) : EReal)) := by
  unfold actT
  refine (shapeCast_apply _ _ (ix4 b w h j) (ix3 (pix b w h) (Cert.Spec.rowOf j) (Cert.Spec.colOf j)) ?_).trans ?_
  · rw [Shape.rowMajor_val_three, Shape.rowMajor_val_four]
    show (((b.val * 56 + w.val) * 56 + h.val) * 16 + j.val / 16) * 16 + j.val % 16
      = ((b.val * 56 + w.val) * 56 + h.val) * 256 + j.val
    omega
  · show Ideal.tanh (Ideal.div (gm _)
      (broadcastInDim S100352x16x16 ![] bcast_S_S100352x16x16 (constant (F := Ideal) S_ .f32 0x42000000#32) _)) = _
    rw [broadcastInDim_scalar_apply, constant_apply, Cert.Consts.ofBits_32, Ideal.div_coe (by norm_num)]

end Cert.ReferenceIdeal.RefValue

end
-- ==== Proof.RefReadIdx.lean ====
/-
  The integer index vector of the reference, evaluated.

  Entry c of the vector is computed on 32-bit words: c · 256, floor-divided by 512 (the truncating quotient, lowered
  by one where dividend and divisor differ in sign and the remainder is not zero), then raised by 256 where the
  result is negative. For 0 ≤ c < 512 the dividend is non-negative and below 2¹⁷, so neither correction applies and
  the entry is the word of c / 2. The statement is checked by evaluating the word arithmetic at each of the 512
  values of c.
-/
import proofs.«174560_j51247549776179_2_alg».proof.Proof.RefTerm
import Idealize.ShloMosaic.Lib.ValueIdx

noncomputable section

namespace Cert.ReferenceIdeal.RefValue

open Idealize.ShloMosaic Idealize.ShloMosaic.ValueIdx
open Cert.ReferenceIdeal Cert.ReferenceIdeal.Facts₀ Cert.ReferenceIdeal.Facts

/-- The sign of a word as a word: 0, -1 or 1. -/
def signW (a : BitVec 32) : BitVec 32 := if a = 0 then 0 else if a.msb then -1 else 1

/-- One entry of the index vector as a function of the iota's word. -/
def idxW (v : BitVec 32) : BitVec 32 :=
  let a := IntOp.muli v 256#32
  let q := IntOp.divsi .host a 512#32
  let fd := Scalar.select
    (IntOp.andi (IntOp.cmpi .ne (signW a) (signW 512#32)) (IntOp.cmpi .ne (IntOp.remsi .host a 512#32) 0#32))
    (IntOp.subi q 1#32) q
  Scalar.select (IntOp.cmpi .slt fd 0#32) (IntOp.addi fd 256#32) fd

/-- For every channel c below 512 the entry is the word of c / 2. -/
theorem idxW_eq : ∀ c : Fin 512, idxW (BitVec.ofNat 32 c.val) = BitVec.ofNat 32 (c.val / 2) := by
  decide +kernel

variable [Cert.ReferenceIdeal.Facts]

/-- The index vector at channel c is the word of c / 2. -/
theorem idxT_apply (c : Fin 512) : idxT (ix1 c) = BitVec.ofNat 32 (c.val / 2) := by
  rw [← idxW_eq c]
  rfl

end Cert.ReferenceIdeal.RefValue

end
-- ==== Proof.RefReadUp.lean ====
/-
  The upsampling of the reference read at an index.

  The gather takes whole (batch, row, column) slices of the activation and, for output channel c, the entry of the
  last axis named by the index vector at c. That vector holds c / 2, which lies inside the axis, so the clamp of the
  start index changes nothing; the transpose then moves the channel axis to second place. Hence entry (b, c, w, h)
  of the upsampled array is entry c / 2 of the activation at pixel (b, w, h).
-/
import proofs.«174560_j51247549776179_2_alg».proof.Proof.RefReadIdx
import proofs.«174560_j51247549776179_2_alg».proof.Proof.Spec
import Idealize.ShloMosaic.Lib.Pipeline.Value

noncomputable section

namespace Cert.ReferenceIdeal.RefValue

open Idealize.ShloMosaic Idealize.ShloMosaic.ValueIdx
open Cert.ReferenceIdeal Cert.ReferenceIdeal.Facts₀ Cert.ReferenceIdeal.Facts

/-- The word of c / 2, read as a signed integer and clamped into the 256 entries, is c / 2. -/
theorem clamp_half : ∀ c : Fin 512, min (BitVec.ofNat 32 (c.val / 2)).toInt.toNat 255 = c.val / 2 := by
  decide +kernel

variable [Cert.ReferenceIdeal.Facts]

local notation "GD" => gather_S32x56x56x256_S512x1_S32x56x56x512_012_3_n_n_3_1_3256561

/-- The index vector as a column, at row c, is the word of c / 2. -/
theorem idxCol_apply (c : Fin 512) (z : Fin 1) :
    broadcastInDim S512x1 ![0] bcast_S512_S512x1_0 idxT (ix2 c z) = BitVec.ofNat 32 (c.val / 2) := by
  refine (broadcastInDim_apply _ _ idxT (ix2 c z) (ix1 c) (fun a => by
    match a with
    | ⟨0, _⟩ => rfl)).trans ?_
  exact idxT_apply c

/-- On each of the three slice axes the gather reads the result index's own coordinate. -/
theorem gather_ax0 {wd : Nat} (j : S32x56x56x512.Idx) (idx : IVec S512x1 wd) : ((GD).operandIdx j idx 0).val = (j 0).val := by
  show (GD).start j idx 0 + (GD).batchCoord j 0 + (GD).offCoord j 0 = _
  rw [GatherDims.batchCoord_eq_zero _ _ _ List.not_mem_nil, Nat.add_zero]
  unfold GatherDims.start GatherDims.offCoord
  rw [dif_neg (show ¬(0 : Fin S32x56x56x256.rank) ∈ (GD).startIndexMap from
      (by decide : ¬(0 : Fin 4) ∈ ([3] : List (Fin 4)))),
    dif_pos (show (0 : Fin S32x56x56x256.rank) ∈ (GD).sKept from
      (by decide : (0 : Fin 4) ∈ S32x56x56x256.kept ([3] ++ [])))]
  rw [Nat.zero_add]
  rfl

theorem gather_ax1 {wd : Nat} (j : S32x56x56x512.Idx) (idx : IVec S512x1 wd) : ((GD).operandIdx j idx 1).val = (j 1).val := by
  show (GD).start j idx 1 + (GD).batchCoord j 1 + (GD).offCoord j 1 = _
  rw [GatherDims.batchCoord_eq_zero _ _ _ List.not_mem_nil, Nat.add_zero]
  unfold GatherDims.start GatherDims.offCoord
  rw [dif_neg (show ¬(1 : Fin S32x56x56x256.rank) ∈ (GD).startIndexMap from
      (by decide : ¬(1 : Fin 4) ∈ ([3] : List (Fin 4)))),
    dif_pos (show (1 : Fin S32x56x56x256.rank) ∈ (GD).sKept from
      (by decide : (1 : Fin 4) ∈ S32x56x56x256.kept ([3] ++ [])))]
  rw [Nat.zero_add]
  rfl

theorem gather_ax2 {wd : Nat} (j : S32x56x56x512.Idx) (idx : IVec S512x1 wd) : ((GD).operandIdx j idx 2).val = (j 2).val := by
  show (GD).start j idx 2 + (GD).batchCoord j 2 + (GD).offCoord j 2 = _
  rw [GatherDims.batchCoord_eq_zero _ _ _ List.not_mem_nil, Nat.add_zero]
  unfold GatherDims.start GatherDims.offCoord
  rw [dif_neg (show ¬(2 : Fin S32x56x56x256.rank) ∈ (GD).startIndexMap from
      (by decide : ¬(2 : Fin 4) ∈ ([3] : List (Fin 4)))),
    dif_pos (show (2 : Fin S32x56x56x256.rank) ∈ (GD).sKept from
      (by decide : (2 : Fin 4) ∈ S32x56x56x256.kept ([3] ++ [])))]
  rw [Nat.zero_add]
  rfl

/-- On the collapsed last axis the gather reads the clamped start index, which for channel c is c / 2. -/
theorem gather_ax3 (b : Fin 32) (w h : Fin 56) (c : Fin 512) :
    ((GD).operandIdx (ix4 b w h c) (broadcastInDim S512x1 ![0] bcast_S512_S512x1_0 idxT) 3).val = c.val / 2 := by
  show (GD).start (ix4 b w h c) _ 3 + (GD).batchCoord (ix4 b w h c) 3 + (GD).offCoord (ix4 b w h c) 3 = _
  rw [GatherDims.batchCoord_eq_zero _ _ _ List.not_mem_nil, Nat.add_zero,
    GatherDims.offCoord_eq_zero _ _ _
      (fun hm => ((GatherDims.mem_sKept _ _).mp hm).1 (List.mem_singleton.mpr rfl)), Nat.add_zero]
  unfold GatherDims.start
  rw [dif_pos (show (3 : Fin S32x56x56x256.rank) ∈ (GD).startIndexMap from List.mem_singleton.mpr rfl)]
  have hsi : (GD).siIdx (ix4 b w h c) ⟨List.idxOf (3 : Fin S32x56x56x256.rank) (GD).startIndexMap,
      List.idxOf_lt_length_iff.2 (List.mem_singleton.mpr rfl)⟩ = ix2 c (0 : Fin 1) := by
    funext d
    refine Fin.ext ?_
    match d with
    | ⟨0, _⟩ => rfl
    | ⟨1, _⟩ => rfl
  rw [hsi, idxCol_apply]
  exact clamp_half c

/-- The operand index the gather reads at result index (b, w, h, c) is (b, w, h, c / 2). -/
theorem gather_idx (b : Fin 32) (w h : Fin 56) (c : Fin 512) :
    (GD).operandIdx (ix4 b w h c) (broadcastInDim S512x1 ![0] bcast_S512_S512x1_0 idxT)
      = ix4 b w h (Cert.Spec.half c) := by
  funext a
  refine Fin.ext ?_
  match a with
  | ⟨0, _⟩ => exact gather_ax0 _ _
  | ⟨1, _⟩ => exact gather_ax1 _ _
  | ⟨2, _⟩ => exact gather_ax2 _ _
  | ⟨3, _⟩ => exact gather_ax3 b w h c

/-- Entry (b, c, w, h) of the upsampled array is entry c / 2 of the activation at pixel (b, w, h). -/
theorem upT_apply (a : FVec Ideal S32x56x56x256 .f32) (b : Fin 32) (c : Fin 512) (w h : Fin 56) :
    upT a (ix4 b c w h) = a (ix4 b w h (Cert.Spec.half c)) := by
  unfold upT
  refine (transpose_apply [0, 3, 1, 2] _ _ (ix4 b c w h) (ix4 b w h c) (fun d => by
    match d with
    | ⟨0, _⟩ => rfl
    | ⟨1, _⟩ => rfl
    | ⟨2, _⟩ => rfl
    | ⟨3, _⟩ => rfl)).trans ?_
  unfold Host.gather
  rw [gather_idx]

end Cert.ReferenceIdeal.RefValue

end
-- ==== Proof.RefReadNorm.lean ====
/-
  The batch normalisation of the reference read at an index, for an arbitrary array u in channel-major order.

  A sum over axes 0, 2 and 3 started from the zero word is, at channel c, the triple sum over (b, w, h) of the
  entries (b, c, w, h): the entries that reduce to c are exactly those whose second coordinate is c, and they are in
  bijection with the triples. The mean is that sum divided by the pixel count. In the variance the divisor is the
  pixel count less the integer 0 converted to a float, which is the pixel count itself and is positive, so the
  comparison guarding the quotient holds and the guarded value is the mean squared deviation; the not-a-number word
  in the other branch is never read. The result adds to the input the deviation from the mean times the reciprocal
  square root of variance plus offset, times the gain, plus the bias.
-/
import proofs.«174560_j51247549776179_2_alg».proof.Proof.RefTerm
import proofs.«174560_j51247549776179_2_alg».proof.Proof.Spec
import proofs.«174560_j51247549776179_2_alg».proof.Proof.Consts
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

/-- The mean of channel c of u over all pixels. -/
def chanMean (u : FVec Ideal S32x512x56x56 .f32) (c : Fin 512) : EReal :=
  Ideal.div (∑ b : Fin 32, ∑ w : Fin 56, ∑ h : Fin 56, u (ix4 b c w h)) Cert.Spec.nPix

/-- The mean squared deviation of channel c of u from its mean. -/
def chanVar (u : FVec Ideal S32x512x56x56 .f32) (c : Fin 512) : EReal :=
  Ideal.div (∑ b : Fin 32, ∑ w : Fin 56, ∑ h : Fin 56,
    (u (ix4 b c w h) - chanMean u c) * (u (ix4 b c w h) - chanMean u c)) Cert.Spec.nPix

theorem hostRsqrt_apply {s : Shape} {φ : FTy} (v : FVec Ideal s φ) (i : s.Idx) : Host.rsqrt v i = Ideal.rsqrt (v i) := rfl

variable [Cert.ReferenceIdeal.Facts]

local notation "R₀" => reducesTo_S32x512x56x56_S512_d0_2_3

/-- Dropping axes 0, 2 and 3 of an index leaves its channel. -/
theorem drop_eq (i : S32x512x56x56.Idx) : (R₀).drop i = ix1 (i 1) := by
  funext a
  refine Fin.ext ?_
  match a with
  | ⟨0, _⟩ => exact Shape.ReducesTo.drop_apply_val_of_eq R₀ i 0 1

/-- The sum over batch, rows and columns from the zero word, at channel c. -/
theorem reduce_apply (u : FVec Ideal S32x512x56x56 .f32) (c : Fin 512) :
    Host.reduceAdd u (constant (F := Ideal) S_ .f32 0x00000000#32) R₀ h_S_ (ix1 c)
      = ∑ b : Fin 32, ∑ w : Fin 56, ∑ h : Fin 56, u (ix4 b c w h) := by
  rw [hostReduceAdd_apply, constant_apply, Ideal.ofBits_zero_f32]
  unfold Ideal.hostReduceAdd
  rw [zero_add]
  have hc : ∀ i : S32x512x56x56.Idx, i ∈ Finset.univ.filter (fun i => (R₀).drop i = ix1 c) → i 1 = c := by
    intro i hi
    have h1 := (Finset.mem_filter.mp hi).2
    rw [drop_eq] at h1
    exact congrFun h1 0
  refine (Finset.sum_nbij' (t := Finset.univ) (g := fun p : Fin 32 × Fin 56 × Fin 56 => u (ix4 p.1 c p.2.1 p.2.2))
    (fun i => (i 0, i 2, i 3)) (fun p => ix4 p.1 c p.2.1 p.2.2) ?_ ?_ ?_ ?_ ?_).trans ?_
  · intro i _; exact Finset.mem_univ _
  · intro p _
    exact Finset.mem_filter.mpr ⟨Finset.mem_univ _, (drop_eq _).trans rfl⟩
  · intro i hi
    show ix4 (i 0) c (i 2) (i 3) = i
    rw [← hc i hi]; exact (eq_ix4 i).symm
  · intro p _; rfl
  · intro i hi
    have h1 := hc i hi
    subst h1
    exact congrArg u (eq_ix4 i)
  · rw [Fintype.sum_prod_type]
    refine Finset.sum_congr rfl fun b _ => ?_
    rw [Fintype.sum_prod_type]

/-- A per-channel vector laid along axis 1 of a [1, 512, 1, 1] array. -/
theorem bc1_apply {α : Type} (v : S512.Idx → α) (c : Fin 512) (z0 z2 z3 : Fin 1) :
    broadcastInDim S1x512x1x1 ![1] bcast_S512_S1x512x1x1_1 v (ix4 z0 c z2 z3) = v (ix1 c) :=
  broadcastInDim_apply _ _ v (ix4 z0 c z2 z3) (ix1 c) (fun a => by
    match a with
    | ⟨0, _⟩ => rfl)

/-- A [1, 512, 1, 1] array broadcast over batch, rows and columns. -/
theorem bc4_apply {α : Type} (m : S1x512x1x1.Idx → α) (b : Fin 32) (c : Fin 512) (w h : Fin 56) :
    broadcastInDim S32x512x56x56 ![0, 1, 2, 3] bcast_S1x512x1x1_S32x512x56x56_0_1_2_3 m (ix4 b c w h)
      = m (ix4 (0 : Fin 1) c (0 : Fin 1) (0 : Fin 1)) :=
  broadcastInDim_apply _ _ m (ix4 b c w h) (ix4 (0 : Fin 1) c (0 : Fin 1) (0 : Fin 1)) (fun a => by
    match a with
    | ⟨0, _⟩ => rfl
    | ⟨1, _⟩ => rfl
    | ⟨2, _⟩ => rfl
    | ⟨3, _⟩ => rfl)

/-- The mean stage at channel c. -/
theorem meanT_apply (u : FVec Ideal S32x512x56x56 .f32) (c : Fin 512) (z0 z2 z3 : Fin 1) :
    meanT u (ix4 z0 c z2 z3) = chanMean u c := by
  unfold meanT chanMean
  rw [hostDivf_apply, bc1_apply, reduce_apply, broadcastInDim_scalar_apply, constant_apply]

/-- The divisor of the variance is the pixel count: the correction is the integer 0. -/
theorem divisor_eq : divisorT (constantI S_ 32 0#32) ix0 = Ideal.ofBits .f32 0x47C40000#32 := by
  unfold divisorT
  rw [subf_apply, constant_apply, sitofp_apply]
  show Ideal.ofBits .f32 0x47C40000#32 - (((0#32 : BitVec 32).toInt : ℝ) : EReal) = Ideal.ofBits .f32 0x47C40000#32
  simp

/-- The divisor is positive, so the comparison guarding the variance holds. -/
theorem cond_eq :
    (cmpf .ogt (divisorT (constantI S_ 32 0#32)) (constant (F := Ideal) S_ .f32 0x00000000#32) : IVec S_ 1) ix0 = 1#1 := by
  rw [cmpf_apply, divisor_eq, constant_apply, Ideal.cmpf_def]
  unfold Ideal.cmp
  rw [Cert.Consts.ofBits_nPix, Cert.Consts.ofBits_zero]
  have hpos : (0 : EReal) < ((100352 : ℝ) : EReal) := by exact_mod_cast (by norm_num : (0 : ℝ) < 100352)
  show BitVec.ofBool (decide ((0 : EReal) < ((100352 : ℝ) : EReal))) = 1#1
  rw [decide_eq_true hpos]
  rfl

/-- The variance stage at channel c. -/
theorem varT_apply (u : FVec Ideal S32x512x56x56 .f32) (c : Fin 512) (z0 z2 z3 : Fin 1) :
    varT u (constantI S_ 32 0#32) (ix4 z0 c z2 z3) = chanVar u c := by
  unfold varT chanVar
  beta_reduce
  simp only [select_apply, hostDivf_apply]
  rw [broadcastInDim_scalar_apply bcast_S_S1x512x1x1
      (cmpf .ogt (divisorT (constantI S_ 32 0#32)) (constant (F := Ideal) S_ .f32 0x00000000#32)),
    cond_eq, select_one, bc1_apply, reduce_apply, broadcastInDim_scalar_apply, divisor_eq]
  refine congrArg (fun s => Ideal.div s (Ideal.ofBits .f32 0x47C40000#32)) ?_
  refine Finset.sum_congr rfl fun b _ => Finset.sum_congr rfl fun w _ => Finset.sum_congr rfl fun h _ => ?_
  rw [mulf_apply, subf_apply, bc4_apply, meanT_apply]

/-- The normalised array added to the input, at (b, c, w, h). -/
theorem normT_apply (u x : FVec Ideal S32x512x56x56 .f32) (g bb : FVec Ideal S512 .f32)
    (b : Fin 32) (c : Fin 512) (w h : Fin 56) :
    normT u x g bb (ix4 b c w h)
      = x (ix4 b c w h) + (((u (ix4 b c w h) - chanMean u c) * Ideal.rsqrt (chanVar u c + Cert.Spec.eps))
          * g (ix1 c) + bb (ix1 c)) := by
  unfold normT
  simp only [addf_apply, mulf_apply, subf_apply]
  rw [bc4_apply, bc4_apply, bc4_apply, bc4_apply, meanT_apply, hostRsqrt_apply, addf_apply, varT_apply,
    broadcastInDim_scalar_apply, constant_apply, bc1_apply, bc1_apply]

end Cert.ReferenceIdeal.RefValue

end
-- ==== Proof.RefRead.lean ====
/-
  The reference's result array is the centred form of the specification.

  Reading the stages in order: the upsampled array at (b, c, w, h) is the specification's activation at pixel
  (b, w, h), entry c / 2 — the linear layer with residual, the grouped product of a pixel's channels with themselves,
  the scaling by 1/32 and tanh, then the gather at the index c / 2. The per-channel mean and mean squared deviation of
  that array are therefore the mean and centred variance of activation entry c / 2 over the pixels, and the
  normalised sum with the input is the centred form.
-/
import proofs.«174560_j51247549776179_2_alg».proof.Proof.RefReadGram
import proofs.«174560_j51247549776179_2_alg».proof.Proof.RefReadUp
import proofs.«174560_j51247549776179_2_alg».proof.Proof.RefReadNorm

noncomputable section

open scoped BigOperators

namespace Cert.ReferenceIdeal.RefValue

open Idealize.ShloMosaic Idealize.ShloMosaic.ValueIdx
open Cert.ReferenceIdeal Cert.ReferenceIdeal.Facts₀ Cert.ReferenceIdeal.Facts

variable [Cert.ReferenceIdeal.Facts]

/-- The upsampled activation at (b, c, w, h) is the specification's activation at pixel (b, w, h), entry c / 2. -/
theorem up_act (x : FVec Ideal S32x512x56x56 .f32) (fw : FVec Ideal S512x512 .f32) (fb : FVec Ideal S512 .f32)
    (b : Fin 32) (c : Fin 512) (w h : Fin 56) :
    upT (actT (gramT (linT x fw fb))) (ix4 b c w h) = Cert.Spec.act x fw fb b w h (Cert.Spec.half c) := by
  rw [upT_apply, actT_apply, gramT_apply]
  unfold Cert.Spec.act Cert.Spec.gram
  simp only [linT_apply]

/-- The reference's result is the centred form of the specification over its activation. -/
theorem refTerm_eq (x : FVec Ideal S32x512x56x56 .f32) (fw : FVec Ideal S512x512 .f32) (fb g b : FVec Ideal S512 .f32) :
    refTerm x fw fb g b = Cert.Spec.centredForm (Cert.Spec.act x fw fb) g b x := by
  funext i
  obtain ⟨n, c, w, h, rfl⟩ : ∃ (n : Fin 32) (c : Fin 512) (w h : Fin 56), i = ix4 n c w h :=
    ⟨i 0, i 1, i 2, i 3, eq_ix4 i⟩
  unfold refTerm
  rw [normT_apply]
  have hm : chanMean (upT (actT (gramT (linT x fw fb)))) c
      = Cert.Spec.mean (Cert.Spec.act x fw fb) (Cert.Spec.half c) := by
    unfold chanMean Cert.Spec.mean Cert.Spec.total
    simp only [up_act]
  have hv : chanVar (upT (actT (gramT (linT x fw fb)))) c
      = Cert.Spec.varCentred (Cert.Spec.act x fw fb) (Cert.Spec.half c) := by
    unfold chanVar Cert.Spec.varCentred
    simp only [up_act, hm]
  rw [hm, hv, up_act]
  rfl

end Cert.ReferenceIdeal.RefValue

end
-- ==== Proof.lean ====
/-
  The certificate: a fused grouped-bilinear block — linear layer with residual, grouped product of each pixel's
  channels with themselves, tanh, nearest-neighbour channel upsampling, batch normalisation with batch statistics,
  residual — computed in two passes over the image, against its plain array-language definition.

  On the extended reals both programs compute, at image b, channel c, row w, column h,
      x + normalise(act(b,w,h, c/2))
  where act is the tanh of the scaled grouped product (Proof/Spec.lean). They differ in three ways, none of which
  changes an extended real: the first program rounds some operands to a shorter float format (the identity here),
  walks the image in tiles and accumulates the batch totals tile by tile (a sum in another order), and multiplies by
  1/32 where the second divides by 32 (one exact dyadic number). They differ in a fourth way that does need an
  argument: the first computes the variance as mean of squares minus squared mean and folds the normalisation into
  one scale and one offset per channel; the second centres first. Those agree because the activation is a tanh, hence
  real whatever the inputs are, and the gain and offset are real by the precondition (Proof/Algebra.lean).

  The three frames: the two kernel programs' are the generated frame theorems; the reference's is its run with the
  result dropped. The idealization rewrote nothing, so its conjunct is trivial.
-/
import proofs.«174560_j51247549776179_2_alg».proof.Defs
import proofs.«174560_j51247549776179_2_alg».proof.Proof.Gen.Kernel
import proofs.«174560_j51247549776179_2_alg».proof.Proof.Gen.Kernel.Frame
import proofs.«174560_j51247549776179_2_alg».proof.Proof.Gen.KernelIdeal
import proofs.«174560_j51247549776179_2_alg».proof.Proof.Gen.KernelIdeal.Frame
import proofs.«174560_j51247549776179_2_alg».proof.Proof.Gen.ReferenceIdeal
import proofs.«174560_j51247549776179_2_alg».proof.Proof.Gen.Pre_finite_inputs
import proofs.«174560_j51247549776179_2_alg».proof.Proof.Spec
import proofs.«174560_j51247549776179_2_alg».proof.Proof.Algebra
import proofs.«174560_j51247549776179_2_alg».proof.Proof.Finite
import proofs.«174560_j51247549776179_2_alg».proof.Proof.KernelRun
import proofs.«174560_j51247549776179_2_alg».proof.Proof.KernelValue
import proofs.«174560_j51247549776179_2_alg».proof.Proof.RefRunOut
import proofs.«174560_j51247549776179_2_alg».proof.Proof.RefRead

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run_value m ρ)

/-- Nothing was rewritten when the kernel program was idealized. -/
theorem preserves : Cert.preserves_Kernel_KernelIdeal := trivial

/-- Both idealized programs end at one array: the fused normalisation of the activation, added to x. The kernel
    program's result is that array by its value (Proof/KernelValue.lean); the reference's is the centred form by its
    value (Proof/RefRead.lean), and the two forms are one function because the activation, the gain and the offset
    are real (Proof/Algebra.lean, Proof/Finite.lean). -/
theorem algebraic : Cert.algebraic_KernelIdeal_ReferenceIdeal := by
  intro m ρ m' ρ' hpre hagree
  refine ⟨fun c => Cert.Spec.fusedForm
      (Cert.Spec.act (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Value.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RefRun.run_value m' ρ')
    obtain ⟨hg, hb⟩ := Cert.Finite.gain_offset_real _ _ _ _ _ (hpre c)
    rw [(hagree c).1, (hagree c).2.1, (hagree c).2.2.1, (hagree c).2.2.2.1, (hagree c).2.2.2.2,
      Cert.ReferenceIdeal.RefValue.refTerm_eq]
    exact (Cert.Algebra.fused_eq_centred _ (fun b w h j => Cert.Spec.act_real _ _ _ b w h j) _ _ hg hb _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
